-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8x2048x512 .f32) (main_arg1 : FVec F S512x512 .f32) (main_arg2 : FVec F S512x512 .f32) (main_arg3 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8x2048x512 : Shape := ⟨3, ![8, 2048, 512]⟩
abbrev S512x512 : Shape := ⟨2, ![512, 512]⟩
abbrev S512x1536 : Shape := ⟨2, ![512, 1536]⟩
abbrev S8x128x512 : Shape := ⟨3, ![8, 128, 512]⟩
abbrev S1024x512 : Shape := ⟨2, ![1024, 512]⟩
abbrev S1024x1536 : Shape := ⟨2, ![1024, 1536]⟩
abbrev S8x128x1536 : Shape := ⟨3, ![8, 128, 1536]⟩
abbrev S8x1x2048 : Shape := ⟨3, ![8, 1, 2048]⟩
abbrev S8x512x512 : Shape := ⟨3, ![8, 512, 512]⟩
abbrev S8x256x512 : Shape := ⟨3, ![8, 256, 512]⟩
abbrev S8x1x256 : Shape := ⟨3, ![8, 1, 256]⟩
abbrev S8x512x256 : Shape := ⟨3, ![8, 512, 256]⟩
abbrev S8x256 : Shape := ⟨2, ![8, 256]⟩
abbrev S8x256x256 : Shape := ⟨3, ![8, 256, 256]⟩

abbrev nBuf : Space → Nat
  | .hbm => 11
  | .vmem => 28
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x1536, .f32⟩
  | .hbm, ⟨5, _⟩ => ⟨S512x1536, .bf16⟩
  | .hbm, ⟨6, _⟩ => ⟨S8x2048x512, .bf16⟩
  | .hbm, ⟨7, _⟩ => ⟨S8x2048x512, .bf16⟩
  | .hbm, ⟨8, _⟩ => ⟨S8x2048x512, .bf16⟩
  | .hbm, ⟨9, _⟩ => ⟨S8x1x2048, .f32⟩
  | .hbm, ⟨10, _⟩ => ⟨S8x2048x512, .f32⟩
  | .local _ .vmem, ⟨0, _⟩ => ⟨S8x128x512, .f32⟩
  | .local _ .vmem, ⟨1, _⟩ => ⟨S8x128x512, .f32⟩
  | .local _ .vmem, ⟨2, _⟩ => ⟨S512x1536, .bf16⟩
  | .local _ .vmem, ⟨3, _⟩ => ⟨S8x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x512x512, .bf16⟩
  | .local _ .vmem, ⟨10, _⟩ => ⟨S8x512x512, .bf16⟩
  | .local _ .vmem, ⟨11, _⟩ => ⟨S8x256x512, .bf16⟩
  | .local _ .vmem, ⟨12, _⟩ => ⟨S8x256x512, .bf16⟩
  | .local _ .vmem, ⟨13, _⟩ => ⟨S8x1x256, .f32⟩
  | .local _ .vmem, ⟨14, _⟩ => ⟨S8x1x256, .f32⟩
  | .local _ .vmem, ⟨15, _⟩ => ⟨S8x1x256, .f32⟩
  | .local _ .vmem, ⟨16, _⟩ => ⟨S8x1x256, .f32⟩
  | .local _ .vmem, ⟨17, _⟩ => ⟨S8x256x512, .bf16⟩
  | .local _ .vmem, ⟨18, _⟩ => ⟨S8x256x512, .bf16⟩
  | .local _ .vmem, ⟨19, _⟩ => ⟨S8x256x512, .bf16⟩
  | .local _ .vmem, ⟨20, _⟩ => ⟨S8x256x512, .bf16⟩
  | .local _ .vmem, ⟨21, _⟩ => ⟨S8x256x512, .bf16⟩
  | .local _ .vmem, ⟨22, _⟩ => ⟨S8x256x512, .bf16⟩
  | .local _ .vmem, ⟨23, _⟩ => ⟨S8x1x256, .f32⟩
  | .local _ .vmem, ⟨24, _⟩ => ⟨S8x1x256, .f32⟩
  | .local _ .vmem, ⟨25, _⟩ => ⟨S8x256x512, .f32⟩
  | .local _ .vmem, ⟨26, _⟩ => ⟨S8x256x512, .f32⟩
  | .local _ .vmem, ⟨27, _⟩ => ⟨S8x256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_23 : BitVec 32 := 0#32
  let v31 : BitVec 1 := Scalar.cmpi .ne v30 c0_i32_23
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_20 : BitVec 32 := 0#32
  let v26 : BitVec 1 := Scalar.cmpi .ne v25 c0_i32_20
  v26

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S8x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S8x256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  concatenates_S512x512_S512x512_S512x512_S512x1536_d1 : Shape.Concatenates [S512x512, S512x512, S512x512] S512x1536 1
  bitsLt_bf16_f32 : FTy.bits .bf16 < FTy.bits .f32
  inb_S8x128x512_S8x128x512_0_0_0 : ∀ a, (![0, 0, 0] : Fin 3 → Nat) a + S8x128x512.size a ≤ S8x128x512.size a
  h_S8x128x512 : 0 < S8x128x512.numel
  shapeCasts_S8x128x512_S1024x512 : S8x128x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  shapeCasts_S1024x1536_S8x128x1536 : S1024x1536.ShapeCasts S8x128x1536
  slices_S8x128x1536_o0_0_0_S8x128x512 : S8x128x1536.Slices ![0, 0, 0] S8x128x512
  packedbf16_S8x128x512_S8x128x512_0_0_0 : (Rect.unit (s := S8x128x512) ![0, 0, 0] S8x128x512.size inb_S8x128x512_S8x128x512_0_0_0).PackedRows (EltTy.packing .bf16)
  slices_S8x128x1536_o0_0_512_S8x128x512 : S8x128x1536.Slices ![0, 0, 512] S8x128x512
  slices_S8x128x1536_o0_0_1024_S8x128x512 : S8x128x1536.Slices ![0, 0, 1024] S8x128x512
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x512x256_S8x256 : S8x512x256.Reduces [1] S8x256
  shapeCasts_S8x256_S8x1x256 : S8x256.ShapeCasts S8x1x256
  broadcasts_S8x1x256_S8x512x256 : S8x1x256.Broadcasts S8x512x256
  broadcasts_S8x1x256_S8x256x256 : S8x1x256.Broadcasts S8x256x256
  dot_S1024x512_S512x1536_S1024x1536_1_0_0_1_n_n_wf : DotDims.WF S1024x512 S512x1536 S1024x1536 [1] [0] [0] [1] [] []
  dot_S8x512x512_S8x256x512_S8x512x256_2_2_1_1_0_0_wf : DotDims.WF S8x512x512 S8x256x512 S8x512x256 [2] [2] [1] [1] [0] [0]
  dot_S8x256x512_S8x256x512_S8x256x256_2_2_1_1_0_0_wf : DotDims.WF S8x256x512 S8x256x512 S8x256x256 [2] [2] [1] [1] [0] [0]
  dot_S8x256x256_S8x256x512_S8x256x512_2_1_1_2_0_0_wf : DotDims.WF S8x256x256 S8x256x512 S8x256x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S8x2048x512.size a
  hwx0_0 : ∀ i : grid0.Coords, EltTy.bits .f32 = 32 ∨ (Rect.block (s := S8x2048x512) S8x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S8x2048x512.size a
  hwx0_2 : ∀ i : grid0.Coords, EltTy.bits .bf16 = 32 ∨ (Rect.block (s := S8x2048x512) S8x128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x512.size a ≤ S8x2048x512.size a
  hwx0_3 : ∀ i : grid0.Coords, EltTy.bits .bf16 = 32 ∨ (Rect.block (s := S8x2048x512) S8x128x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x512.size a ≤ S8x2048x512.size a
  hwx0_4 : ∀ i : grid0.Coords, EltTy.bits .bf16 = 32 ∨ (Rect.block (s := S8x2048x512) S8x128x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x512.size a ≤ S8x2048x512.size a
  hwx1_0 : ∀ i : grid1.Coords, EltTy.bits .bf16 = 32 ∨ (Rect.block (s := S8x2048x512) S8x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x512.size a ≤ S8x2048x512.size a
  hwx1_1 : ∀ i : grid1.Coords, EltTy.bits .bf16 = 32 ∨ (Rect.block (s := S8x2048x512) S8x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1x256.size a ≤ S8x1x2048.size a
  hwx1_2 : ∀ i : grid1.Coords, EltTy.bits .f32 = 32 ∨ (Rect.block (s := S8x1x2048) S8x1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x512.size a ≤ S8x2048x512.size a
  hwx2_0 : ∀ i : grid2.Coords, EltTy.bits .bf16 = 32 ∨ (Rect.block (s := S8x2048x512) S8x256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256x512.size a ≤ S8x2048x512.size a
  hwx2_1 : ∀ i : grid2.Coords, EltTy.bits .bf16 = 32 ∨ (Rect.block (s := S8x2048x512) S8x256x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x256x512.size a ≤ S8x2048x512.size a
  hwx2_2 : ∀ i : grid2.Coords, EltTy.bits .bf16 = 32 ∨ (Rect.block (s := S8x2048x512) S8x256x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x1x256.size a ≤ S8x1x2048.size a
  hwx2_3 : ∀ i : grid2.Coords, EltTy.bits .f32 = 32 ∨ (Rect.block (s := S8x1x2048) S8x1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x256x512.size a ≤ S8x2048x512.size a
  hwx2_4 : ∀ i : grid2.Coords, EltTy.bits .f32 = 32 ∨ (Rect.block (s := S8x2048x512) S8x256x512.size (cc2_transform_4 i) (hinb2_4 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S8x512x512_S8x256x512_S8x512x256_2_2_1_1_0_0 : DotDims S8x512x512 S8x256x512 S8x512x256 where
  lhsContracting := [2]
  rhsContracting := [2]
  lhsNonContracting := [1]
  rhsNonContracting := [1]
  lhsBatch := [0]
  rhsBatch := [0]
  wf := dot_S8x512x512_S8x256x512_S8x512x256_2_2_1_1_0_0_wf
def dot_S8x256x512_S8x256x512_S8x256x256_2_2_1_1_0_0 : DotDims S8x256x512 S8x256x512 S8x256x256 where
  lhsContracting := [2]
  rhsContracting := [2]
  lhsNonContracting := [1]
  rhsNonContracting := [1]
  lhsBatch := [0]
  rhsBatch := [0]
  wf := dot_S8x256x512_S8x256x512_S8x256x256_2_2_1_1_0_0_wf
def dot_S8x256x256_S8x256x512_S8x256x512_2_1_1_2_0_0 : DotDims S8x256x256 S8x256x512 S8x256x512 where
  lhsContracting := [2]
  rhsContracting := [1]
  lhsNonContracting := [1]
  rhsNonContracting := [2]
  lhsBatch := [0]
  rhsBatch := [0]
  wf := dot_S8x256x256_S8x256x512_S8x256x512_2_1_1_2_0_0_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S8x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2_0) S8x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S8x256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_2) S8x256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S8x1x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S8x256x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.BitsBody0.lean ====
/-
  The projection kernel's body, at one grid point: from a block of 128 token rows (all 8 batches) and the whole
  concatenated weight matrix it stores the three 512-column slices of their matrix product into the three
  output blocks. It reads nothing it wrote and keeps nothing between points.
-/
import proofs.«100197_j52690658787659_2_alg».proof.Proof.Gen.Kernel.Launch
import proofs.«100197_j52690658787659_2_alg».proof.Proof.Gen.Kernel.Skeleton
import proofs.«100197_j52690658787659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole block of token rows, and the whole weight matrix, as the body loads them. -/
abbrev rTok : Rect S8x128x512 := Rect.unit (s := S8x128x512) ![0, 0, 0] S8x128x512.size inb_S8x128x512_S8x128x512_0_0_0
abbrev rWcat : Rect S512x1536 := Rect.unit (s := S512x1536) ![0, 0] S512x1536.size inb_S512x1536_S512x1536_0_0

/-- What the body leaves in the query, key and value blocks: one whole-block store each, of the matching slice
    of the product. -/
def projQ (x : Vec F S8x128x512 .f32) (w : Vec F S512x1536 .bf16) : Vec F S8x128x512 .bf16 :=
  View.canon [⟨rTok, k0_pay2 (View.ld x rTok) (View.ld w rWcat)⟩]
def projK (x : Vec F S8x128x512 .f32) (w : Vec F S512x1536 .bf16) : Vec F S8x128x512 .bf16 :=
  View.canon [⟨rTok, k0_pay3 (View.ld x rTok) (View.ld w rWcat)⟩]
def projV (x : Vec F S8x128x512 .f32) (w : Vec F S512x1536 .bf16) : Vec F S8x128x512 .bf16 :=
  View.canon [⟨rTok, k0_pay4 (View.ld x rTok) (View.ld w rWcat)⟩]

/-- One store of the whole block covers the block. -/
theorem coverTok (p0 : Vec F S8x128x512 .bf16) (y : S8x128x512.Idx) :
    ∃ pc ∈ ([⟨rTok, p0⟩] : List (View.Piece (Elt F) S8x128x512 .bf16)), y ∈ pc.1.set :=
  View.cover_of_tiled [⟨rTok, p0⟩] S8x128x512.size (by rfl) y

set_option maxHeartbeats 1000000 in
/-- The body on whole staging buffers — the two inputs at contents `x`, `w`, the three outputs at anything — runs to
    its end leaving the inputs as they were and the outputs at the three slices of the product. -/
theorem proj_body (c : Dev nD) (E : Set ℕ) (i : grid0.Coords)
    (arg1 : Memref sig .tc .vmem S8x128x512 .f32) (harg1 : arg1.IsWhole) (arg2 : Memref sig .tc .vmem S512x1536 .bf16) (harg2 : arg2.IsWhole)
    (arg3 : Memref sig .tc .vmem S8x128x512 .bf16) (harg3 : arg3.IsWhole) (arg4 : Memref sig .tc .vmem S8x128x512 .bf16) (harg4 : arg4.IsWhole)
    (arg5 : Memref sig .tc .vmem S8x128x512 .bf16) (harg5 : arg5.IsWhole)
    (x : Vec F S8x128x512 .f32) (w : Vec F S512x1536 .bf16) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w
            ∗ owns (c : Thread nD τ) arg3 fullShare (projQ x w) ∗ owns (c : Thread nD τ) arg4 fullShare (projK x w)
            ∗ owns (c : Thread nD τ) arg5 fullShare (projV x w)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTok _)
  isplitl [H4]
  · iexists _; isplitr
    swap; · iexact H4
    ipureintro
    exact View.read_writes_eq_canon _ _ _ (coverTok _)
  iexists _; isplitr
  swap; · iexact H5
  ipureintro
  exact View.read_writes_eq_canon _ _ _ (coverTok _)

end Cert.Kernel.Hand

end
-- ==== Proof.BitsData0.lean ====
/-
  The projection region as the pipeline runs it: what each window's staging buffer holds after the body at every
  grid point, as a function of the arrays the region finds, and the body's obligation at a generic point.
-/
import proofs.«100197_j52690658787659_2_alg».proof.Proof.BitsBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its index has not moved). -/
theorem before0_in0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_in1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The region's proof data on core `c`: after the body at point `t` the two inputs' buffers hold their blocks and the
    three outputs' the query, key and value slices of the product of those blocks; the body keeps nothing of its own;
    nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projQ (blk0 V c 0 t) (blk0 V c 1 t)
    | ⟨3, _⟩ => projK (blk0 V c 0 t) (blk0 V c 1 t)
    | ⟨4, _⟩ => projV (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = projQ (blk0 V c 0 t) (blk0 V c 1 t) := by dsimp only [dat0]
theorem after0_3 (c : Dev nD) (t : Fin cfg0.N) : (dat0 V c).after 3 t = projK (blk0 V c 0 t) (blk0 V c 1 t) := by dsimp only [dat0]
theorem after0_4 (c : Dev nD) (t : Fin cfg0.N) : (dat0 V c).after 4 t = projV (blk0 V c 0 t) (blk0 V c 1 t) := by dsimp only [dat0]

theorem before0_0 (c : Dev nD) (t : Fin cfg0.N) (d) : (dat0 V c).before 0 t d = blk0 V c 0 t :=
  before0_in0 V (dat0 V c) (A_eq0 V c 0) (after0_0 V c) t d
theorem before0_1 (c : Dev nD) (t : Fin cfg0.N) (d) : (dat0 V c).before 1 t d = blk0 V c 1 t :=
  before0_in1 V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (proj_body c Set.univ _ _ _ _ _ _ _ _ _ _ _ (blk0 V c 0 t) (blk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsBody1Facts.lean ====
/-
  The statistics kernel's two branch conditions as propositions over the grid point, decided over the 8 x 4 grid
  in closed form (the key tile is the point's number modulo 4), and where its three windows are idle: the two
  inputs never, the output block at every tile but the last, where alone the body stores into it and the
  pipeline writes it back.
-/
import proofs.«100197_j52690658787659_2_alg».proof.Proof.Gen.Kernel.Launch
import proofs.«100197_j52690658787659_2_alg».proof.Proof.Gen.Kernel.Skeleton
import proofs.«100197_j52690658787659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch is taken: the key tile is the first one (the skeleton's scalar chain over the
    grid point's second coordinate). -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch is taken: the key tile is the last one. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last key tile the output window is idle: the body stores nothing into it there, -/
theorem idleAt1_2 : ∀ t : Fin cfg1.N, ¬cond1_1 (grid1.coords t) → cfg1.idle 2 (grid1.coords t) = true := by decide +kernel
/-- and the pipeline does not write its block back there. -/
theorem noFlush1_2 : ∀ t : Fin cfg1.N, ¬cond1_1 (grid1.coords t) → (cfg1.win 2).flush t = false := by decide +kernel
/-- At the last key tile the output window is live. -/
theorem liveAt1_2 : ∀ t : Fin cfg1.N, cond1_1 (grid1.coords t) → cfg1.idle 2 (grid1.coords t) = false := by decide +kernel

end Cert.Kernel.Hand

end
-- ==== Proof.BitsBody1.lean ====
/-
  The statistics kernel's body, at one grid point, in its three control cases. At a point the body loads the whole query
  block and the whole key tile, and carries two scratch blocks between the key tiles of one query block: the running
  maximum of the scores and the running sum of their exponentials. At the first key tile it resets the two scratches
  before it reads them; at every tile it updates them from the tile's scores; at the last tile it also stores the
  statistic (maximum plus logarithm of the sum) into the output block, which it leaves alone elsewhere. Every load and
  store is of a whole block, so a load after a store reads what was stored, and each case's triple names what the body
  leaves through the three functions below.
-/
import proofs.«100197_j52690658787659_2_alg».proof.Proof.BitsBody1Facts
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The running maximum, the running sum, and the emitted statistic, as functions of what the body loads. -/
def statsMax (q : Vec F S8x512x512 .bf16) (k : Vec F S8x256x512 .bf16) (mOld : Vec F S8x1x256 .f32) : Vec F S8x1x256 .f32 := k1_pay7 q k mOld
def statsSum (q : Vec F S8x512x512 .bf16) (k : Vec F S8x256x512 .bf16) (mOld lOld : Vec F S8x1x256 .f32) : Vec F S8x1x256 .f32 := k1_pay6 q k mOld mOld lOld
def statsOut (m l : Vec F S8x1x256 .f32) : Vec F S8x1x256 .f32 := k1_pay1 m l

/-- The whole statistic block, the whole query block and the whole key block, as the body loads and stores them. -/
abbrev rStat : Rect S8x1x256 := Rect.unit (s := S8x1x256) ![0, 0, 0] S8x1x256.size inb_S8x1x256_S8x1x256_0_0_0
abbrev rQry : Rect S8x512x512 := Rect.unit (s := S8x512x512) ![0, 0, 0] S8x512x512.size inb_S8x512x512_S8x512x512_0_0_0
abbrev rKey : Rect S8x256x512 := Rect.unit (s := S8x256x512) ![0, 0, 0] S8x256x512.size inb_S8x256x512_S8x256x512_0_0_0

/-- The three zero offsets, however spelt. -/
theorem zero3 : (![0, 0, 0] : Fin 3 → ℕ) = fun _ => 0 := by funext a; fin_cases a <;> rfl

section Whole

variable {κ : Kind} {sp : Space}

/-- A load of a whole block reads the block's contents. -/
theorem load_stat (v : View sig κ sp S8x1x256 .f32) (f : v.ty.Contents (Elt F)) :
    v.readAt (Elt F) rStat.toLoadRect f = v.read (Elt F) f :=
  View.ld_unit_zero (S := S8x1x256) zero3 _ (v.read (Elt F) f)
theorem load_qry (v : View sig κ sp S8x512x512 .bf16) (f : v.ty.Contents (Elt F)) :
    v.readAt (Elt F) rQry.toLoadRect f = v.read (Elt F) f :=
  View.ld_unit_zero (S := S8x512x512) zero3 _ (v.read (Elt F) f)
theorem load_key (v : View sig κ sp S8x256x512 .bf16) (f : v.ty.Contents (Elt F)) :
    v.readAt (Elt F) rKey.toLoadRect f = v.read (Elt F) f :=
  View.ld_unit_zero (S := S8x256x512) zero3 _ (v.read (Elt F) f)

/-- The whole statistic block holds every index. -/
theorem mem_rStat (y : S8x1x256.Idx) : y ∈ rStat.set :=
  View.mem_set_unit_zero (S := S8x1x256) zero3 inb_S8x1x256_S8x1x256_0_0_0 y

/-- A store of the whole statistic block, last, leaves its payload whatever was stored before. -/
theorem read_store_stat (v : View sig κ sp S8x1x256 .f32) (f : v.ty.Contents (Elt F)) (w : rStat.shape.Idx → Elt F .f32)
    (L : List (View.Piece (Elt F) S8x1x256 .f32)) :
    v.read (Elt F) (v.writes (Elt F) f ((⟨rStat, w⟩ : View.Piece (Elt F) S8x1x256 .f32) :: L)) = w := by
  have hcov : ∀ y : S8x1x256.Idx, ∃ p ∈ ((⟨rStat, w⟩ : View.Piece (Elt F) S8x1x256 .f32) :: L), y ∈ p.1.set :=
    fun y => ⟨⟨rStat, w⟩, List.mem_cons_self, mem_rStat y⟩
  rw [View.read_writes_eq_canon v f _ hcov]
  exact View.canon_cons_unit_zero (S := S8x1x256) zero3 inb_S8x1x256_S8x1x256_0_0_0 w L

/-- A load of the whole statistic block after such a store reads the payload. -/
theorem load_store_stat (v : View sig κ sp S8x1x256 .f32) (w : rStat.shape.Idx → Elt F .f32)
    (L : List (View.Piece (Elt F) S8x1x256 .f32)) :
    v.readCov ((⟨rStat, w⟩ : View.Piece (Elt F) S8x1x256 .f32) :: L) rStat.toLoadRect = w :=
  View.readCov_cons_toLoadRect v rStat w L

end Whole

set_option maxHeartbeats 1000000 in
/-- At the first key tile (not the last): the body resets the two scratches before it reads them, so they are handed in at
    anything; it leaves the maximum and the sum of this tile over the reset values, and the output block as it found it. -/
theorem stats_body_first (c : Dev nD) (E : Set ℕ) (i : grid1.Coords)
    (arg2 : Memref sig .tc .vmem S8x512x512 .bf16) (harg2 : arg2.IsWhole) (arg3 : Memref sig .tc .vmem S8x256x512 .bf16) (harg3 : arg3.IsWhole)
    (arg4 : Memref sig .tc .vmem S8x1x256 .f32) (harg4 : arg4.IsWhole) (arg5 : Memref sig .tc .vmem S8x1x256 .f32) (harg5 : arg5.IsWhole)
    (arg6 : Memref sig .tc .vmem S8x1x256 .f32) (harg6 : arg6.IsWhole) (hc0 : cond1_0 i) (hc1 : ¬cond1_1 i)
    (q : Vec F S8x512x512 .bf16) (k : Vec F S8x256x512 .bf16) (xo : Vec F S8x1x256 .f32) (K : PUnit → sProp 𝕄) :
    iprop(owns (c : Thread nD τ) arg2 fullShare q ∗ owns (c : Thread nD τ) arg3 fullShare k ∗ owns (c : Thread nD τ) arg4 fullShare xo ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare xo
            ∗ owns (c : Thread nD τ) arg5 fullShare (statsMax q k (k1_pay2 (F := F))) ∗ owns (c : Thread nD τ) arg6 fullShare (statsSum q k (k1_pay2 (F := F)) (k1_pay3 (F := F)))) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_stat, load_store_stat arg5.view, load_qry, load_key]
    rfl
  iexists _; isplitr
  swap; · iexact H6
  ipureintro
  sl_unfold_run_names
  rw [read_store_stat, load_store_stat arg5.view, load_store_stat arg6.view, load_qry, load_key]
  rfl

set_option maxHeartbeats 1000000 in
/-- At a middle key tile: the scratches are handed in at what the tile before left; the body leaves the maximum and the sum
    updated by this tile, and the output block as it found it. -/
theorem stats_body_mid (c : Dev nD) (E : Set ℕ) (i : grid1.Coords)
    (arg2 : Memref sig .tc .vmem S8x512x512 .bf16) (harg2 : arg2.IsWhole) (arg3 : Memref sig .tc .vmem S8x256x512 .bf16) (harg3 : arg3.IsWhole)
    (arg4 : Memref sig .tc .vmem S8x1x256 .f32) (harg4 : arg4.IsWhole) (arg5 : Memref sig .tc .vmem S8x1x256 .f32) (harg5 : arg5.IsWhole)
    (arg6 : Memref sig .tc .vmem S8x1x256 .f32) (harg6 : arg6.IsWhole) (hc0 : ¬cond1_0 i) (hc1 : ¬cond1_1 i)
    (q : Vec F S8x512x512 .bf16) (k : Vec F S8x256x512 .bf16) (xo mOld lOld : Vec F S8x1x256 .f32) (K : PUnit → sProp 𝕄) :
    iprop(owns (c : Thread nD τ) arg2 fullShare q ∗ owns (c : Thread nD τ) arg3 fullShare k ∗ owns (c : Thread nD τ) arg4 fullShare xo ∗ owns (c : Thread nD τ) arg5 fullShare mOld ∗ owns (c : Thread nD τ) arg6 fullShare lOld
        ∗ (iprop(owns (c : Thread nD τ) arg2 fullShare q ∗ owns (c : Thread nD τ) arg3 fullShare k ∗ owns (c : Thread nD τ) arg4 fullShare xo
            ∗ owns (c : Thread nD τ) arg5 fullShare (statsMax q k mOld) ∗ owns (c : Thread nD τ) arg6 fullShare (statsSum q k mOld lOld)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_stat, load_qry, load_key, load_stat arg5.view]
    rfl
  iexists _; isplitr
  swap; · iexact H6
  ipureintro
  sl_unfold_run_names
  rw [read_store_stat, load_qry, load_key, load_stat arg5.view, load_stat arg6.view]
  rfl

set_option maxHeartbeats 1000000 in
/-- At the last key tile: as at a middle one, and the output block, handed in at anything, ends at the statistic of the
    final maximum and sum. -/
theorem stats_body_last (c : Dev nD) (E : Set ℕ) (i : grid1.Coords)
    (arg2 : Memref sig .tc .vmem S8x512x512 .bf16) (harg2 : arg2.IsWhole) (arg3 : Memref sig .tc .vmem S8x256x512 .bf16) (harg3 : arg3.IsWhole)
    (arg4 : Memref sig .tc .vmem S8x1x256 .f32) (harg4 : arg4.IsWhole) (arg5 : Memref sig .tc .vmem S8x1x256 .f32) (harg5 : arg5.IsWhole)
    (arg6 : Memref sig .tc .vmem S8x1x256 .f32) (harg6 : arg6.IsWhole) (hc0 : ¬cond1_0 i) (hc1 : cond1_1 i)
    (q : Vec F S8x512x512 .bf16) (k : Vec F S8x256x512 .bf16) (mOld lOld : Vec F S8x1x256 .f32) (K : PUnit → sProp 𝕄) :
    iprop(owns (c : Thread nD τ) arg2 fullShare q ∗ owns (c : Thread nD τ) arg3 fullShare k ∗ (∃ d, owns (c : Thread nD τ) arg4 fullShare d) ∗ owns (c : Thread nD τ) arg5 fullShare mOld ∗ owns (c : Thread nD τ) arg6 fullShare lOld
        ∗ (iprop(owns (c : Thread nD τ) arg2 fullShare q ∗ owns (c : Thread nD τ) arg3 fullShare k ∗ owns (c : Thread nD τ) arg4 fullShare (statsOut (statsMax q k mOld) (statsSum q k mOld lOld))
            ∗ owns (c : Thread nD τ) arg5 fullShare (statsMax q k mOld) ∗ owns (c : Thread nD τ) arg6 fullShare (statsSum q k mOld lOld)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]
  unfold owns
  iintro ⟨⟨%f2, %hf2, H2⟩, ⟨%f3, %hf3, H3⟩, ⟨%d4, %f4, -, H4⟩, ⟨%f5, %hf5, H5⟩, ⟨%f6, %hf6, H6⟩, Hk⟩
  subst hf2; subst hf3; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_store_stat, load_store_stat arg5.view, load_store_stat arg6.view, load_qry, load_key, load_stat arg5.view, load_stat arg6.view]
    rfl
  isplitl [H5]
  · iexists _; isplitr
    swap; · iexact H5
    ipureintro
    sl_unfold_run_names
    rw [read_store_stat, load_qry, load_key, load_stat arg5.view]
    rfl
  iexists _; isplitr
  swap; · iexact H6
  ipureintro
  sl_unfold_run_names
  rw [read_store_stat, load_qry, load_key, load_stat arg5.view, load_stat arg6.view]
  rfl

end Cert.Kernel.Hand

end
-- ==== Proof.BitsData1.lean ====
/-
  The statistics region as the pipeline runs it. Grid point t = (query block, key tile), four key tiles to a query
  block. The body carries a running maximum and a running sum in two scratch buffers: after point t they are one
  step from the reset values if t is a first key tile, and one step from what the point before left otherwise; the
  statistic block is stored at the last key tile of each query block, where it is the statistic of the pair. Between
  points the two scratch buffers are held at the pair's named contents, beside the promise that handing them back at
  any contents restores the region's resting invariant.
-/
import proofs.«100197_j52690658787659_2_alg».proof.Proof.BitsBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The running maximum and the running sum after grid point `n`: one step from the reset values at a first key tile,
    else one step from the pair the point before left. -/
def mlAt (c : Dev nD) : (n : ℕ) → n < cfg1.N → Vec F S8x1x256 .f32 × Vec F S8x1x256 .f32
  | 0, h => (statsMax (blk1 V c 0 ⟨0, h⟩) (blk1 V c 1 ⟨0, h⟩) (k1_pay2 (F := F)),
      statsSum (blk1 V c 0 ⟨0, h⟩) (blk1 V c 1 ⟨0, h⟩) (k1_pay2 (F := F)) (k1_pay3 (F := F)))
  | n + 1, h =>
    let p : Vec F S8x1x256 .f32 × Vec F S8x1x256 .f32 :=
      if (n + 1) % 4 = 0 then (k1_pay2 (F := F), k1_pay3 (F := F)) else mlAt c n (Nat.lt_of_succ_lt h)
    (statsMax (blk1 V c 0 ⟨n + 1, h⟩) (blk1 V c 1 ⟨n + 1, h⟩) p.1, statsSum (blk1 V c 0 ⟨n + 1, h⟩) (blk1 V c 1 ⟨n + 1, h⟩) p.1 p.2)

theorem mlAt_first (c : Dev nD) (t : Fin cfg1.N) (h0 : t.val % 4 = 0) :
    mlAt V c t.val t.isLt = (statsMax (blk1 V c 0 t) (blk1 V c 1 t) (k1_pay2 (F := F)), statsSum (blk1 V c 0 t) (blk1 V c 1 t) (k1_pay2 (F := F)) (k1_pay3 (F := F))) := by
  obtain ⟨n, hn⟩ := t
  cases n with
  | zero => rfl
  | succ n =>
    exact congrArg (fun p : Vec F S8x1x256 .f32 × Vec F S8x1x256 .f32 =>
      (statsMax (blk1 V c 0 ⟨n + 1, hn⟩) (blk1 V c 1 ⟨n + 1, hn⟩) p.1, statsSum (blk1 V c 0 ⟨n + 1, hn⟩) (blk1 V c 1 ⟨n + 1, hn⟩) p.1 p.2))
      (if_pos h0)

theorem mlAt_next (c : Dev nD) (t : Fin cfg1.N) (h0 : ¬t.val % 4 = 0) :
    mlAt V c t.val t.isLt = (statsMax (blk1 V c 0 t) (blk1 V c 1 t) (mlAt V c (t.val - 1) (Nat.lt_of_le_of_lt (Nat.sub_le _ _) t.isLt)).1,
      statsSum (blk1 V c 0 t) (blk1 V c 1 t) (mlAt V c (t.val - 1) (Nat.lt_of_le_of_lt (Nat.sub_le _ _) t.isLt)).1
        (mlAt V c (t.val - 1) (Nat.lt_of_le_of_lt (Nat.sub_le _ _) t.isLt)).2) := by
  obtain ⟨n, hn⟩ := t
  cases n with
  | zero => exact absurd (Nat.zero_mod _) h0
  | succ n =>
    exact congrArg (fun p : Vec F S8x1x256 .f32 × Vec F S8x1x256 .f32 =>
      (statsMax (blk1 V c 0 ⟨n + 1, hn⟩) (blk1 V c 1 ⟨n + 1, hn⟩) p.1, statsSum (blk1 V c 0 ⟨n + 1, hn⟩) (blk1 V c 1 ⟨n + 1, hn⟩) p.1 p.2))
      (if_neg h0)

/-- The two components of the pair at a first key tile and at a later one. -/
theorem mlAt_first_fst (c : Dev nD) (t : Fin cfg1.N) (h0 : t.val % 4 = 0) :
    (mlAt V c t.val t.isLt).1 = statsMax (blk1 V c 0 t) (blk1 V c 1 t) (k1_pay2 (F := F)) := by rw [mlAt_first V c t h0]
theorem mlAt_first_snd (c : Dev nD) (t : Fin cfg1.N) (h0 : t.val % 4 = 0) :
    (mlAt V c t.val t.isLt).2 = statsSum (blk1 V c 0 t) (blk1 V c 1 t) (k1_pay2 (F := F)) (k1_pay3 (F := F)) := by rw [mlAt_first V c t h0]
theorem mlAt_next_fst (c : Dev nD) (t : Fin cfg1.N) (h0 : ¬t.val % 4 = 0) :
    (mlAt V c t.val t.isLt).1 = statsMax (blk1 V c 0 t) (blk1 V c 1 t) (mlAt V c (t.val - 1) (Nat.lt_of_le_of_lt (Nat.sub_le _ _) t.isLt)).1 := by
  rw [mlAt_next V c t h0]
theorem mlAt_next_snd (c : Dev nD) (t : Fin cfg1.N) (h0 : ¬t.val % 4 = 0) :
    (mlAt V c t.val t.isLt).2 = statsSum (blk1 V c 0 t) (blk1 V c 1 t) (mlAt V c (t.val - 1) (Nat.lt_of_le_of_lt (Nat.sub_le _ _) t.isLt)).1
      (mlAt V c (t.val - 1) (Nat.lt_of_le_of_lt (Nat.sub_le _ _) t.isLt)).2 := by
  rw [mlAt_next V c t h0]

/-- The scratch operands: two whole scoped buffers of the kernel's own, the running maximum's and the running sum's. -/
abbrev scM1m : Memref sig .tc .vmem S8x1x256 .f32 := Memref.whole cc1_scratch0
abbrev scM1l : Memref sig .tc .vmem S8x1x256 .f32 := Memref.whole cc1_scratch1

/-- The region's resting invariant lends the two scratch buffers out, and takes them back at any contents. -/
theorem focus1 (c : Dev nD) :
    (Pipeline.ΦA spec1 c : sProp 𝕄) ⊢ iprop((∃ d, owns (c : Thread nD τ) scM1m fullShare d) ∗ (∃ d, owns (c : Thread nD τ) scM1l fullShare d)
      ∗ (iprop((∃ d, owns (c : Thread nD τ) scM1m fullShare d) ∗ (∃ d, owns (c : Thread nD τ) scM1l fullShare d)) -∗ Pipeline.ΦA spec1 c)) := by
  unfold Pipeline.ΦA; rw [scopedRest1_eq]; simp only [scM1m, scM1l, owns_whole]
  iintro ⟨⟨R1, R2, R3, R4, R5, R6, R7, R8, R9, R10, R11, R12, R13, R14, R15, R16, R17, R18, R19, R20, R21, R22⟩, Hg⟩
  isplitl [R10]; · iexact R10
  isplitl [R11]; · iexact R11
  iintro ⟨R10, R11⟩
  isplitl [R1 R2 R3 R4 R5 R6 R7 R8 R9 R10 R11 R12 R13 R14 R15 R16 R17 R18 R19 R20 R21 R22]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  iexact R22

/-- The invariant before position `n`: at rest before the first point; afterwards the two scratches at the pair the
    point before left, beside the promise to be at rest again once they are handed back. -/
def PhiS1 (c : Dev nD) : (n : ℕ) → n ≤ cfg1.N → sProp 𝕄
  | 0, _ => Pipeline.ΦA spec1 c
  | n + 1, hn => iprop(owns (c : Thread nD τ) scM1m fullShare (mlAt V c n hn).1 ∗ owns (c : Thread nD τ) scM1l fullShare (mlAt V c n hn).2
      ∗ (iprop((∃ d, owns (c : Thread nD τ) scM1m fullShare d) ∗ (∃ d, owns (c : Thread nD τ) scM1l fullShare d)) -∗ Pipeline.ΦA spec1 c))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1m fullShare (mlAt V c n hn).1 ∗ owns (c : Thread nD τ) scM1l fullShare (mlAt V c n hn).2
      ∗ (iprop((∃ d, owns (c : Thread nD τ) scM1m fullShare d) ∗ (∃ d, owns (c : Thread nD τ) scM1l fullShare d)) -∗ Pipeline.ΦA spec1 c)) := rfl
theorem PhiS1_pos (c : Dev nD) (n : ℕ) (h : n ≤ cfg1.N) (hz : n ≠ 0) :
    PhiS1 V c n h = iprop(owns (c : Thread nD τ) scM1m fullShare (mlAt V c (n - 1) (by omega)).1 ∗ owns (c : Thread nD τ) scM1l fullShare (mlAt V c (n - 1) (by omega)).2
      ∗ (iprop((∃ d, owns (c : Thread nD τ) scM1m fullShare d) ∗ (∃ d, owns (c : Thread nD τ) scM1l fullShare d)) -∗ Pipeline.ΦA spec1 c)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => statsOut (mlAt V c t.val t.isLt).1 (mlAt V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) :
    (dat1 V c).after 2 t = statsOut (mlAt V c t.val t.isLt).1 (mlAt V c t.val t.isLt).2 := by dsimp only [dat1]
theorem before1_0 (c : Dev nD) (t : Fin cfg1.N) (d) : (dat1 V c).before 0 t d = blk1 V c 0 t :=
  before1_in0 V (dat1 V c) (A_eq1 V c 0) (after1_0 V c) t d
theorem before1_1 (c : Dev nD) (t : Fin cfg1.N) (d) : (dat1 V c).before 1 t d = blk1 V c 1 t :=
  before1_in1 V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the kind of key tile it is. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [mlAt_first_fst V c t h0, mlAt_first_snd V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HF := (focus1 c) $$ HΦ
      icases HF with ⟨HSm, HSl, Hw⟩
      iapply (stats_body_first c Set.univ _ _ _ _ _ _ _ _ _ _ _ ((hcond1_0 t).mpr h0) (fun h => h1 ((hcond1_1 t).mp h)) (blk1 V c 0 t) (blk1 V c 1 t) _ _)
      isplitl [H0]; · iexact H0
      isplitl [H1]; · iexact H1
      isplitl [H2]; · iexact H2
      isplitl [HSm]; · iexact HSm
      isplitl [HSl]; · iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexists _; iexact H2
    · rw [PhiS1_castSucc V c t, PhiS1_pos V c _ _ hz]
      iintro ⟨⟨HSm, HSl, Hw⟩, Ho, ⟨%d0, H0⟩, ⟨%d1, H1⟩, ⟨%d2, H2⟩⟩
      iapply (stats_body_first c Set.univ _ _ _ _ _ _ _ _ _ _ _ ((hcond1_0 t).mpr h0) (fun h => h1 ((hcond1_1 t).mp h)) (blk1 V c 0 t) (blk1 V c 1 t) _ _)
      isplitl [H0]; · iexact H0
      isplitl [H1]; · iexact H1
      isplitl [H2]; · iexact H2
      isplitl [HSm]; · iexists _; iexact HSm
      isplitl [HSl]; · iexists _; iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexists _; iexact H2
  · have hz : t.val ≠ 0 := by intro h; rw [h] at h0; exact h0 rfl
    rw [PhiS1_castSucc V c t, PhiS1_pos V c _ _ hz]
    by_cases h1 : t.val % 4 = 3
    · rw [show (dat1 V c).leavesExact 2 t = owns (c : Thread nD τ) (st1_2 t) fullShare ((dat1 V c).after 2 t) from by
        unfold Dat.leavesExact; rw [liveAt1_2 t ((hcond1_1 t).mpr h1)], after1_2]
      rw [mlAt_next_fst V c t h0, mlAt_next_snd V c t h0]
      iintro ⟨⟨HSm, HSl, Hw⟩, Ho, ⟨%d0, H0⟩, ⟨%d1, H1⟩, ⟨%d2, H2⟩⟩
      iapply (stats_body_last c Set.univ _ _ _ _ _ _ _ _ _ _ _ (fun h => h0 ((hcond1_0 t).mp h)) ((hcond1_1 t).mpr h1) (blk1 V c 0 t) (blk1 V c 1 t) _ _ _)
      isplitl [H0]; · iexact H0
      isplitl [H1]; · iexact H1
      isplitl [H2]; · iexists _; iexact H2
      isplitl [HSm]; · iexact HSm
      isplitl [HSl]; · iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      rw [mlAt_next_fst V c t h0, mlAt_next_snd V c t h0]
      iintro ⟨⟨HSm, HSl, Hw⟩, Ho, ⟨%d0, H0⟩, ⟨%d1, H1⟩, ⟨%d2, H2⟩⟩
      iapply (stats_body_mid c Set.univ _ _ _ _ _ _ _ _ _ _ _ (fun h => h0 ((hcond1_0 t).mp h)) (fun h => h1 ((hcond1_1 t).mp h)) (blk1 V c 0 t) (blk1 V c 1 t) _ _ _ _)
      isplitl [H0]; · iexact H0
      isplitl [H1]; · iexact H1
      isplitl [H2]; · iexact H2
      isplitl [HSm]; · iexact HSm
      isplitl [HSl]; · iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- At rest before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the scratches are handed back and the region is at rest. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨HSm, HSl, Hw⟩
  iapply Hw
  isplitl [HSm]; · iexists _; iexact HSm
  iexists _; iexact HSl

end Cert.Kernel.Hand

end
-- ==== Proof.BitsBody2.lean ====
/-
  The output kernel's body, at one grid point (a block of 256 query rows against a block of 256 key rows): it
  recomputes the block of scores, turns each into the weight exp(min(score − stat, 0)) with the key column's
  statistic, and adds the weights' product with the value block to an accumulator it keeps in a scratch buffer
  from one key block to the next — zeroed at the first key block, copied to the output block at the last.
-/
import proofs.«100197_j52690658787659_2_alg».proof.Proof.Gen.Kernel.Launch
import proofs.«100197_j52690658787659_2_alg».proof.Proof.Gen.Kernel.Skeleton
import proofs.«100197_j52690658787659_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch: this is the first key block (the grid's second coordinate is 0). -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The body's second branch: this is the last key block (the grid's second coordinate is 7). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- The accumulator after one more key block: the old accumulator plus weights times values. -/
def accStep (q k v : Vec F S8x256x512 .bf16) (st : Vec F S8x1x256 .f32) (acc : Vec F S8x256x512 .f32) : Vec F S8x256x512 .f32 :=
  k2_pay2 q k v st acc

/-- The accumulator's starting value: zeros. -/
def accZero : Vec F S8x256x512 .f32 := k2_pay1 (F := F)

/-- The printed zero offsets are the zero function. -/
theorem hz3 : (![0, 0, 0] : Fin 3 → Nat) = fun _ => 0 := by funext a; fin_cases a <;> rfl

/-- The whole accumulator block, as the body stores it. -/
abbrev rAcc : Rect S8x256x512 := Rect.unit (s := S8x256x512) ![0, 0, 0] S8x256x512.size inb_S8x256x512_S8x256x512_0_0_0

/-- A store of the whole block, last, covers the block whatever came before. -/
theorem coverAcc (p : Vec F S8x256x512 .f32) (L : List (View.Piece (Elt F) S8x256x512 .f32)) (y : S8x256x512.Idx) :
    ∃ pc ∈ ((⟨rAcc, p⟩ : View.Piece (Elt F) S8x256x512 .f32) :: L), y ∈ pc.1.set :=
  ⟨_, List.mem_cons_self, View.mem_set_unit_zero hz3 inb_S8x256x512_S8x256x512_0_0_0 y⟩

set_option maxHeartbeats 1000000 in
/-- FIRST key block (not the last): the accumulator, at anything before, ends at one step from zero; the output block
    is not touched. -/
theorem out_body_first (c : Dev nD) (E : Set ℕ) (i : grid2.Coords)
    (arg2 : Memref sig .tc .vmem S8x256x512 .bf16) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x1x256 .f32) (harg5 : arg5.IsWhole)
    (arg6 : Memref sig .tc .vmem S8x256x512 .f32) (harg6 : arg6.IsWhole) (arg7 : Memref sig .tc .vmem S8x256x512 .f32) (harg7 : arg7.IsWhole)
    (hc0 : cond2_0 i) (hc1 : ¬cond2_1 i)
    (q k v : Vec F S8x256x512 .bf16) (st : Vec F S8x1x256 .f32) (xo : Vec F S8x256x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare xo ∗ (∃ d, owns (c : Thread nD τ) arg7 fullShare d)
        ∗ (iprop(owns (c : Thread nD τ) arg2 fullShare q ∗ owns (c : Thread nD τ) arg3 fullShare k ∗ owns (c : Thread nD τ) arg4 fullShare v
            ∗ owns (c : Thread nD τ) arg5 fullShare st ∗ owns (c : Thread nD τ) arg6 fullShare xo
            ∗ owns (c : Thread nD τ) arg7 fullShare (accStep q k v st accZero)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  iexists _; isplitr
  swap; · iexact H7
  ipureintro
  try sl_unfold_run_names
  rw [View.read_writes_eq_canon _ _ _ (coverAcc _ _), View.canon_cons_unit_zero hz3]
  simp only [View.readAt_eq_ld, Memref.IsWhole.read_unread, View.ld_unit_zero (S := S8x256x512) hz3, View.ld_unit_zero (S := S8x1x256) hz3, View.readCov_unit_zero (S := S8x256x512) _ hz3]
  rfl

set_option maxHeartbeats 1000000 in
/-- A MIDDLE key block: the accumulator goes from what the block before left to one step further; the output block is
    not touched. -/
theorem out_body_mid (c : Dev nD) (E : Set ℕ) (i : grid2.Coords)
    (arg2 : Memref sig .tc .vmem S8x256x512 .bf16) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x1x256 .f32) (harg5 : arg5.IsWhole)
    (arg6 : Memref sig .tc .vmem S8x256x512 .f32) (harg6 : arg6.IsWhole) (arg7 : Memref sig .tc .vmem S8x256x512 .f32) (harg7 : arg7.IsWhole)
    (hc0 : ¬cond2_0 i) (hc1 : ¬cond2_1 i)
    (q k v : Vec F S8x256x512 .bf16) (st : Vec F S8x1x256 .f32) (xo acc : Vec F S8x256x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare xo ∗ owns (c : Thread nD τ) arg7 fullShare acc
        ∗ (iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare xo
            ∗ owns (c : Thread nD τ) arg7 fullShare (accStep q k v st acc)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  iexists _; isplitr
  swap; · iexact H7
  ipureintro
  try sl_unfold_run_names
  rw [View.read_writes_eq_canon _ _ _ (coverAcc _ _), View.canon_cons_unit_zero hz3]
  simp only [View.readAt_eq_ld, Memref.IsWhole.read_unread, View.ld_unit_zero (S := S8x256x512) hz3, View.ld_unit_zero (S := S8x1x256) hz3, View.readCov_unit_zero (S := S8x256x512) _ hz3]
  rfl

set_option maxHeartbeats 1000000 in
/-- The LAST key block: one step further, and the accumulator is copied into the output block (at anything before). -/
theorem out_body_last (c : Dev nD) (E : Set ℕ) (i : grid2.Coords)
    (arg2 : Memref sig .tc .vmem S8x256x512 .bf16) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x1x256 .f32) (harg5 : arg5.IsWhole)
    (arg6 : Memref sig .tc .vmem S8x256x512 .f32) (harg6 : arg6.IsWhole) (arg7 : Memref sig .tc .vmem S8x256x512 .f32) (harg7 : arg7.IsWhole)
    (hc0 : ¬cond2_0 i) (hc1 : cond2_1 i)
    (q k v : Vec F S8x256x512 .bf16) (st : Vec F S8x1x256 .f32) (acc : Vec F S8x256x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare st ∗ (∃ d, owns (c : Thread nD τ) arg6 fullShare d) ∗ owns (c : Thread nD τ) arg7 fullShare acc
        ∗ (iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare (accStep q k v st acc)
            ∗ owns (c : Thread nD τ) arg7 fullShare (accStep q k v st acc)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]
  · iexists _; isplitr
    swap; · iexact H6
    ipureintro
    try sl_unfold_run_names
    rw [View.read_writes_eq_canon _ _ _ (coverAcc _ _), View.canon_cons_unit_zero hz3]
    simp only [View.readAt_eq_ld, Memref.IsWhole.read_unread, View.ld_unit_zero (S := S8x256x512) hz3, View.ld_unit_zero (S := S8x1x256) hz3, View.readCov_unit_zero (S := S8x256x512) _ hz3]
    rfl
  iexists _; isplitr
  swap; · iexact H7
  ipureintro
  try sl_unfold_run_names
  rw [View.read_writes_eq_canon _ _ _ (coverAcc _ _), View.canon_cons_unit_zero hz3]
  simp only [View.readAt_eq_ld, Memref.IsWhole.read_unread, View.ld_unit_zero (S := S8x256x512) hz3, View.ld_unit_zero (S := S8x1x256) hz3, View.readCov_unit_zero (S := S8x256x512) _ hz3]
  rfl

end Cert.Kernel.Hand

end
-- ==== Proof.BitsData2.lean ====
/-
  The output region as the pipeline runs it. Grid point t = (query block, key block); the accumulator the body keeps
  in its scratch buffer is, after point t, one step from zero if t is a first key block and one step from what the
  point before left otherwise; the output block is stored at the last key block of each query block, where it is
  the accumulator. Between points the scratch buffer is held at the accumulator's named contents, beside the promise
  that handing it back at any contents restores the region's resting invariant.
-/
import proofs.«100197_j52690658787659_2_alg».proof.Proof.BitsBody2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_in0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_in1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_in2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_in3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Where the windows are idle: the inputs never; the output except at a last key block, and there only is it
    written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The accumulator after grid point `n`: one step from zero at a first key block, else one step from the point before. -/
def accAt (c : Dev nD) : (n : ℕ) → n < cfg2.N → Vec F S8x256x512 .f32
  | 0, h => accStep (blk2 V c 0 ⟨0, h⟩) (blk2 V c 1 ⟨0, h⟩) (blk2 V c 2 ⟨0, h⟩) (blk2 V c 3 ⟨0, h⟩) accZero
  | n + 1, h => accStep (blk2 V c 0 ⟨n + 1, h⟩) (blk2 V c 1 ⟨n + 1, h⟩) (blk2 V c 2 ⟨n + 1, h⟩) (blk2 V c 3 ⟨n + 1, h⟩)
      (if (n + 1) % 8 = 0 then accZero else accAt c n (Nat.lt_of_succ_lt h))

theorem accAt_first (c : Dev nD) (t : Fin cfg2.N) (h0 : t.val % 8 = 0) :
    accAt V c t.val t.isLt = accStep (blk2 V c 0 t) (blk2 V c 1 t) (blk2 V c 2 t) (blk2 V c 3 t) accZero := by
  obtain ⟨n, hn⟩ := t
  cases n with
  | zero => rfl
  | succ n => exact congrArg _ (if_pos h0)

theorem accAt_next (c : Dev nD) (t : Fin cfg2.N) (h0 : ¬t.val % 8 = 0) :
    accAt V c t.val t.isLt = accStep (blk2 V c 0 t) (blk2 V c 1 t) (blk2 V c 2 t) (blk2 V c 3 t)
      (accAt V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The scratch operand: a whole scoped buffer of the kernel's own. -/
abbrev scM2 : Memref sig .tc .vmem S8x256x512 .f32 := Memref.whole cc2_scratch0

/-- The region's resting invariant lends the scratch buffer out, and takes it back at any contents. -/
theorem focus2 (c : Dev nD) :
    (Pipeline.ΦA spec2 c : sProp 𝕄) ⊢ iprop((∃ d, owns (c : Thread nD τ) scM2 fullShare d)
      ∗ (iprop(∃ d, owns (c : Thread nD τ) scM2 fullShare d) -∗ Pipeline.ΦA spec2 c)) := by
  unfold Pipeline.ΦA; rw [scopedRest2_eq]; simp only [scM2, owns_whole]
  iintro ⟨⟨R1, R2, R3, R4, R5, R6, R7, R8, R9, R10, R11, R12, R13, R14, R15, R16, R17, R18⟩, Hg⟩
  isplitl [R18]; · iexact R18
  iintro R18
  isplitl [R1 R2 R3 R4 R5 R6 R7 R8 R9 R10 R11 R12 R13 R14 R15 R16 R17 R18]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  iexact R18

/-- The invariant before position `n`: at rest before the first point; afterwards the scratch at the accumulator the
    point before left, beside the promise to be at rest again once it is handed back. -/
def PhiS2 (c : Dev nD) : (n : ℕ) → n ≤ cfg2.N → sProp 𝕄
  | 0, _ => Pipeline.ΦA spec2 c
  | n + 1, hn => iprop(owns (c : Thread nD τ) scM2 fullShare (accAt V c n hn)
      ∗ (iprop(∃ d, owns (c : Thread nD τ) scM2 fullShare d) -∗ Pipeline.ΦA spec2 c))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (accAt V c n hn)
      ∗ (iprop(∃ d, owns (c : Thread nD τ) scM2 fullShare d) -∗ Pipeline.ΦA spec2 c)) := rfl
theorem PhiS2_pos (c : Dev nD) (n : ℕ) (h : n ≤ cfg2.N) (hz : n ≠ 0) :
    PhiS2 V c n h = iprop(owns (c : Thread nD τ) scM2 fullShare (accAt V c (n - 1) (by omega))
      ∗ (iprop(∃ d, owns (c : Thread nD τ) scM2 fullShare d) -∗ Pipeline.ΦA spec2 c)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => accAt V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = accAt V c t.val t.isLt := by dsimp only [dat2]
theorem before2_0 (c : Dev nD) (t : Fin cfg2.N) (d) : (dat2 V c).before 0 t d = blk2 V c 0 t :=
  before2_in0 V (dat2 V c) (A_eq2 V c 0) (after2_0 V c) t d
theorem before2_1 (c : Dev nD) (t : Fin cfg2.N) (d) : (dat2 V c).before 1 t d = blk2 V c 1 t :=
  before2_in1 V (dat2 V c) (A_eq2 V c 1) (after2_1 V c) t d
theorem before2_2 (c : Dev nD) (t : Fin cfg2.N) (d) : (dat2 V c).before 2 t d = blk2 V c 2 t :=
  before2_in2 V (dat2 V c) (A_eq2 V c 2) (after2_2 V c) t d
theorem before2_3 (c : Dev nD) (t : Fin cfg2.N) (d) : (dat2 V c).before 3 t d = blk2 V c 3 t :=
  before2_in3 V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point, by the kind of key block it is. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val % 8 = 0
  · have h1 : ¬t.val % 8 = 7 := by omega
    rw [Dat.leavesExact_idle (dat2 V c) 4 t (idleAt2_4 t (fun h => h1 ((hcond2_1 t).mp h))) (noFlush2_4 t (fun h => h1 ((hcond2_1 t).mp h)))]
    rw [accAt_first V c t h0]
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩, ⟨%d4, H4⟩⟩
      ihave HF := (focus2 c) $$ HΦ
      icases HF with ⟨HS, Hw⟩
      iapply (out_body_first c Set.univ _ _ _ _ _ _ _ _ _ _ _ _ _ ((hcond2_0 t).mpr h0) (fun h => h1 ((hcond2_1 t).mp h)) (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨HS, Hw⟩, Ho, ⟨%d0, H0⟩, ⟨%d1, H1⟩, ⟨%d2, H2⟩, ⟨%d3, H3⟩, ⟨%d4, H4⟩⟩
      iapply (out_body_first c Set.univ _ _ _ _ _ _ _ _ _ _ _ _ _ ((hcond2_0 t).mpr h0) (fun h => h1 ((hcond2_1 t).mp h)) (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4
  · have hz : t.val ≠ 0 := by intro h; rw [h] at h0; exact h0 rfl
    rw [accAt_next V c t h0, PhiS2_castSucc V c t, PhiS2_pos V c _ _ hz]
    by_cases h1 : t.val % 8 = 7
    · rw [show (dat2 V c).leavesExact 4 t = owns (c : Thread nD τ) (st2_4 t) fullShare ((dat2 V c).after 4 t) from by
        unfold Dat.leavesExact; rw [liveAt2_4 t ((hcond2_1 t).mpr h1)], after2_4, accAt_next V c t h0]
      iintro ⟨⟨HS, Hw⟩, Ho, ⟨%d0, H0⟩, ⟨%d1, H1⟩, ⟨%d2, H2⟩, ⟨%d3, H3⟩, ⟨%d4, H4⟩⟩
      iapply (out_body_last c Set.univ _ _ _ _ _ _ _ _ _ _ _ _ _ (fun h => h0 ((hcond2_0 t).mp h)) ((hcond2_1 t).mpr h1) (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      iintro ⟨⟨HS, Hw⟩, Ho, ⟨%d0, H0⟩, ⟨%d1, H1⟩, ⟨%d2, H2⟩, ⟨%d3, H3⟩, ⟨%d4, H4⟩⟩
      iapply (out_body_mid c Set.univ _ _ _ _ _ _ _ _ _ _ _ _ _ (fun h => h0 ((hcond2_0 t).mp h)) (fun h => h1 ((hcond2_1 t).mp h)) (blk2 V c 0 t) (blk2 V c 1 t) (blk2 V c 2 t) (blk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- At rest before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the scratch is handed back and the region is at rest. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega)]
  iintro ⟨HS, Hw⟩
  iapply Hw
  iexists _; iexact HS

end Cert.Kernel.Hand

end
-- ==== Proof.BitsRun.lean ====
/-
  The whole program as the launch runs it: two host operations (the three weight matrices side by side, then their
  change of format), the projection call, the statistics call, the output call. At each boundary every unscoped
  buffer holds named contents — the launch memory, then what each step leaves —, and the run ends with the result
  array at what the output call's write-backs leave and every argument array as launched.
-/
import proofs.«100197_j52690658787659_2_alg».proof.Proof.BitsData0
import proofs.«100197_j52690658787659_2_alg».proof.Proof.BitsData1
import proofs.«100197_j52690658787659_2_alg».proof.Proof.BitsData2
import proofs.«100197_j52690658787659_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch, and after the two host operations. -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b

/-- After pallas call 0: its arrays at what its write-backs leave, every other buffer as it was. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pallas call 1: its arrays at what its write-backs leave, every other buffer as it was. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pallas call 2: its arrays at what its write-backs leave, every other buffer as it was. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := (Gen.V1_of m c main_arg0 (by decide)).trans rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (Gen.V1_of m c main_arg2 (by decide)).trans rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (Gen.V1_of m c main_arg3 (by decide)).trans rfl

/-- The result array ends at what the output call's write-backs leave. -/
theorem W4_main_v4 (c : Dev nD) : W4 m c (Proc.devRef .tc main_v4) = (dat2 (V3 m) c).arrAt 4 cfg2.N :=
  W4_arr m c 4

/-! ## The proof data family and the thread state -/

/-- No pallas call has a prefetched table. -/
abbrev adm : (p : Fin 3) → (pcfgs (F := F) p).Adm := fun p => (cfgs p).toPCfg_adm
/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-- Each call's invariant at rest before its first point and after its last, in the family's terms. -/
theorem hin0' (c : Dev nD) : Pipeline.ΦA spec0 c ⊢ (pdats m 0 c).Φ 0 := BI.Entails.refl _
theorem hout0' (c : Dev nD) : (pdats m 0 c).Φ (Fin.last _) ⊢ Pipeline.ΦA spec0 c := BI.Entails.refl _
theorem hin1' (c : Dev nD) : Pipeline.ΦA spec1 c ⊢ (pdats m 1 c).Φ 0 := hin1 (V2 m) c
theorem hout1' (c : Dev nD) : (pdats m 1 c).Φ (Fin.last _) ⊢ Pipeline.ΦA spec1 c := hout1 (V2 m) c
theorem hin2' (c : Dev nD) : Pipeline.ΦA spec2 c ⊢ (pdats m 2 c).Φ 0 := hin2 (V3 m) c
theorem hout2' (c : Dev nD) : (pdats m 2 c).Φ (Fin.last _) ⊢ Pipeline.ΦA spec2 c := hout2 (V3 m) c

/-! ## The calls as segments -/

-- unification with the pinned configuration must unfold plain definitions in a metavariable's type
set_option backward.isDefEq.respectTransparency.types false in
/-- Pallas call 0 as a segment: entered with every unscoped buffer at its contents before the call, left with them at
    the contents after it. Its arrays are split out of the unscoped buffers at entry and put back at exit; the generator
    register rides through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0' m c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration must unfold plain definitions in a metavariable's type
set_option backward.isDefEq.respectTransparency.types false in
/-- Pallas call 1 as a segment: entered with every unscoped buffer at its contents before the call, left with them at
    the contents after it. Its arrays are split out of the unscoped buffers at entry and put back at exit; the generator
    register rides through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1' m c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration must unfold plain definitions in a metavariable's type
set_option backward.isDefEq.respectTransparency.types false in
/-- Pallas call 2 as a segment: entered with every unscoped buffer at its contents before the call, left with them at
    the contents after it. Its arrays are split out of the unscoped buffers at entry and put back at exit; the generator
    register rides through the region's invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2' m c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- Every weakly fair execution of the program terminates, nothing faulting, with the result array at what the output
    call's write-backs leave and each argument array as launched. -/
theorem run : θ_run defs (onTc (τ := τ) (main (F := F))) ⟨m, fun _ => 0, ρ⟩ (fun r => ∀ c : Dev nD,
      r.2.mem ((c.tc : Thread nD τ).loc main_v4) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_main_v4 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.Kernel.Hand

end
-- ==== Proof.IdealBody0.lean ====
/-
  The projection kernel's body, at one grid point: from a block of 128 token rows (all 8 batches) and the whole
  concatenated weight matrix it stores the three 512-column slices of their matrix product into the three
  output blocks. It reads nothing it wrote and keeps nothing between points.
-/
import proofs.«100197_j52690658787659_2_alg».proof.Proof.Gen.KernelIdeal.Launch
import proofs.«100197_j52690658787659_2_alg».proof.Proof.Gen.KernelIdeal.Skeleton
import proofs.«100197_j52690658787659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole block of token rows, and the whole weight matrix, as the body loads them. -/
abbrev rTok : Rect S8x128x512 := Rect.unit (s := S8x128x512) ![0, 0, 0] S8x128x512.size inb_S8x128x512_S8x128x512_0_0_0
abbrev rWcat : Rect S512x1536 := Rect.unit (s := S512x1536) ![0, 0] S512x1536.size inb_S512x1536_S512x1536_0_0

/-- What the body leaves in the query, key and value blocks: one whole-block store each, of the matching slice
    of the product. -/
def projQ (x : Vec F S8x128x512 .f32) (w : Vec F S512x1536 .bf16) : Vec F S8x128x512 .bf16 :=
  View.canon [⟨rTok, k0_pay2 (View.ld x rTok) (View.ld w rWcat)⟩]
def projK (x : Vec F S8x128x512 .f32) (w : Vec F S512x1536 .bf16) : Vec F S8x128x512 .bf16 :=
  View.canon [⟨rTok, k0_pay3 (View.ld x rTok) (View.ld w rWcat)⟩]
def projV (x : Vec F S8x128x512 .f32) (w : Vec F S512x1536 .bf16) : Vec F S8x128x512 .bf16 :=
  View.canon [⟨rTok, k0_pay4 (View.ld x rTok) (View.ld w rWcat)⟩]

/-- One store of the whole block covers the block. -/
theorem coverTok (p0 : Vec F S8x128x512 .bf16) (y : S8x128x512.Idx) :
    ∃ pc ∈ ([⟨rTok, p0⟩] : List (View.Piece (Elt F) S8x128x512 .bf16)), y ∈ pc.1.set :=
  View.cover_of_tiled [⟨rTok, p0⟩] S8x128x512.size (by rfl) y

set_option maxHeartbeats 1000000 in
/-- The body on whole staging buffers — the two inputs at contents `x`, `w`, the three outputs at anything — runs to
    its end leaving the inputs as they were and the outputs at the three slices of the product. -/
theorem proj_body (c : Dev nD) (E : Set ℕ) (i : grid0.Coords)
    (arg1 : Memref sig .tc .vmem S8x128x512 .f32) (harg1 : arg1.IsWhole) (arg2 : Memref sig .tc .vmem S512x1536 .bf16) (harg2 : arg2.IsWhole)
    (arg3 : Memref sig .tc .vmem S8x128x512 .bf16) (harg3 : arg3.IsWhole) (arg4 : Memref sig .tc .vmem S8x128x512 .bf16) (harg4 : arg4.IsWhole)
    (arg5 : Memref sig .tc .vmem S8x128x512 .bf16) (harg5 : arg5.IsWhole)
    (x : Vec F S8x128x512 .f32) (w : Vec F S512x1536 .bf16) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w
            ∗ owns (c : Thread nD τ) arg3 fullShare (projQ x w) ∗ owns (c : Thread nD τ) arg4 fullShare (projK x w)
            ∗ owns (c : Thread nD τ) arg5 fullShare (projV x w)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverTok _)
  isplitl [H4]
  · iexists _; isplitr
    swap; · iexact H4
    ipureintro
    exact View.read_writes_eq_canon _ _ _ (coverTok _)
  iexists _; isplitr
  swap; · iexact H5
  ipureintro
  exact View.read_writes_eq_canon _ _ _ (coverTok _)

end Cert.KernelIdeal.Hand

end
-- ==== Proof.IdealData0.lean ====
/-
  The projection region as the pipeline runs it: what each window's staging buffer holds after the body at every
  grid point, as a function of the arrays the region finds, and the body's obligation at a generic point.
-/
import proofs.«100197_j52690658787659_2_alg».proof.Proof.IdealBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its index has not moved). -/
theorem before0_in0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_in1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The region's proof data on core `c`: after the body at point `t` the two inputs' buffers hold their blocks and the
    three outputs' the query, key and value slices of the product of those blocks; the body keeps nothing of its own;
    nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projQ (blk0 V c 0 t) (blk0 V c 1 t)
    | ⟨3, _⟩ => projK (blk0 V c 0 t) (blk0 V c 1 t)
    | ⟨4, _⟩ => projV (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = projQ (blk0 V c 0 t) (blk0 V c 1 t) := by dsimp only [dat0]
theorem after0_3 (c : Dev nD) (t : Fin cfg0.N) : (dat0 V c).after 3 t = projK (blk0 V c 0 t) (blk0 V c 1 t) := by dsimp only [dat0]
theorem after0_4 (c : Dev nD) (t : Fin cfg0.N) : (dat0 V c).after 4 t = projV (blk0 V c 0 t) (blk0 V c 1 t) := by dsimp only [dat0]

theorem before0_0 (c : Dev nD) (t : Fin cfg0.N) (d) : (dat0 V c).before 0 t d = blk0 V c 0 t :=
  before0_in0 V (dat0 V c) (A_eq0 V c 0) (after0_0 V c) t d
theorem before0_1 (c : Dev nD) (t : Fin cfg0.N) (d) : (dat0 V c).before 1 t d = blk0 V c 1 t :=
  before0_in1 V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (proj_body c Set.univ _ _ _ _ _ _ _ _ _ _ _ (blk0 V c 0 t) (blk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealBody1Facts.lean ====
/-
  The statistics kernel's two branch conditions as propositions over the grid point, decided over the 8 x 4 grid
  in closed form (the key tile is the point's number modulo 4), and where its three windows are idle: the two
  inputs never, the output block at every tile but the last, where alone the body stores into it and the
  pipeline writes it back.
-/
import proofs.«100197_j52690658787659_2_alg».proof.Proof.Gen.KernelIdeal.Launch
import proofs.«100197_j52690658787659_2_alg».proof.Proof.Gen.KernelIdeal.Skeleton
import proofs.«100197_j52690658787659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken: the key tile is the first one (the skeleton's scalar chain over the
    grid point's second coordinate). -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch is taken: the key tile is the last one. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last key tile the output window is idle: the body stores nothing into it there, -/
theorem idleAt1_2 : ∀ t : Fin cfg1.N, ¬cond1_1 (grid1.coords t) → cfg1.idle 2 (grid1.coords t) = true := by decide +kernel
/-- and the pipeline does not write its block back there. -/
theorem noFlush1_2 : ∀ t : Fin cfg1.N, ¬cond1_1 (grid1.coords t) → (cfg1.win 2).flush t = false := by decide +kernel
/-- At the last key tile the output window is live. -/
theorem liveAt1_2 : ∀ t : Fin cfg1.N, cond1_1 (grid1.coords t) → cfg1.idle 2 (grid1.coords t) = false := by decide +kernel

end Cert.KernelIdeal.Hand

end
-- ==== Proof.IdealBody1.lean ====
/-
  The statistics kernel's body, at one grid point, in its three control cases. At a point the body loads the whole query
  block and the whole key tile, and carries two scratch blocks between the key tiles of one query block: the running
  maximum of the scores and the running sum of their exponentials. At the first key tile it resets the two scratches
  before it reads them; at every tile it updates them from the tile's scores; at the last tile it also stores the
  statistic (maximum plus logarithm of the sum) into the output block, which it leaves alone elsewhere. Every load and
  store is of a whole block, so a load after a store reads what was stored, and each case's triple names what the body
  leaves through the three functions below.
-/
import proofs.«100197_j52690658787659_2_alg».proof.Proof.IdealBody1Facts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The running maximum, the running sum, and the emitted statistic, as functions of what the body loads. -/
def statsMax (q : Vec F S8x512x512 .bf16) (k : Vec F S8x256x512 .bf16) (mOld : Vec F S8x1x256 .f32) : Vec F S8x1x256 .f32 := k1_pay7 q k mOld
def statsSum (q : Vec F S8x512x512 .bf16) (k : Vec F S8x256x512 .bf16) (mOld lOld : Vec F S8x1x256 .f32) : Vec F S8x1x256 .f32 := k1_pay6 q k mOld mOld lOld
def statsOut (m l : Vec F S8x1x256 .f32) : Vec F S8x1x256 .f32 := k1_pay1 m l

/-- The whole statistic block, the whole query block and the whole key block, as the body loads and stores them. -/
abbrev rStat : Rect S8x1x256 := Rect.unit (s := S8x1x256) ![0, 0, 0] S8x1x256.size inb_S8x1x256_S8x1x256_0_0_0
abbrev rQry : Rect S8x512x512 := Rect.unit (s := S8x512x512) ![0, 0, 0] S8x512x512.size inb_S8x512x512_S8x512x512_0_0_0
abbrev rKey : Rect S8x256x512 := Rect.unit (s := S8x256x512) ![0, 0, 0] S8x256x512.size inb_S8x256x512_S8x256x512_0_0_0

/-- The three zero offsets, however spelt. -/
theorem zero3 : (![0, 0, 0] : Fin 3 → ℕ) = fun _ => 0 := by funext a; fin_cases a <;> rfl

section Whole

variable {κ : Kind} {sp : Space}

/-- A load of a whole block reads the block's contents. -/
theorem load_stat (v : View sig κ sp S8x1x256 .f32) (f : v.ty.Contents (Elt F)) :
    v.readAt (Elt F) rStat.toLoadRect f = v.read (Elt F) f :=
  View.ld_unit_zero (S := S8x1x256) zero3 _ (v.read (Elt F) f)
theorem load_qry (v : View sig κ sp S8x512x512 .bf16) (f : v.ty.Contents (Elt F)) :
    v.readAt (Elt F) rQry.toLoadRect f = v.read (Elt F) f :=
  View.ld_unit_zero (S := S8x512x512) zero3 _ (v.read (Elt F) f)
theorem load_key (v : View sig κ sp S8x256x512 .bf16) (f : v.ty.Contents (Elt F)) :
    v.readAt (Elt F) rKey.toLoadRect f = v.read (Elt F) f :=
  View.ld_unit_zero (S := S8x256x512) zero3 _ (v.read (Elt F) f)

/-- The whole statistic block holds every index. -/
theorem mem_rStat (y : S8x1x256.Idx) : y ∈ rStat.set :=
  View.mem_set_unit_zero (S := S8x1x256) zero3 inb_S8x1x256_S8x1x256_0_0_0 y

/-- A store of the whole statistic block, last, leaves its payload whatever was stored before. -/
theorem read_store_stat (v : View sig κ sp S8x1x256 .f32) (f : v.ty.Contents (Elt F)) (w : rStat.shape.Idx → Elt F .f32)
    (L : List (View.Piece (Elt F) S8x1x256 .f32)) :
    v.read (Elt F) (v.writes (Elt F) f ((⟨rStat, w⟩ : View.Piece (Elt F) S8x1x256 .f32) :: L)) = w := by
  have hcov : ∀ y : S8x1x256.Idx, ∃ p ∈ ((⟨rStat, w⟩ : View.Piece (Elt F) S8x1x256 .f32) :: L), y ∈ p.1.set :=
    fun y => ⟨⟨rStat, w⟩, List.mem_cons_self, mem_rStat y⟩
  rw [View.read_writes_eq_canon v f _ hcov]
  exact View.canon_cons_unit_zero (S := S8x1x256) zero3 inb_S8x1x256_S8x1x256_0_0_0 w L

/-- A load of the whole statistic block after such a store reads the payload. -/
theorem load_store_stat (v : View sig κ sp S8x1x256 .f32) (w : rStat.shape.Idx → Elt F .f32)
    (L : List (View.Piece (Elt F) S8x1x256 .f32)) :
    v.readCov ((⟨rStat, w⟩ : View.Piece (Elt F) S8x1x256 .f32) :: L) rStat.toLoadRect = w :=
  View.readCov_cons_toLoadRect v rStat w L

end Whole

set_option maxHeartbeats 1000000 in
/-- At the first key tile (not the last): the body resets the two scratches before it reads them, so they are handed in at
    anything; it leaves the maximum and the sum of this tile over the reset values, and the output block as it found it. -/
theorem stats_body_first (c : Dev nD) (E : Set ℕ) (i : grid1.Coords)
    (arg2 : Memref sig .tc .vmem S8x512x512 .bf16) (harg2 : arg2.IsWhole) (arg3 : Memref sig .tc .vmem S8x256x512 .bf16) (harg3 : arg3.IsWhole)
    (arg4 : Memref sig .tc .vmem S8x1x256 .f32) (harg4 : arg4.IsWhole) (arg5 : Memref sig .tc .vmem S8x1x256 .f32) (harg5 : arg5.IsWhole)
    (arg6 : Memref sig .tc .vmem S8x1x256 .f32) (harg6 : arg6.IsWhole) (hc0 : cond1_0 i) (hc1 : ¬cond1_1 i)
    (q : Vec F S8x512x512 .bf16) (k : Vec F S8x256x512 .bf16) (xo : Vec F S8x1x256 .f32) (K : PUnit → sProp 𝕄) :
    iprop(owns (c : Thread nD τ) arg2 fullShare q ∗ owns (c : Thread nD τ) arg3 fullShare k ∗ owns (c : Thread nD τ) arg4 fullShare xo ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare xo
            ∗ owns (c : Thread nD τ) arg5 fullShare (statsMax q k (k1_pay2 (F := F))) ∗ owns (c : Thread nD τ) arg6 fullShare (statsSum q k (k1_pay2 (F := F)) (k1_pay3 (F := F)))) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_stat, load_store_stat arg5.view, load_qry, load_key]
    rfl
  iexists _; isplitr
  swap; · iexact H6
  ipureintro
  sl_unfold_run_names
  rw [read_store_stat, load_store_stat arg5.view, load_store_stat arg6.view, load_qry, load_key]
  rfl

set_option maxHeartbeats 1000000 in
/-- At a middle key tile: the scratches are handed in at what the tile before left; the body leaves the maximum and the sum
    updated by this tile, and the output block as it found it. -/
theorem stats_body_mid (c : Dev nD) (E : Set ℕ) (i : grid1.Coords)
    (arg2 : Memref sig .tc .vmem S8x512x512 .bf16) (harg2 : arg2.IsWhole) (arg3 : Memref sig .tc .vmem S8x256x512 .bf16) (harg3 : arg3.IsWhole)
    (arg4 : Memref sig .tc .vmem S8x1x256 .f32) (harg4 : arg4.IsWhole) (arg5 : Memref sig .tc .vmem S8x1x256 .f32) (harg5 : arg5.IsWhole)
    (arg6 : Memref sig .tc .vmem S8x1x256 .f32) (harg6 : arg6.IsWhole) (hc0 : ¬cond1_0 i) (hc1 : ¬cond1_1 i)
    (q : Vec F S8x512x512 .bf16) (k : Vec F S8x256x512 .bf16) (xo mOld lOld : Vec F S8x1x256 .f32) (K : PUnit → sProp 𝕄) :
    iprop(owns (c : Thread nD τ) arg2 fullShare q ∗ owns (c : Thread nD τ) arg3 fullShare k ∗ owns (c : Thread nD τ) arg4 fullShare xo ∗ owns (c : Thread nD τ) arg5 fullShare mOld ∗ owns (c : Thread nD τ) arg6 fullShare lOld
        ∗ (iprop(owns (c : Thread nD τ) arg2 fullShare q ∗ owns (c : Thread nD τ) arg3 fullShare k ∗ owns (c : Thread nD τ) arg4 fullShare xo
            ∗ owns (c : Thread nD τ) arg5 fullShare (statsMax q k mOld) ∗ owns (c : Thread nD τ) arg6 fullShare (statsSum q k mOld lOld)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store_stat, load_qry, load_key, load_stat arg5.view]
    rfl
  iexists _; isplitr
  swap; · iexact H6
  ipureintro
  sl_unfold_run_names
  rw [read_store_stat, load_qry, load_key, load_stat arg5.view, load_stat arg6.view]
  rfl

set_option maxHeartbeats 1000000 in
/-- At the last key tile: as at a middle one, and the output block, handed in at anything, ends at the statistic of the
    final maximum and sum. -/
theorem stats_body_last (c : Dev nD) (E : Set ℕ) (i : grid1.Coords)
    (arg2 : Memref sig .tc .vmem S8x512x512 .bf16) (harg2 : arg2.IsWhole) (arg3 : Memref sig .tc .vmem S8x256x512 .bf16) (harg3 : arg3.IsWhole)
    (arg4 : Memref sig .tc .vmem S8x1x256 .f32) (harg4 : arg4.IsWhole) (arg5 : Memref sig .tc .vmem S8x1x256 .f32) (harg5 : arg5.IsWhole)
    (arg6 : Memref sig .tc .vmem S8x1x256 .f32) (harg6 : arg6.IsWhole) (hc0 : ¬cond1_0 i) (hc1 : cond1_1 i)
    (q : Vec F S8x512x512 .bf16) (k : Vec F S8x256x512 .bf16) (mOld lOld : Vec F S8x1x256 .f32) (K : PUnit → sProp 𝕄) :
    iprop(owns (c : Thread nD τ) arg2 fullShare q ∗ owns (c : Thread nD τ) arg3 fullShare k ∗ (∃ d, owns (c : Thread nD τ) arg4 fullShare d) ∗ owns (c : Thread nD τ) arg5 fullShare mOld ∗ owns (c : Thread nD τ) arg6 fullShare lOld
        ∗ (iprop(owns (c : Thread nD τ) arg2 fullShare q ∗ owns (c : Thread nD τ) arg3 fullShare k ∗ owns (c : Thread nD τ) arg4 fullShare (statsOut (statsMax q k mOld) (statsSum q k mOld lOld))
            ∗ owns (c : Thread nD τ) arg5 fullShare (statsMax q k mOld) ∗ owns (c : Thread nD τ) arg6 fullShare (statsSum q k mOld lOld)) -∗ K ⟨⟩))
      ⊢ wp frame (wpE (defs₀ (F := F)) Variants.none c none) E (cc1__stats_kernel i arg2 harg2 arg3 harg3 arg4 harg4 arg5 harg5 arg6 harg6) K := by
  simp only [cc1__stats_kernel_eq_skeleton]; unfold cc1__stats_kernel_skel
  simp only [k1_part1_eq_skeleton]
  unfold owns
  iintro ⟨⟨%f2, %hf2, H2⟩, ⟨%f3, %hf3, H3⟩, ⟨%d4, %f4, -, H4⟩, ⟨%f5, %hf5, H5⟩, ⟨%f6, %hf6, H6⟩, Hk⟩
  subst hf2; subst hf3; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_store_stat, load_store_stat arg5.view, load_store_stat arg6.view, load_qry, load_key, load_stat arg5.view, load_stat arg6.view]
    rfl
  isplitl [H5]
  · iexists _; isplitr
    swap; · iexact H5
    ipureintro
    sl_unfold_run_names
    rw [read_store_stat, load_qry, load_key, load_stat arg5.view]
    rfl
  iexists _; isplitr
  swap; · iexact H6
  ipureintro
  sl_unfold_run_names
  rw [read_store_stat, load_qry, load_key, load_stat arg5.view, load_stat arg6.view]
  rfl

end Cert.KernelIdeal.Hand

end
-- ==== Proof.IdealData1.lean ====
/-
  The statistics region as the pipeline runs it. Grid point t = (query block, key tile), four key tiles to a query
  block. The body carries a running maximum and a running sum in two scratch buffers: after point t they are one
  step from the reset values if t is a first key tile, and one step from what the point before left otherwise; the
  statistic block is stored at the last key tile of each query block, where it is the statistic of the pair. Between
  points the two scratch buffers are held at the pair's named contents, beside the promise that handing them back at
  any contents restores the region's resting invariant.
-/
import proofs.«100197_j52690658787659_2_alg».proof.Proof.IdealBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The running maximum and the running sum after grid point `n`: one step from the reset values at a first key tile,
    else one step from the pair the point before left. -/
def mlAt (c : Dev nD) : (n : ℕ) → n < cfg1.N → Vec F S8x1x256 .f32 × Vec F S8x1x256 .f32
  | 0, h => (statsMax (blk1 V c 0 ⟨0, h⟩) (blk1 V c 1 ⟨0, h⟩) (k1_pay2 (F := F)),
      statsSum (blk1 V c 0 ⟨0, h⟩) (blk1 V c 1 ⟨0, h⟩) (k1_pay2 (F := F)) (k1_pay3 (F := F)))
  | n + 1, h =>
    let p : Vec F S8x1x256 .f32 × Vec F S8x1x256 .f32 :=
      if (n + 1) % 4 = 0 then (k1_pay2 (F := F), k1_pay3 (F := F)) else mlAt c n (Nat.lt_of_succ_lt h)
    (statsMax (blk1 V c 0 ⟨n + 1, h⟩) (blk1 V c 1 ⟨n + 1, h⟩) p.1, statsSum (blk1 V c 0 ⟨n + 1, h⟩) (blk1 V c 1 ⟨n + 1, h⟩) p.1 p.2)

theorem mlAt_first (c : Dev nD) (t : Fin cfg1.N) (h0 : t.val % 4 = 0) :
    mlAt V c t.val t.isLt = (statsMax (blk1 V c 0 t) (blk1 V c 1 t) (k1_pay2 (F := F)), statsSum (blk1 V c 0 t) (blk1 V c 1 t) (k1_pay2 (F := F)) (k1_pay3 (F := F))) := by
  obtain ⟨n, hn⟩ := t
  cases n with
  | zero => rfl
  | succ n =>
    exact congrArg (fun p : Vec F S8x1x256 .f32 × Vec F S8x1x256 .f32 =>
      (statsMax (blk1 V c 0 ⟨n + 1, hn⟩) (blk1 V c 1 ⟨n + 1, hn⟩) p.1, statsSum (blk1 V c 0 ⟨n + 1, hn⟩) (blk1 V c 1 ⟨n + 1, hn⟩) p.1 p.2))
      (if_pos h0)

theorem mlAt_next (c : Dev nD) (t : Fin cfg1.N) (h0 : ¬t.val % 4 = 0) :
    mlAt V c t.val t.isLt = (statsMax (blk1 V c 0 t) (blk1 V c 1 t) (mlAt V c (t.val - 1) (Nat.lt_of_le_of_lt (Nat.sub_le _ _) t.isLt)).1,
      statsSum (blk1 V c 0 t) (blk1 V c 1 t) (mlAt V c (t.val - 1) (Nat.lt_of_le_of_lt (Nat.sub_le _ _) t.isLt)).1
        (mlAt V c (t.val - 1) (Nat.lt_of_le_of_lt (Nat.sub_le _ _) t.isLt)).2) := by
  obtain ⟨n, hn⟩ := t
  cases n with
  | zero => exact absurd (Nat.zero_mod _) h0
  | succ n =>
    exact congrArg (fun p : Vec F S8x1x256 .f32 × Vec F S8x1x256 .f32 =>
      (statsMax (blk1 V c 0 ⟨n + 1, hn⟩) (blk1 V c 1 ⟨n + 1, hn⟩) p.1, statsSum (blk1 V c 0 ⟨n + 1, hn⟩) (blk1 V c 1 ⟨n + 1, hn⟩) p.1 p.2))
      (if_neg h0)

/-- The two components of the pair at a first key tile and at a later one. -/
theorem mlAt_first_fst (c : Dev nD) (t : Fin cfg1.N) (h0 : t.val % 4 = 0) :
    (mlAt V c t.val t.isLt).1 = statsMax (blk1 V c 0 t) (blk1 V c 1 t) (k1_pay2 (F := F)) := by rw [mlAt_first V c t h0]
theorem mlAt_first_snd (c : Dev nD) (t : Fin cfg1.N) (h0 : t.val % 4 = 0) :
    (mlAt V c t.val t.isLt).2 = statsSum (blk1 V c 0 t) (blk1 V c 1 t) (k1_pay2 (F := F)) (k1_pay3 (F := F)) := by rw [mlAt_first V c t h0]
theorem mlAt_next_fst (c : Dev nD) (t : Fin cfg1.N) (h0 : ¬t.val % 4 = 0) :
    (mlAt V c t.val t.isLt).1 = statsMax (blk1 V c 0 t) (blk1 V c 1 t) (mlAt V c (t.val - 1) (Nat.lt_of_le_of_lt (Nat.sub_le _ _) t.isLt)).1 := by
  rw [mlAt_next V c t h0]
theorem mlAt_next_snd (c : Dev nD) (t : Fin cfg1.N) (h0 : ¬t.val % 4 = 0) :
    (mlAt V c t.val t.isLt).2 = statsSum (blk1 V c 0 t) (blk1 V c 1 t) (mlAt V c (t.val - 1) (Nat.lt_of_le_of_lt (Nat.sub_le _ _) t.isLt)).1
      (mlAt V c (t.val - 1) (Nat.lt_of_le_of_lt (Nat.sub_le _ _) t.isLt)).2 := by
  rw [mlAt_next V c t h0]

/-- The scratch operands: two whole scoped buffers of the kernel's own, the running maximum's and the running sum's. -/
abbrev scM1m : Memref sig .tc .vmem S8x1x256 .f32 := Memref.whole cc1_scratch0
abbrev scM1l : Memref sig .tc .vmem S8x1x256 .f32 := Memref.whole cc1_scratch1

/-- The region's resting invariant lends the two scratch buffers out, and takes them back at any contents. -/
theorem focus1 (c : Dev nD) :
    (Pipeline.ΦA spec1 c : sProp 𝕄) ⊢ iprop((∃ d, owns (c : Thread nD τ) scM1m fullShare d) ∗ (∃ d, owns (c : Thread nD τ) scM1l fullShare d)
      ∗ (iprop((∃ d, owns (c : Thread nD τ) scM1m fullShare d) ∗ (∃ d, owns (c : Thread nD τ) scM1l fullShare d)) -∗ Pipeline.ΦA spec1 c)) := by
  unfold Pipeline.ΦA; rw [scopedRest1_eq]; simp only [scM1m, scM1l, owns_whole]
  iintro ⟨⟨R1, R2, R3, R4, R5, R6, R7, R8, R9, R10, R11, R12, R13, R14, R15, R16, R17, R18, R19, R20, R21, R22⟩, Hg⟩
  isplitl [R10]; · iexact R10
  isplitl [R11]; · iexact R11
  iintro ⟨R10, R11⟩
  isplitl [R1 R2 R3 R4 R5 R6 R7 R8 R9 R10 R11 R12 R13 R14 R15 R16 R17 R18 R19 R20 R21 R22]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  iexact R22

/-- The invariant before position `n`: at rest before the first point; afterwards the two scratches at the pair the
    point before left, beside the promise to be at rest again once they are handed back. -/
def PhiS1 (c : Dev nD) : (n : ℕ) → n ≤ cfg1.N → sProp 𝕄
  | 0, _ => Pipeline.ΦA spec1 c
  | n + 1, hn => iprop(owns (c : Thread nD τ) scM1m fullShare (mlAt V c n hn).1 ∗ owns (c : Thread nD τ) scM1l fullShare (mlAt V c n hn).2
      ∗ (iprop((∃ d, owns (c : Thread nD τ) scM1m fullShare d) ∗ (∃ d, owns (c : Thread nD τ) scM1l fullShare d)) -∗ Pipeline.ΦA spec1 c))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1m fullShare (mlAt V c n hn).1 ∗ owns (c : Thread nD τ) scM1l fullShare (mlAt V c n hn).2
      ∗ (iprop((∃ d, owns (c : Thread nD τ) scM1m fullShare d) ∗ (∃ d, owns (c : Thread nD τ) scM1l fullShare d)) -∗ Pipeline.ΦA spec1 c)) := rfl
theorem PhiS1_pos (c : Dev nD) (n : ℕ) (h : n ≤ cfg1.N) (hz : n ≠ 0) :
    PhiS1 V c n h = iprop(owns (c : Thread nD τ) scM1m fullShare (mlAt V c (n - 1) (by omega)).1 ∗ owns (c : Thread nD τ) scM1l fullShare (mlAt V c (n - 1) (by omega)).2
      ∗ (iprop((∃ d, owns (c : Thread nD τ) scM1m fullShare d) ∗ (∃ d, owns (c : Thread nD τ) scM1l fullShare d)) -∗ Pipeline.ΦA spec1 c)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => statsOut (mlAt V c t.val t.isLt).1 (mlAt V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) :
    (dat1 V c).after 2 t = statsOut (mlAt V c t.val t.isLt).1 (mlAt V c t.val t.isLt).2 := by dsimp only [dat1]
theorem before1_0 (c : Dev nD) (t : Fin cfg1.N) (d) : (dat1 V c).before 0 t d = blk1 V c 0 t :=
  before1_in0 V (dat1 V c) (A_eq1 V c 0) (after1_0 V c) t d
theorem before1_1 (c : Dev nD) (t : Fin cfg1.N) (d) : (dat1 V c).before 1 t d = blk1 V c 1 t :=
  before1_in1 V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the kind of key tile it is. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [mlAt_first_fst V c t h0, mlAt_first_snd V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HF := (focus1 c) $$ HΦ
      icases HF with ⟨HSm, HSl, Hw⟩
      iapply (stats_body_first c Set.univ _ _ _ _ _ _ _ _ _ _ _ ((hcond1_0 t).mpr h0) (fun h => h1 ((hcond1_1 t).mp h)) (blk1 V c 0 t) (blk1 V c 1 t) _ _)
      isplitl [H0]; · iexact H0
      isplitl [H1]; · iexact H1
      isplitl [H2]; · iexact H2
      isplitl [HSm]; · iexact HSm
      isplitl [HSl]; · iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexists _; iexact H2
    · rw [PhiS1_castSucc V c t, PhiS1_pos V c _ _ hz]
      iintro ⟨⟨HSm, HSl, Hw⟩, Ho, ⟨%d0, H0⟩, ⟨%d1, H1⟩, ⟨%d2, H2⟩⟩
      iapply (stats_body_first c Set.univ _ _ _ _ _ _ _ _ _ _ _ ((hcond1_0 t).mpr h0) (fun h => h1 ((hcond1_1 t).mp h)) (blk1 V c 0 t) (blk1 V c 1 t) _ _)
      isplitl [H0]; · iexact H0
      isplitl [H1]; · iexact H1
      isplitl [H2]; · iexact H2
      isplitl [HSm]; · iexists _; iexact HSm
      isplitl [HSl]; · iexists _; iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexists _; iexact H2
  · have hz : t.val ≠ 0 := by intro h; rw [h] at h0; exact h0 rfl
    rw [PhiS1_castSucc V c t, PhiS1_pos V c _ _ hz]
    by_cases h1 : t.val % 4 = 3
    · rw [show (dat1 V c).leavesExact 2 t = owns (c : Thread nD τ) (st1_2 t) fullShare ((dat1 V c).after 2 t) from by
        unfold Dat.leavesExact; rw [liveAt1_2 t ((hcond1_1 t).mpr h1)], after1_2]
      rw [mlAt_next_fst V c t h0, mlAt_next_snd V c t h0]
      iintro ⟨⟨HSm, HSl, Hw⟩, Ho, ⟨%d0, H0⟩, ⟨%d1, H1⟩, ⟨%d2, H2⟩⟩
      iapply (stats_body_last c Set.univ _ _ _ _ _ _ _ _ _ _ _ (fun h => h0 ((hcond1_0 t).mp h)) ((hcond1_1 t).mpr h1) (blk1 V c 0 t) (blk1 V c 1 t) _ _ _)
      isplitl [H0]; · iexact H0
      isplitl [H1]; · iexact H1
      isplitl [H2]; · iexists _; iexact H2
      isplitl [HSm]; · iexact HSm
      isplitl [HSl]; · iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      rw [mlAt_next_fst V c t h0, mlAt_next_snd V c t h0]
      iintro ⟨⟨HSm, HSl, Hw⟩, Ho, ⟨%d0, H0⟩, ⟨%d1, H1⟩, ⟨%d2, H2⟩⟩
      iapply (stats_body_mid c Set.univ _ _ _ _ _ _ _ _ _ _ _ (fun h => h0 ((hcond1_0 t).mp h)) (fun h => h1 ((hcond1_1 t).mp h)) (blk1 V c 0 t) (blk1 V c 1 t) _ _ _ _)
      isplitl [H0]; · iexact H0
      isplitl [H1]; · iexact H1
      isplitl [H2]; · iexact H2
      isplitl [HSm]; · iexact HSm
      isplitl [HSl]; · iexact HSl
      iintro ⟨H0, H1, H2, HSm, HSl⟩
      isplitl [HSm HSl Hw]
      · isplitl [HSm]; · iexact HSm
        isplitl [HSl]; · iexact HSl
        iexact Hw
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- At rest before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the scratches are handed back and the region is at rest. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨HSm, HSl, Hw⟩
  iapply Hw
  isplitl [HSm]; · iexists _; iexact HSm
  iexists _; iexact HSl

end Cert.KernelIdeal.Hand

end
-- ==== Proof.IdealBody2.lean ====
/-
  The output kernel's body, at one grid point (a block of 256 query rows against a block of 256 key rows): it
  recomputes the block of scores, turns each into the weight exp(min(score − stat, 0)) with the key column's
  statistic, and adds the weights' product with the value block to an accumulator it keeps in a scratch buffer
  from one key block to the next — zeroed at the first key block, copied to the output block at the last.
-/
import proofs.«100197_j52690658787659_2_alg».proof.Proof.Gen.KernelIdeal.Launch
import proofs.«100197_j52690658787659_2_alg».proof.Proof.Gen.KernelIdeal.Skeleton
import proofs.«100197_j52690658787659_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch: this is the first key block (the grid's second coordinate is 0). -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The body's second branch: this is the last key block (the grid's second coordinate is 7). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- The accumulator after one more key block: the old accumulator plus weights times values. -/
def accStep (q k v : Vec F S8x256x512 .bf16) (st : Vec F S8x1x256 .f32) (acc : Vec F S8x256x512 .f32) : Vec F S8x256x512 .f32 :=
  k2_pay2 q k v st acc

/-- The accumulator's starting value: zeros. -/
def accZero : Vec F S8x256x512 .f32 := k2_pay1 (F := F)

/-- The printed zero offsets are the zero function. -/
theorem hz3 : (![0, 0, 0] : Fin 3 → Nat) = fun _ => 0 := by funext a; fin_cases a <;> rfl

/-- The whole accumulator block, as the body stores it. -/
abbrev rAcc : Rect S8x256x512 := Rect.unit (s := S8x256x512) ![0, 0, 0] S8x256x512.size inb_S8x256x512_S8x256x512_0_0_0

/-- A store of the whole block, last, covers the block whatever came before. -/
theorem coverAcc (p : Vec F S8x256x512 .f32) (L : List (View.Piece (Elt F) S8x256x512 .f32)) (y : S8x256x512.Idx) :
    ∃ pc ∈ ((⟨rAcc, p⟩ : View.Piece (Elt F) S8x256x512 .f32) :: L), y ∈ pc.1.set :=
  ⟨_, List.mem_cons_self, View.mem_set_unit_zero hz3 inb_S8x256x512_S8x256x512_0_0_0 y⟩

set_option maxHeartbeats 1000000 in
/-- FIRST key block (not the last): the accumulator, at anything before, ends at one step from zero; the output block
    is not touched. -/
theorem out_body_first (c : Dev nD) (E : Set ℕ) (i : grid2.Coords)
    (arg2 : Memref sig .tc .vmem S8x256x512 .bf16) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x1x256 .f32) (harg5 : arg5.IsWhole)
    (arg6 : Memref sig .tc .vmem S8x256x512 .f32) (harg6 : arg6.IsWhole) (arg7 : Memref sig .tc .vmem S8x256x512 .f32) (harg7 : arg7.IsWhole)
    (hc0 : cond2_0 i) (hc1 : ¬cond2_1 i)
    (q k v : Vec F S8x256x512 .bf16) (st : Vec F S8x1x256 .f32) (xo : Vec F S8x256x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare xo ∗ (∃ d, owns (c : Thread nD τ) arg7 fullShare d)
        ∗ (iprop(owns (c : Thread nD τ) arg2 fullShare q ∗ owns (c : Thread nD τ) arg3 fullShare k ∗ owns (c : Thread nD τ) arg4 fullShare v
            ∗ owns (c : Thread nD τ) arg5 fullShare st ∗ owns (c : Thread nD τ) arg6 fullShare xo
            ∗ owns (c : Thread nD τ) arg7 fullShare (accStep q k v st accZero)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  iexists _; isplitr
  swap; · iexact H7
  ipureintro
  try sl_unfold_run_names
  rw [View.read_writes_eq_canon _ _ _ (coverAcc _ _), View.canon_cons_unit_zero hz3]
  simp only [View.readAt_eq_ld, Memref.IsWhole.read_unread, View.ld_unit_zero (S := S8x256x512) hz3, View.ld_unit_zero (S := S8x1x256) hz3, View.readCov_unit_zero (S := S8x256x512) _ hz3]
  rfl

set_option maxHeartbeats 1000000 in
/-- A MIDDLE key block: the accumulator goes from what the block before left to one step further; the output block is
    not touched. -/
theorem out_body_mid (c : Dev nD) (E : Set ℕ) (i : grid2.Coords)
    (arg2 : Memref sig .tc .vmem S8x256x512 .bf16) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x1x256 .f32) (harg5 : arg5.IsWhole)
    (arg6 : Memref sig .tc .vmem S8x256x512 .f32) (harg6 : arg6.IsWhole) (arg7 : Memref sig .tc .vmem S8x256x512 .f32) (harg7 : arg7.IsWhole)
    (hc0 : ¬cond2_0 i) (hc1 : ¬cond2_1 i)
    (q k v : Vec F S8x256x512 .bf16) (st : Vec F S8x1x256 .f32) (xo acc : Vec F S8x256x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare xo ∗ owns (c : Thread nD τ) arg7 fullShare acc
        ∗ (iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare xo
            ∗ owns (c : Thread nD τ) arg7 fullShare (accStep q k v st acc)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  iexists _; isplitr
  swap; · iexact H7
  ipureintro
  try sl_unfold_run_names
  rw [View.read_writes_eq_canon _ _ _ (coverAcc _ _), View.canon_cons_unit_zero hz3]
  simp only [View.readAt_eq_ld, Memref.IsWhole.read_unread, View.ld_unit_zero (S := S8x256x512) hz3, View.ld_unit_zero (S := S8x1x256) hz3, View.readCov_unit_zero (S := S8x256x512) _ hz3]
  rfl

set_option maxHeartbeats 1000000 in
/-- The LAST key block: one step further, and the accumulator is copied into the output block (at anything before). -/
theorem out_body_last (c : Dev nD) (E : Set ℕ) (i : grid2.Coords)
    (arg2 : Memref sig .tc .vmem S8x256x512 .bf16) (harg2 : arg2.IsWhole) (arg3 : Memref sig .tc .vmem S8x256x512 .bf16) (harg3 : arg3.IsWhole)
    (arg4 : Memref sig .tc .vmem S8x256x512 .bf16) (harg4 : arg4.IsWhole) (arg5 : Memref sig .tc .vmem S8x1x256 .f32) (harg5 : arg5.IsWhole)
    (arg6 : Memref sig .tc .vmem S8x256x512 .f32) (harg6 : arg6.IsWhole) (arg7 : Memref sig .tc .vmem S8x256x512 .f32) (harg7 : arg7.IsWhole)
    (hc0 : ¬cond2_0 i) (hc1 : cond2_1 i)
    (q k v : Vec F S8x256x512 .bf16) (st : Vec F S8x1x256 .f32) (acc : Vec F S8x256x512 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare st ∗ (∃ d, owns (c : Thread nD τ) arg6 fullShare d) ∗ owns (c : Thread nD τ) arg7 fullShare acc
        ∗ (iprop(owns (c : Thread nD τ) arg2 fullShare q ∗ owns (c : Thread nD τ) arg3 fullShare k ∗ owns (c : Thread nD τ) arg4 fullShare v
        ∗ owns (c : Thread nD τ) arg5 fullShare st ∗ owns (c : Thread nD τ) arg6 fullShare (accStep q k v st acc)
            ∗ owns (c : Thread nD τ) arg7 fullShare (accStep q k v st acc)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]
  · iexists _; isplitr
    swap; · iexact H6
    ipureintro
    try sl_unfold_run_names
    rw [View.read_writes_eq_canon _ _ _ (coverAcc _ _), View.canon_cons_unit_zero hz3]
    simp only [View.readAt_eq_ld, Memref.IsWhole.read_unread, View.ld_unit_zero (S := S8x256x512) hz3, View.ld_unit_zero (S := S8x1x256) hz3, View.readCov_unit_zero (S := S8x256x512) _ hz3]
    rfl
  iexists _; isplitr
  swap; · iexact H7
  ipureintro
  try sl_unfold_run_names
  rw [View.read_writes_eq_canon _ _ _ (coverAcc _ _), View.canon_cons_unit_zero hz3]
  simp only [View.readAt_eq_ld, Memref.IsWhole.read_unread, View.ld_unit_zero (S := S8x256x512) hz3, View.ld_unit_zero (S := S8x1x256) hz3, View.readCov_unit_zero (S := S8x256x512) _ hz3]
  rfl

end Cert.KernelIdeal.Hand

end
-- ==== Proof.IdealData2.lean ====
/-
  The output region as the pipeline runs it. Grid point t = (query block, key block); the accumulator the body keeps
  in its scratch buffer is, after point t, one step from zero if t is a first key block and one step from what the
  point before left otherwise; the output block is stored at the last key block of each query block, where it is
  the accumulator. Between points the scratch buffer is held at the accumulator's named contents, beside the promise
  that handing it back at any contents restores the region's resting invariant.
-/
import proofs.«100197_j52690658787659_2_alg».proof.Proof.IdealBody2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_in0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_in1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_in2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_in3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Where the windows are idle: the inputs never; the output except at a last key block, and there only is it
    written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The accumulator after grid point `n`: one step from zero at a first key block, else one step from the point before. -/
def accAt (c : Dev nD) : (n : ℕ) → n < cfg2.N → Vec F S8x256x512 .f32
  | 0, h => accStep (blk2 V c 0 ⟨0, h⟩) (blk2 V c 1 ⟨0, h⟩) (blk2 V c 2 ⟨0, h⟩) (blk2 V c 3 ⟨0, h⟩) accZero
  | n + 1, h => accStep (blk2 V c 0 ⟨n + 1, h⟩) (blk2 V c 1 ⟨n + 1, h⟩) (blk2 V c 2 ⟨n + 1, h⟩) (blk2 V c 3 ⟨n + 1, h⟩)
      (if (n + 1) % 8 = 0 then accZero else accAt c n (Nat.lt_of_succ_lt h))

theorem accAt_first (c : Dev nD) (t : Fin cfg2.N) (h0 : t.val % 8 = 0) :
    accAt V c t.val t.isLt = accStep (blk2 V c 0 t) (blk2 V c 1 t) (blk2 V c 2 t) (blk2 V c 3 t) accZero := by
  obtain ⟨n, hn⟩ := t
  cases n with
  | zero => rfl
  | succ n => exact congrArg _ (if_pos h0)

theorem accAt_next (c : Dev nD) (t : Fin cfg2.N) (h0 : ¬t.val % 8 = 0) :
    accAt V c t.val t.isLt = accStep (blk2 V c 0 t) (blk2 V c 1 t) (blk2 V c 2 t) (blk2 V c 3 t)
      (accAt V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The scratch operand: a whole scoped buffer of the kernel's own. -/
abbrev scM2 : Memref sig .tc .vmem S8x256x512 .f32 := Memref.whole cc2_scratch0

/-- The region's resting invariant lends the scratch buffer out, and takes it back at any contents. -/
theorem focus2 (c : Dev nD) :
    (Pipeline.ΦA spec2 c : sProp 𝕄) ⊢ iprop((∃ d, owns (c : Thread nD τ) scM2 fullShare d)
      ∗ (iprop(∃ d, owns (c : Thread nD τ) scM2 fullShare d) -∗ Pipeline.ΦA spec2 c)) := by
  unfold Pipeline.ΦA; rw [scopedRest2_eq]; simp only [scM2, owns_whole]
  iintro ⟨⟨R1, R2, R3, R4, R5, R6, R7, R8, R9, R10, R11, R12, R13, R14, R15, R16, R17, R18⟩, Hg⟩
  isplitl [R18]; · iexact R18
  iintro R18
  isplitl [R1 R2 R3 R4 R5 R6 R7 R8 R9 R10 R11 R12 R13 R14 R15 R16 R17 R18]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  iexact R18

/-- The invariant before position `n`: at rest before the first point; afterwards the scratch at the accumulator the
    point before left, beside the promise to be at rest again once it is handed back. -/
def PhiS2 (c : Dev nD) : (n : ℕ) → n ≤ cfg2.N → sProp 𝕄
  | 0, _ => Pipeline.ΦA spec2 c
  | n + 1, hn => iprop(owns (c : Thread nD τ) scM2 fullShare (accAt V c n hn)
      ∗ (iprop(∃ d, owns (c : Thread nD τ) scM2 fullShare d) -∗ Pipeline.ΦA spec2 c))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (accAt V c n hn)
      ∗ (iprop(∃ d, owns (c : Thread nD τ) scM2 fullShare d) -∗ Pipeline.ΦA spec2 c)) := rfl
theorem PhiS2_pos (c : Dev nD) (n : ℕ) (h : n ≤ cfg2.N) (hz : n ≠ 0) :
    PhiS2 V c n h = iprop(owns (c : Thread nD τ) scM2 fullShare (accAt V c (n - 1) (by omega))
      ∗ (iprop(∃ d, owns (c : Thread nD τ) scM2 fullShare d) -∗ Pipeline.ΦA spec2 c)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => accAt V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = accAt V c t.val t.isLt := by dsimp only [dat2]
theorem before2_0 (c : Dev nD) (t : Fin cfg2.N) (d) : (dat2 V c).before 0 t d = blk2 V c 0 t :=
  before2_in0 V (dat2 V c) (A_eq2 V c 0) (after2_0 V c) t d
theorem before2_1 (c : Dev nD) (t : Fin cfg2.N) (d) : (dat2 V c).before 1 t d = blk2 V c 1 t :=
  before2_in1 V (dat2 V c) (A_eq2 V c 1) (after2_1 V c) t d
theorem before2_2 (c : Dev nD) (t : Fin cfg2.N) (d) : (dat2 V c).before 2 t d = blk2 V c 2 t :=
  before2_in2 V (dat2 V c) (A_eq2 V c 2) (after2_2 V c) t d
theorem before2_3 (c : Dev nD) (t : Fin cfg2.N) (d) : (dat2 V c).before 3 t d = blk2 V c 3 t :=
  before2_in3 V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point, by the kind of key block it is. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val % 8 = 0
  · have h1 : ¬t.val % 8 = 7 := by omega
    rw [Dat.leavesExact_idle (dat2 V c) 4 t (idleAt2_4 t (fun h => h1 ((hcond2_1 t).mp h))) (noFlush2_4 t (fun h => h1 ((hcond2_1 t).mp h)))]
    rw [accAt_first V c t h0]
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩, ⟨%d4, H4⟩⟩
      ihave HF := (focus2 c) $$ HΦ
      icases HF with ⟨HS, Hw⟩
      iapply (out_body_first c Set.univ _ _ _ _ _ _ _ _ _ _ _ _ _ ((hcond2_0 t).mpr h0) (fun h => h1 ((hcond2_1 t).mp h)) (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨HS, Hw⟩, Ho, ⟨%d0, H0⟩, ⟨%d1, H1⟩, ⟨%d2, H2⟩, ⟨%d3, H3⟩, ⟨%d4, H4⟩⟩
      iapply (out_body_first c Set.univ _ _ _ _ _ _ _ _ _ _ _ _ _ ((hcond2_0 t).mpr h0) (fun h => h1 ((hcond2_1 t).mp h)) (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4
  · have hz : t.val ≠ 0 := by intro h; rw [h] at h0; exact h0 rfl
    rw [accAt_next V c t h0, PhiS2_castSucc V c t, PhiS2_pos V c _ _ hz]
    by_cases h1 : t.val % 8 = 7
    · rw [show (dat2 V c).leavesExact 4 t = owns (c : Thread nD τ) (st2_4 t) fullShare ((dat2 V c).after 4 t) from by
        unfold Dat.leavesExact; rw [liveAt2_4 t ((hcond2_1 t).mpr h1)], after2_4, accAt_next V c t h0]
      iintro ⟨⟨HS, Hw⟩, Ho, ⟨%d0, H0⟩, ⟨%d1, H1⟩, ⟨%d2, H2⟩, ⟨%d3, H3⟩, ⟨%d4, H4⟩⟩
      iapply (out_body_last c Set.univ _ _ _ _ _ _ _ _ _ _ _ _ _ (fun h => h0 ((hcond2_0 t).mp h)) ((hcond2_1 t).mpr h1) (blk2 V c 0 t) (blk2 V c 1 t) (blk2 V c 2 t) (blk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      iintro ⟨⟨HS, Hw⟩, Ho, ⟨%d0, H0⟩, ⟨%d1, H1⟩, ⟨%d2, H2⟩, ⟨%d3, H3⟩, ⟨%d4, H4⟩⟩
      iapply (out_body_mid c Set.univ _ _ _ _ _ _ _ _ _ _ _ _ _ (fun h => h0 ((hcond2_0 t).mp h)) (fun h => h1 ((hcond2_1 t).mp h)) (blk2 V c 0 t) (blk2 V c 1 t) (blk2 V c 2 t) (blk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- At rest before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the scratch is handed back and the region is at rest. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega)]
  iintro ⟨HS, Hw⟩
  iapply Hw
  iexists _; iexact HS

end Cert.KernelIdeal.Hand

end
-- ==== Proof.IdealRun.lean ====
/-
  The whole program as the launch runs it: two host operations (the three weight matrices side by side, then their
  change of format), the projection call, the statistics call, the output call. At each boundary every unscoped
  buffer holds named contents — the launch memory, then what each step leaves —, and the run ends with the result
  array at what the output call's write-backs leave and every argument array as launched.
-/
import proofs.«100197_j52690658787659_2_alg».proof.Proof.IdealData0
import proofs.«100197_j52690658787659_2_alg».proof.Proof.IdealData1
import proofs.«100197_j52690658787659_2_alg».proof.Proof.IdealData2
import proofs.«100197_j52690658787659_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch, and after the two host operations. -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b

/-- After pallas call 0: its arrays at what its write-backs leave, every other buffer as it was. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pallas call 1: its arrays at what its write-backs leave, every other buffer as it was. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pallas call 2: its arrays at what its write-backs leave, every other buffer as it was. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := (Gen.V1_of m c main_arg0 (by decide)).trans rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (Gen.V1_of m c main_arg2 (by decide)).trans rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (Gen.V1_of m c main_arg3 (by decide)).trans rfl

/-- The result array ends at what the output call's write-backs leave. -/
theorem W4_main_v4 (c : Dev nD) : W4 m c (Proc.devRef .tc main_v4) = (dat2 (V3 m) c).arrAt 4 cfg2.N :=
  W4_arr m c 4

/-! ## The proof data family and the thread state -/

/-- No pallas call has a prefetched table. -/
abbrev adm : (p : Fin 3) → (pcfgs (F := F) p).Adm := fun p => (cfgs p).toPCfg_adm
/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-- Each call's invariant at rest before its first point and after its last, in the family's terms. -/
theorem hin0' (c : Dev nD) : Pipeline.ΦA spec0 c ⊢ (pdats m 0 c).Φ 0 := BI.Entails.refl _
theorem hout0' (c : Dev nD) : (pdats m 0 c).Φ (Fin.last _) ⊢ Pipeline.ΦA spec0 c := BI.Entails.refl _
theorem hin1' (c : Dev nD) : Pipeline.ΦA spec1 c ⊢ (pdats m 1 c).Φ 0 := hin1 (V2 m) c
theorem hout1' (c : Dev nD) : (pdats m 1 c).Φ (Fin.last _) ⊢ Pipeline.ΦA spec1 c := hout1 (V2 m) c
theorem hin2' (c : Dev nD) : Pipeline.ΦA spec2 c ⊢ (pdats m 2 c).Φ 0 := hin2 (V3 m) c
theorem hout2' (c : Dev nD) : (pdats m 2 c).Φ (Fin.last _) ⊢ Pipeline.ΦA spec2 c := hout2 (V3 m) c

/-! ## The calls as segments -/

-- unification with the pinned configuration must unfold plain definitions in a metavariable's type
set_option backward.isDefEq.respectTransparency.types false in
/-- Pallas call 0 as a segment: entered with every unscoped buffer at its contents before the call, left with them at
    the contents after it. Its arrays are split out of the unscoped buffers at entry and put back at exit; the generator
    register rides through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0' m c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration must unfold plain definitions in a metavariable's type
set_option backward.isDefEq.respectTransparency.types false in
/-- Pallas call 1 as a segment: entered with every unscoped buffer at its contents before the call, left with them at
    the contents after it. Its arrays are split out of the unscoped buffers at entry and put back at exit; the generator
    register rides through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1' m c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration must unfold plain definitions in a metavariable's type
set_option backward.isDefEq.respectTransparency.types false in
/-- Pallas call 2 as a segment: entered with every unscoped buffer at its contents before the call, left with them at
    the contents after it. Its arrays are split out of the unscoped buffers at entry and put back at exit; the generator
    register rides through the region's invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2' m c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- Every weakly fair execution of the program terminates, nothing faulting, with the result array at what the output
    call's write-backs leave and each argument array as launched. -/
theorem run : θ_run defs (onTc (τ := τ) (main (F := F))) ⟨m, fun _ => 0, ρ⟩ (fun r => ∀ c : Dev nD,
      r.2.mem ((c.tc : Thread nD τ).loc main_v4) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_main_v4 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.KernelIdeal.Hand

end
-- ==== Proof.PayProjOut.lean ====
/-
  The kernel's pure values read at an index.

  Region 2 (the output step): for a block of query rows q, a tile of key rows k with value rows v, the tile's
  statistic st (one number per key row) and the accumulator acc,
    new[b, r, d] = acc[b, r, d] + Σ_j exp(min(Σ_e q[b, r, e]·k[b, j, e] − st[b, j], 0)) · v[b, j, d].
  Region 0 (the projection): the tokens x against a matrix w whose 1536 columns are three matrices side by side,
    q[b, r, e] = Σ_h x[b, r, h]·w[h, e],  k[b, r, e] = Σ_h x[b, r, h]·w[h, 512 + e],  v[b, r, e] = Σ_h x[b, r, h]·w[h, 1024 + e].
-/
import proofs.«100197_j52690658787659_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The two contractions of the output step -/

theorem lhs_qk_0 (i : S8x256x256.Idx) (q : dot_S8x256x512_S8x256x512_S8x256x256_2_2_1_1_0_0.contr.Idx) :
    (dot_S8x256x512_S8x256x512_S8x256x256_2_2_1_1_0_0.lhsIdx i q 0).val = (i 0).val := by
  unfold DotDims.lhsIdx
  rw [dif_pos (show (0 : Fin S8x256x512.rank) ∈ dot_S8x256x512_S8x256x512_S8x256x256_2_2_1_1_0_0.lhsBatch by decide)]
  rfl
theorem lhs_qk_1 (i : S8x256x256.Idx) (q : dot_S8x256x512_S8x256x512_S8x256x256_2_2_1_1_0_0.contr.Idx) :
    (dot_S8x256x512_S8x256x512_S8x256x256_2_2_1_1_0_0.lhsIdx i q 1).val = (i 1).val := by
  unfold DotDims.lhsIdx
  rw [dif_neg (show ¬(1 : Fin S8x256x512.rank) ∈ dot_S8x256x512_S8x256x512_S8x256x256_2_2_1_1_0_0.lhsBatch by decide), dif_pos (show (1 : Fin S8x256x512.rank) ∈ dot_S8x256x512_S8x256x512_S8x256x256_2_2_1_1_0_0.lhsNonContracting by decide)]
  rfl
theorem lhs_qk_2 (i : S8x256x256.Idx) (q : dot_S8x256x512_S8x256x512_S8x256x256_2_2_1_1_0_0.contr.Idx) :
    (dot_S8x256x512_S8x256x512_S8x256x256_2_2_1_1_0_0.lhsIdx i q 2).val = (q ⟨0, by decide⟩).val :=
  dot_S8x256x512_S8x256x512_S8x256x256_2_2_1_1_0_0.lhsIdx_val_of_single rfl i q
theorem rhs_qk_0 (i : S8x256x256.Idx) (q : dot_S8x256x512_S8x256x512_S8x256x256_2_2_1_1_0_0.contr.Idx) :
    (dot_S8x256x512_S8x256x512_S8x256x256_2_2_1_1_0_0.rhsIdx i q 0).val = (i 0).val := by
  unfold DotDims.rhsIdx
  rw [dif_pos (show (0 : Fin S8x256x512.rank) ∈ dot_S8x256x512_S8x256x512_S8x256x256_2_2_1_1_0_0.rhsBatch by decide)]
  rfl
theorem rhs_qk_1 (i : S8x256x256.Idx) (q : dot_S8x256x512_S8x256x512_S8x256x256_2_2_1_1_0_0.contr.Idx) :
    (dot_S8x256x512_S8x256x512_S8x256x256_2_2_1_1_0_0.rhsIdx i q 1).val = (i 2).val := by
  unfold DotDims.rhsIdx
  rw [dif_neg (show ¬(1 : Fin S8x256x512.rank) ∈ dot_S8x256x512_S8x256x512_S8x256x256_2_2_1_1_0_0.rhsBatch by decide), dif_pos (show (1 : Fin S8x256x512.rank) ∈ dot_S8x256x512_S8x256x512_S8x256x256_2_2_1_1_0_0.rhsNonContracting by decide)]
  rfl
theorem rhs_qk_2 (i : S8x256x256.Idx) (q : dot_S8x256x512_S8x256x512_S8x256x256_2_2_1_1_0_0.contr.Idx) :
    (dot_S8x256x512_S8x256x512_S8x256x256_2_2_1_1_0_0.rhsIdx i q 2).val = (q ⟨0, by decide⟩).val :=
  dot_S8x256x512_S8x256x512_S8x256x256_2_2_1_1_0_0.rhsIdx_val_of_single rfl i q

/-- Query rows against key rows, contracted over the feature axis, into a zero accumulator: the block of scores. -/
theorem mm_qk_apply (l : FVec Ideal S8x256x512 .bf16) (r : FVec Ideal S8x256x512 .bf16) (b : Fin 8) (i j : Fin 256) :
    matmul dot_S8x256x512_S8x256x512_S8x256x256_2_2_1_1_0_0 none l r (constant (F := Ideal) S8x256x256 .f32 0x00000000#32) (ix3 b i j)
      = ∑ e : Fin 512, l (ix3 b i e) * r (ix3 b j e) := by
  refine (Ideal.matmul_constant_zero_apply dot_S8x256x512_S8x256x512_S8x256x256_2_2_1_1_0_0 none l r (ix3 b i j)).trans ?_
  rw [← Equiv.sum_comp (contrEquiv1 dot_S8x256x512_S8x256x512_S8x256x256_2_2_1_1_0_0 512 rfl rfl).symm]
  refine Finset.sum_congr rfl fun c _ => ?_
  have hk := contrEquiv1_symm_val dot_S8x256x512_S8x256x512_S8x256x256_2_2_1_1_0_0 512 rfl rfl c
  have el : dot_S8x256x512_S8x256x512_S8x256x256_2_2_1_1_0_0.lhsIdx (ix3 b i j) ((contrEquiv1 dot_S8x256x512_S8x256x512_S8x256x256_2_2_1_1_0_0 512 rfl rfl).symm c) = ix3 b i c := funext fun a => Fin.ext (by
    match a with
    | ⟨0, _⟩ => exact lhs_qk_0 _ _
    | ⟨1, _⟩ => exact lhs_qk_1 _ _
    | ⟨2, _⟩ => exact (lhs_qk_2 _ _).trans hk)
  have er : dot_S8x256x512_S8x256x512_S8x256x256_2_2_1_1_0_0.rhsIdx (ix3 b i j) ((contrEquiv1 dot_S8x256x512_S8x256x512_S8x256x256_2_2_1_1_0_0 512 rfl rfl).symm c) = ix3 b j c := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pv_0 (i : S8x256x512.Idx) (q : dot_S8x256x256_S8x256x512_S8x256x512_2_1_1_2_0_0.contr.Idx) :
    (dot_S8x256x256_S8x256x512_S8x256x512_2_1_1_2_0_0.lhsIdx i q 0).val = (i 0).val := by
  unfold DotDims.lhsIdx
  rw [dif_pos (show (0 : Fin S8x256x256.rank) ∈ dot_S8x256x256_S8x256x512_S8x256x512_2_1_1_2_0_0.lhsBatch by decide)]
  rfl
theorem lhs_pv_1 (i : S8x256x512.Idx) (q : dot_S8x256x256_S8x256x512_S8x256x512_2_1_1_2_0_0.contr.Idx) :
    (dot_S8x256x256_S8x256x512_S8x256x512_2_1_1_2_0_0.lhsIdx i q 1).val = (i 1).val := by
  unfold DotDims.lhsIdx
  rw [dif_neg (show ¬(1 : Fin S8x256x256.rank) ∈ dot_S8x256x256_S8x256x512_S8x256x512_2_1_1_2_0_0.lhsBatch by decide), dif_pos (show (1 : Fin S8x256x256.rank) ∈ dot_S8x256x256_S8x256x512_S8x256x512_2_1_1_2_0_0.lhsNonContracting by decide)]
  rfl
theorem lhs_pv_2 (i : S8x256x512.Idx) (q : dot_S8x256x256_S8x256x512_S8x256x512_2_1_1_2_0_0.contr.Idx) :
    (dot_S8x256x256_S8x256x512_S8x256x512_2_1_1_2_0_0.lhsIdx i q 2).val = (q ⟨0, by decide⟩).val :=
  dot_S8x256x256_S8x256x512_S8x256x512_2_1_1_2_0_0.lhsIdx_val_of_single rfl i q
theorem rhs_pv_0 (i : S8x256x512.Idx) (q : dot_S8x256x256_S8x256x512_S8x256x512_2_1_1_2_0_0.contr.Idx) :
    (dot_S8x256x256_S8x256x512_S8x256x512_2_1_1_2_0_0.rhsIdx i q 0).val = (i 0).val := by
  unfold DotDims.rhsIdx
  rw [dif_pos (show (0 : Fin S8x256x512.rank) ∈ dot_S8x256x256_S8x256x512_S8x256x512_2_1_1_2_0_0.rhsBatch by decide)]
  rfl
theorem rhs_pv_1 (i : S8x256x512.Idx) (q : dot_S8x256x256_S8x256x512_S8x256x512_2_1_1_2_0_0.contr.Idx) :
    (dot_S8x256x256_S8x256x512_S8x256x512_2_1_1_2_0_0.rhsIdx i q 1).val = (q ⟨0, by decide⟩).val :=
  dot_S8x256x256_S8x256x512_S8x256x512_2_1_1_2_0_0.rhsIdx_val_of_single rfl i q
theorem rhs_pv_2 (i : S8x256x512.Idx) (q : dot_S8x256x256_S8x256x512_S8x256x512_2_1_1_2_0_0.contr.Idx) :
    (dot_S8x256x256_S8x256x512_S8x256x512_2_1_1_2_0_0.rhsIdx i q 2).val = (i 2).val := by
  unfold DotDims.rhsIdx
  rw [dif_neg (show ¬(2 : Fin S8x256x512.rank) ∈ dot_S8x256x256_S8x256x512_S8x256x512_2_1_1_2_0_0.rhsBatch by decide), dif_pos (show (2 : Fin S8x256x512.rank) ∈ dot_S8x256x256_S8x256x512_S8x256x512_2_1_1_2_0_0.rhsNonContracting by decide)]
  rfl

/-- Weights against value rows, contracted over the key axis, into a zero accumulator. -/
theorem mm_pv_apply (l : FVec Ideal S8x256x256 .bf16) (r : FVec Ideal S8x256x512 .bf16) (b : Fin 8) (i : Fin 256) (d : Fin 512) :
    matmul dot_S8x256x256_S8x256x512_S8x256x512_2_1_1_2_0_0 none l r (constant (F := Ideal) S8x256x512 .f32 0x00000000#32) (ix3 b i d)
      = ∑ j : Fin 256, l (ix3 b i j) * r (ix3 b j d) := by
  refine (Ideal.matmul_constant_zero_apply dot_S8x256x256_S8x256x512_S8x256x512_2_1_1_2_0_0 none l r (ix3 b i d)).trans ?_
  rw [← Equiv.sum_comp (contrEquiv1 dot_S8x256x256_S8x256x512_S8x256x512_2_1_1_2_0_0 256 rfl rfl).symm]
  refine Finset.sum_congr rfl fun c _ => ?_
  have hk := contrEquiv1_symm_val dot_S8x256x256_S8x256x512_S8x256x512_2_1_1_2_0_0 256 rfl rfl c
  have el : dot_S8x256x256_S8x256x512_S8x256x512_2_1_1_2_0_0.lhsIdx (ix3 b i d) ((contrEquiv1 dot_S8x256x256_S8x256x512_S8x256x512_2_1_1_2_0_0 256 rfl rfl).symm c) = ix3 b i c := funext fun a => Fin.ext (by
    match a with
    | ⟨0, _⟩ => exact lhs_pv_0 _ _
    | ⟨1, _⟩ => exact lhs_pv_1 _ _
    | ⟨2, _⟩ => exact (lhs_pv_2 _ _).trans hk)
  have er : dot_S8x256x256_S8x256x512_S8x256x512_2_1_1_2_0_0.rhsIdx (ix3 b i d) ((contrEquiv1 dot_S8x256x256_S8x256x512_S8x256x512_2_1_1_2_0_0 256 rfl rfl).symm c) = ix3 b c d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-- The tile's statistic, one number per key row, repeated down the query rows. -/
theorem bcast_st_apply (st : S8x1x256.Idx → EReal) (b : Fin 8) (i j : Fin 256) :
    broadcastTo S8x256x256 st broadcasts_S8x1x256_S8x256x256 (ix3 b i j) = st (ix3 b (0 : Fin 1) j) :=
  broadcastTo_apply st broadcasts_S8x1x256_S8x256x256 (ix3 b i j) (ix3 b (0 : Fin 1) j) (fun a => match a with
    | ⟨0, _⟩ => by show b.val = if (8 : Nat) = 1 then 0 else b.val; rw [if_neg (by decide)]
    | ⟨1, _⟩ => by show 0 = if (1 : Nat) = 1 then 0 else i.val; rw [if_pos rfl]
    | ⟨2, _⟩ => by show j.val = if (256 : Nat) = 1 then 0 else j.val; rw [if_neg (by decide)])

/-- The output step at an index: the accumulator plus, over the tile's key rows, the exponential of the clamped
    score-minus-statistic times the value row. -/
theorem pay_acc_apply (q k v : Vec Ideal S8x256x512 .bf16) (st : Vec Ideal S8x1x256 .f32) (acc : Vec Ideal S8x256x512 .f32)
    (b : Fin 8) (r : Fin 256) (d : Fin 512) :
    k2_pay2 (F := Ideal) q k v st acc (ix3 b r d)
      = acc (ix3 b r d) + ∑ j : Fin 256,
          Ideal.exp (min ((∑ e : Fin 512, q (ix3 b r e) * k (ix3 b j e)) - st (ix3 b (0 : Fin 1) j)) 0) * v (ix3 b j d) := by
  unfold k2_pay2
  simp only [shapeCast_self]
  refine (addf_apply _ _ _).trans ?_
  refine congrArg (fun z => acc (ix3 b r d) + z) ?_
  refine (mm_pv_apply _ _ b r d).trans ?_
  refine Finset.sum_congr rfl fun j _ => congrArg (fun z => z * v (ix3 b j d)) ?_
  show Ideal.exp (min (_ - _) (Ideal.ofBits .f32 0x00000000#32)) = _
  rw [mm_qk_apply, bcast_st_apply, Ideal.ofBits_zero_f32]

/-- The accumulator's starting value is zero everywhere. -/
theorem pay_zero_apply (i : S8x256x512.Idx) : k2_pay1 (F := Ideal) i = 0 := by
  unfold k2_pay1
  simp only [shapeCast_self]
  exact Ideal.ofBits_zero_f32

/-! ## The projection -/

theorem lhs_proj_0 (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhs_proj_1 (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q
theorem rhs_proj_0 (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q
theorem rhs_proj_1 (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-- The flattened token rows against the columns of the wide matrix, into a zero accumulator. -/
theorem mm_proj_apply (l : FVec Ideal S1024x512 .bf16) (r : FVec Ideal S512x1536 .bf16) (m : Fin 1024) (n : Fin 1536) :
    matmul dot_S1024x512_S512x1536_S1024x1536_1_0_0_1_n_n none l r (constant (F := Ideal) S1024x1536 .f32 0x00000000#32) (ix2 m n)
      = ∑ h : Fin 512, l (ix2 m h) * r (ix2 h n) := by
  refine (Ideal.matmul_constant_zero_apply dot_S1024x512_S512x1536_S1024x1536_1_0_0_1_n_n none l r (ix2 m n)).trans ?_
  rw [← Equiv.sum_comp (contrEquiv1 dot_S1024x512_S512x1536_S1024x1536_1_0_0_1_n_n 512 rfl rfl).symm]
  refine Finset.sum_congr rfl fun c _ => ?_
  have hk := contrEquiv1_symm_val dot_S1024x512_S512x1536_S1024x1536_1_0_0_1_n_n 512 rfl rfl c
  have el : dot_S1024x512_S512x1536_S1024x1536_1_0_0_1_n_n.lhsIdx (ix2 m n) ((contrEquiv1 dot_S1024x512_S512x1536_S1024x1536_1_0_0_1_n_n 512 rfl rfl).symm c) = ix2 m c := funext fun a => Fin.ext (by
    match a with
    | ⟨0, _⟩ => exact lhs_proj_0 _ _
    | ⟨1, _⟩ => exact (lhs_proj_1 _ _).trans hk)
  have er : dot_S1024x512_S512x1536_S1024x1536_1_0_0_1_n_n.rhsIdx (ix2 m n) ((contrEquiv1 dot_S1024x512_S512x1536_S1024x1536_1_0_0_1_n_n 512 rfl rfl).symm c) = ix2 c n := funext fun a => Fin.ext (by
    match a with
    | ⟨0, _⟩ => exact (rhs_proj_0 _ _).trans hk
    | ⟨1, _⟩ => exact rhs_proj_1 _ _)
  rw [el, er]

/-- The three projections side by side: flattening [8, 128, ·] to [1024, ·] is row-major (row b·128 + r), and rounding
    the tokens to the narrower format is the identity on extended reals. -/
theorem pay1_apply (x : Vec Ideal S8x128x512 .f32) (w : Vec Ideal S512x1536 .bf16) (b : Fin 8) (r : Fin 128) (n : Fin 1536) :
    k0_pay1 (F := Ideal) x w (ix3 b r n) = ∑ h : Fin 512, x (ix3 b r h) * w (ix2 h n) := by
  unfold k0_pay1
  simp only [shapeCast_self]
  have hm : b.val * 128 + r.val < 1024 := by have := b.isLt; have := r.isLt; omega
  refine (shapeCast_apply _ shapeCasts_S1024x1536_S8x128x1536 (ix3 b r n) (ix2 (⟨b.val * 128 + r.val, hm⟩ : Fin 1024) n) ?_).trans ?_
  · rw [Shape.rowMajor_val_two, Shape.rowMajor_val_three]
    rfl
  refine (mm_proj_apply _ _ _ n).trans ?_
  refine Finset.sum_congr rfl fun h _ => congrArg (fun z => z * w (ix2 h n)) ?_
  refine (shapeCast_apply _ shapeCasts_S8x128x512_S1024x512 (ix2 (⟨b.val * 128 + r.val, hm⟩ : Fin 1024) h) (ix3 b r h) ?_).trans ?_
  · rw [Shape.rowMajor_val_three, Shape.rowMajor_val_two]
    rfl
  rfl

/-- Queries: columns 0 … 511 of the wide matrix. -/
theorem pay_q_apply (x : Vec Ideal S8x128x512 .f32) (w : Vec Ideal S512x1536 .bf16) (b : Fin 8) (r : Fin 128) (e : Fin 512) :
    k0_pay2 (F := Ideal) x w (ix3 b r e) = ∑ h : Fin 512, x (ix3 b r h) * w (ix2 h ⟨e.val, by omega⟩) := by
  unfold k0_pay2
  refine (truncf_apply (ψ := FTy.bf16) _ bitsLt_bf16_f32 (ix3 b r e)).trans ?_
  refine (extractStridedSlice_apply _ _ slices_S8x128x1536_o0_0_0_S8x128x512 (ix3 b r e)
    (ix3 b r (⟨e.val, by omega⟩ : Fin 1536)) (fun a => match a with
      | ⟨0, _⟩ => by show b.val = 0 + b.val; rw [Nat.zero_add]
      | ⟨1, _⟩ => by show r.val = 0 + r.val; rw [Nat.zero_add]
      | ⟨2, _⟩ => by show e.val = 0 + e.val; rw [Nat.zero_add])).trans ?_
  exact pay1_apply x w b r _

/-- Keys: columns 512 … 1023. -/
theorem pay_k_apply (x : Vec Ideal S8x128x512 .f32) (w : Vec Ideal S512x1536 .bf16) (b : Fin 8) (r : Fin 128) (e : Fin 512) :
    k0_pay3 (F := Ideal) x w (ix3 b r e) = ∑ h : Fin 512, x (ix3 b r h) * w (ix2 h ⟨512 + e.val, by omega⟩) := by
  unfold k0_pay3
  refine (truncf_apply (ψ := FTy.bf16) _ bitsLt_bf16_f32 (ix3 b r e)).trans ?_
  refine (extractStridedSlice_apply _ _ slices_S8x128x1536_o0_0_512_S8x128x512 (ix3 b r e)
    (ix3 b r (⟨512 + e.val, by omega⟩ : Fin 1536)) (fun a => match a with
      | ⟨0, _⟩ => by show b.val = 0 + b.val; rw [Nat.zero_add]
      | ⟨1, _⟩ => by show r.val = 0 + r.val; rw [Nat.zero_add]
      | ⟨2, _⟩ => by show 512 + e.val = 512 + e.val; rfl)).trans ?_
  exact pay1_apply x w b r _

/-- Values: columns 1024 … 1535. -/
theorem pay_v_apply (x : Vec Ideal S8x128x512 .f32) (w : Vec Ideal S512x1536 .bf16) (b : Fin 8) (r : Fin 128) (e : Fin 512) :
    k0_pay4 (F := Ideal) x w (ix3 b r e) = ∑ h : Fin 512, x (ix3 b r h) * w (ix2 h ⟨1024 + e.val, by omega⟩) := by
  unfold k0_pay4
  refine (truncf_apply (ψ := FTy.bf16) _ bitsLt_bf16_f32 (ix3 b r e)).trans ?_
  refine (extractStridedSlice_apply _ _ slices_S8x128x1536_o0_0_1024_S8x128x512 (ix3 b r e)
    (ix3 b r (⟨1024 + e.val, by omega⟩ : Fin 1536)) (fun a => match a with
      | ⟨0, _⟩ => by show b.val = 0 + b.val; rw [Nat.zero_add]
      | ⟨1, _⟩ => by show r.val = 0 + r.val; rw [Nat.zero_add]
      | ⟨2, _⟩ => by show 1024 + e.val = 1024 + e.val; rfl)).trans ?_
  exact pay1_apply x w b r _

end Cert.KernelIdeal.HandValue

end
-- ==== Proof.ValueProj.lean ====
/-
  The projection region, from blocks to whole arrays.

  The region walks the token rows in sixteen blocks of 128 rows.  At point t it reads rows 128·t … 128·t + 127 of the
  tokens (every batch, every feature) and the whole wide weight matrix, and writes back the same rows of the query, key
  and value arrays.  Each block written back is therefore the restriction to those rows of ONE function of the two
  arrays the region finds — the tokens against columns e, 512 + e, 1024 + e of the weights — and row r of the array is
  covered by point r / 128.  So after the region each of the three arrays is that function, everywhere.
-/
import proofs.«100197_j52690658787659_2_alg».proof.Proof.IdealData0
import proofs.«100197_j52690658787659_2_alg».proof.Proof.PayProjOut
import Idealize.ShloMosaic.Lib.Pipeline.Value
import Idealize.ShloMosaic.Lib.ValueIdx

noncomputable section

open scoped BigOperators

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx

/-! ## The three functions of the tokens and the weights -/

/-- Queries: token row (b, t) against column e of the wide matrix. -/
def GQ (x : S8x2048x512.Idx → EReal) (w : S512x1536.Idx → EReal) (b : Fin 8) (t : Fin 2048) (e : Fin 512) : EReal :=
  ∑ h : Fin 512, x (ix3 b t h) * w (ix2 h ⟨e.val, by omega⟩)

/-- Keys: against column 512 + e. -/
def GK (x : S8x2048x512.Idx → EReal) (w : S512x1536.Idx → EReal) (b : Fin 8) (t : Fin 2048) (e : Fin 512) : EReal :=
  ∑ h : Fin 512, x (ix3 b t h) * w (ix2 h ⟨512 + e.val, by omega⟩)

/-- Values: against column 1024 + e. -/
def GV (x : S8x2048x512.Idx → EReal) (w : S512x1536.Idx → EReal) (b : Fin 8) (t : Fin 2048) (e : Fin 512) : EReal :=
  ∑ h : Fin 512, x (ix3 b t h) * w (ix2 h ⟨1024 + e.val, by omega⟩)

/-! ## One block: the body's stores are the payloads, and a payload is the function restricted to the block's rows -/

theorem hz3 : (![0, 0, 0] : Fin 3 → Nat) = fun _ => 0 := funext fun a => by fin_cases a <;> rfl
theorem hz2 : (![0, 0] : Fin 2 → Nat) = fun _ => 0 := funext fun a => by fin_cases a <;> rfl

/-- One whole-block store through a whole-block load leaves the payload itself. -/
theorem projQ_eq (x : Vec Ideal S8x128x512 .f32) (w : Vec Ideal S512x1536 .bf16) : projQ x w = k0_pay2 x w := by
  unfold projQ
  rw [View.canon_unit_zero hz3, View.ld_unit_zero (S := S8x128x512) hz3, View.ld_unit_zero (S := S512x1536) hz2]
theorem projK_eq (x : Vec Ideal S8x128x512 .f32) (w : Vec Ideal S512x1536 .bf16) : projK x w = k0_pay3 x w := by
  unfold projK
  rw [View.canon_unit_zero hz3, View.ld_unit_zero (S := S8x128x512) hz3, View.ld_unit_zero (S := S512x1536) hz2]
theorem projV_eq (x : Vec Ideal S8x128x512 .f32) (w : Vec Ideal S512x1536 .bf16) : projV x w = k0_pay4 x w := by
  unfold projV
  rw [View.canon_unit_zero hz3, View.ld_unit_zero (S := S8x128x512) hz3, View.ld_unit_zero (S := S512x1536) hz2]

/-- The block of queries at rows n·128 … n·128 + 127 is the query function restricted to those rows, when the token
    block holds those rows of the tokens and the weight block is the whole matrix. -/
theorem blockQ (X : S8x2048x512.Idx → EReal) (W : S512x1536.Idx → EReal) (x : Vec Ideal S8x128x512 .f32) (w : Vec Ideal S512x1536 .bf16)
    (n : Nat) (hn : n < 16)
    (hx : ∀ (b : Fin 8) (r : Fin 128) (h : Fin 512), x (ix3 b r h) = X (ix3 b (⟨n * 128 + r.val, by omega⟩ : Fin 2048) h))
    (hw : ∀ j, w j = W j)
    (b : Fin 8) (r : Fin 128) (e : Fin 512) (B : Fin 8) (T : Fin 2048) (E : Fin 512)
    (hB : B.val = b.val) (hT : T.val = n * 128 + r.val) (hE : E.val = e.val) :
    k0_pay2 (F := Ideal) x w (ix3 b r e) = GQ X W B T E := by
  refine (pay_q_apply x w b r e).trans ?_
  unfold GQ
  obtain rfl : b = B := Fin.ext hB.symm
  obtain rfl : e = E := Fin.ext hE.symm
  have e1 : (⟨n * 128 + r.val, by omega⟩ : Fin 2048) = T := Fin.ext hT.symm
  refine Finset.sum_congr rfl fun h _ => ?_
  rw [hx, hw, e1]

/-- The same for keys. -/
theorem blockK (X : S8x2048x512.Idx → EReal) (W : S512x1536.Idx → EReal) (x : Vec Ideal S8x128x512 .f32) (w : Vec Ideal S512x1536 .bf16)
    (n : Nat) (hn : n < 16)
    (hx : ∀ (b : Fin 8) (r : Fin 128) (h : Fin 512), x (ix3 b r h) = X (ix3 b (⟨n * 128 + r.val, by omega⟩ : Fin 2048) h))
    (hw : ∀ j, w j = W j)
    (b : Fin 8) (r : Fin 128) (e : Fin 512) (B : Fin 8) (T : Fin 2048) (E : Fin 512)
    (hB : B.val = b.val) (hT : T.val = n * 128 + r.val) (hE : E.val = e.val) :
    k0_pay3 (F := Ideal) x w (ix3 b r e) = GK X W B T E := by
  refine (pay_k_apply x w b r e).trans ?_
  unfold GK
  obtain rfl : b = B := Fin.ext hB.symm
  obtain rfl : e = E := Fin.ext hE.symm
  have e1 : (⟨n * 128 + r.val, by omega⟩ : Fin 2048) = T := Fin.ext hT.symm
  refine Finset.sum_congr rfl fun h _ => ?_
  rw [hx, hw, e1]

/-- The same for values. -/
theorem blockV (X : S8x2048x512.Idx → EReal) (W : S512x1536.Idx → EReal) (x : Vec Ideal S8x128x512 .f32) (w : Vec Ideal S512x1536 .bf16)
    (n : Nat) (hn : n < 16)
    (hx : ∀ (b : Fin 8) (r : Fin 128) (h : Fin 512), x (ix3 b r h) = X (ix3 b (⟨n * 128 + r.val, by omega⟩ : Fin 2048) h))
    (hw : ∀ j, w j = W j)
    (b : Fin 8) (r : Fin 128) (e : Fin 512) (B : Fin 8) (T : Fin 2048) (E : Fin 512)
    (hB : B.val = b.val) (hT : T.val = n * 128 + r.val) (hE : E.val = e.val) :
    k0_pay4 (F := Ideal) x w (ix3 b r e) = GV X W B T E := by
  refine (pay_v_apply x w b r e).trans ?_
  unfold GV
  obtain rfl : b = B := Fin.ext hB.symm
  obtain rfl : e = E := Fin.ext hE.symm
  have e1 : (⟨n * 128 + r.val, by omega⟩ : Fin 2048) = T := Fin.ext hT.symm
  refine Finset.sum_congr rfl fun h _ => ?_
  rw [hx, hw, e1]

/-! ## Where the blocks sit -/

/-- The printed index maps, decided over the sixteen points: the token window and the three output windows are at block
    (0, t, 0); the weight window is at block (0, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

section
variable (V : (c : Dev nD) → (b : Ref sig .tc) → Buf (Elt Ideal) ((c : Thread nD τ).loc b))

/-- The token block at point t holds rows 128·t … 128·t + 127 of the tokens. -/
theorem tok_blk (c : Dev nD) (t : Fin cfg0.N) (b : Fin 8) (r : Fin 128) (h : Fin 512) :
    blk0 V c 0 t (ix3 b r h)
      = (V c main_arg0 : S8x2048x512.Idx → EReal) (ix3 b (⟨t.val * 128 + r.val, by have := t.isLt; have hN : cfg0.N = 16 := N_0; omega⟩ : Fin 2048) h) := by
  obtain ⟨e0, e1, e2, -⟩ := idx_facts t
  unfold blk0
  rw [View.read_apply]
  show (V c main_arg0 : S8x2048x512.Idx → EReal) (((cfg0.win 0).blk t).view.emb (ix3 b r h)) = _
  refine congrArg (V c main_arg0 : S8x2048x512.Idx → EReal) (funext fun a => Fin.ext ?_)
  match a with
  | ⟨0, _⟩ => show win0_0.index t (0 : Fin 3) * 8 + 1 * b.val = b.val; rw [e0]; omega
  | ⟨1, _⟩ => show win0_0.index t (1 : Fin 3) * 128 + 1 * r.val = t.val * 128 + r.val; rw [e1]; omega
  | ⟨2, _⟩ => show win0_0.index t (2 : Fin 3) * 512 + 1 * h.val = h.val; rw [e2]; omega

/-- The weight block at every point is the whole matrix. -/
theorem wcat_blk (c : Dev nD) (t : Fin cfg0.N) (j : S512x1536.Idx) :
    blk0 V c 1 t j = (V c main_v1 : S512x1536.Idx → EReal) j := by
  obtain ⟨-, -, -, e0, e1, -⟩ := idx_facts t
  unfold blk0
  rw [View.read_apply]
  show (V c main_v1 : S512x1536.Idx → EReal) (((cfg0.win 1).blk t).view.emb j) = _
  refine congrArg (V c main_v1 : S512x1536.Idx → EReal) (funext fun a => Fin.ext ?_)
  match a with
  | ⟨0, _⟩ => show win0_1.index t (0 : Fin 2) * 512 + 1 * (j 0).val = (j 0).val; rw [e0]; omega
  | ⟨1, _⟩ => show win0_1.index t (1 : Fin 2) * 1536 + 1 * (j 1).val = (j 1).val; rw [e1]; omega

/-! ## The query array -/

/-- What point t writes back is block t of the function of the arrays the region finds. -/
theorem flushedQ_eq (c : Dev nD) (t : Fin cfg0.N) :
    (dat0 (F := Ideal) V c).flushed 2 t
      = ((cfg0.win 2).blk t).view.read (Elt Ideal)
          (fun i : S8x2048x512.Idx => GQ (V c main_arg0 : S8x2048x512.Idx → EReal) (V c main_v1 : S512x1536.Idx → EReal) (i 0) (i 1) (i 2)) := by
  show (cfg0.win 2).cut (grid0.coords t) ((dat0 V c).after 2 t) = _
  rw [after0_2, projQ_eq]
  obtain ⟨-, -, -, -, -, e0, e1, e2, -⟩ := idx_facts t
  have ht : t.val < 16 := by have := t.isLt; have hN : cfg0.N = 16 := N_0; omega
  funext y
  show k0_pay2 (F := Ideal) (blk0 V c 0 t) (blk0 V c 1 t) ((cfg0.win 2).xinj (grid0.coords t) y)
    = GQ (V c main_arg0 : S8x2048x512.Idx → EReal) (V c main_v1 : S512x1536.Idx → EReal) ((((cfg0.win 2).blk t).view.emb y) 0) ((((cfg0.win 2).blk t).view.emb y) 1) ((((cfg0.win 2).blk t).view.emb y) 2)
  refine (congrArg (k0_pay2 (F := Ideal) (blk0 V c 0 t) (blk0 V c 1 t)) (eq_ix3 _)).trans ?_
  refine blockQ (V c main_arg0 : S8x2048x512.Idx → EReal) (V c main_v1 : S512x1536.Idx → EReal) (blk0 V c 0 t) (blk0 V c 1 t) t.val ht
    (tok_blk V c t) (wcat_blk V c t) _ _ _ _ _ _ ?_ ?_ ?_
  · show win0_2.index t (0 : Fin 3) * 8 + 1 * (y 0).val = (y 0).val; rw [e0]; omega
  · show win0_2.index t (1 : Fin 3) * 128 + 1 * (y 1).val = t.val * 128 + (y 1).val; rw [e1]; omega
  · show win0_2.index t (2 : Fin 3) * 512 + 1 * (y 2).val = (y 2).val; rw [e2]; omega

/-- An index of the array is in point t's block iff each coordinate is in the block's range on its axis. -/
theorem mem_blkQ (t : Fin cfg0.N) (i : S8x2048x512.Idx) :
    i ∈ ((cfg0.win 2).blk t).view.set ↔ ∀ a : Fin 3, win0_2.index t a * S8x128x512.size a ≤ (i a).val ∧ (i a).val < win0_2.index t a * S8x128x512.size a + S8x128x512.size a := by
  show i ∈ ((View.whole main_v2_0).slice (win0_2.rect t)).set ↔ _
  rw [View.set_slice_whole, Rect.mem_set_unit]
  exact Iff.rfl

/-- Row r of the array is in the block of point r / 128, which writes back. -/
theorem coverQ (i : S8x2048x512.Idx) : ∃ t : Fin cfg0.N, (cfg0.win 2).flush t = true ∧ i ∈ ((cfg0.win 2).blk t).view.set := by
  have hN : cfg0.N = 16 := N_0
  have h0 : (i 0).val < 8 := (i 0).isLt
  have h1 : (i 1).val < 2048 := (i 1).isLt
  have h2 : (i 2).val < 512 := (i 2).isLt
  obtain ⟨t, ht⟩ : ∃ t : Fin cfg0.N, t.val = (i 1).val / 128 := ⟨⟨(i 1).val / 128, by omega⟩, rfl⟩
  obtain ⟨-, -, -, -, -, e0, e1, e2, -⟩ := idx_facts t
  refine ⟨t, flush0_2 t, ?_⟩
  rw [mem_blkQ]
  intro a
  match a with
  | ⟨0, _⟩ => show win0_2.index t (0 : Fin 3) * 8 ≤ (i 0).val ∧ (i 0).val < win0_2.index t (0 : Fin 3) * 8 + 8; rw [e0]; omega
  | ⟨1, _⟩ => show win0_2.index t (1 : Fin 3) * 128 ≤ (i 1).val ∧ (i 1).val < win0_2.index t (1 : Fin 3) * 128 + 128; rw [e1, ht]; omega
  | ⟨2, _⟩ => show win0_2.index t (2 : Fin 3) * 512 ≤ (i 2).val ∧ (i 2).val < win0_2.index t (2 : Fin 3) * 512 + 512; rw [e2]; omega

/-- After the region the array is the function, everywhere. -/
theorem projQ_final (c : Dev nD) :
    (dat0 (F := Ideal) V c).arrAt 2 cfg0.N
      = (fun i : S8x2048x512.Idx => GQ (V c main_arg0 : S8x2048x512.Idx → EReal) (V c main_v1 : S512x1536.Idx → EReal) (i 0) (i 1) (i 2)) :=
  (dat0 (F := Ideal) V c).arrAt_eq_of_cover 2 _ (fun t _ => flushedQ_eq V c t) coverQ

/-! ## The key array -/

/-- What point t writes back is block t of the function of the arrays the region finds. -/
theorem flushedK_eq (c : Dev nD) (t : Fin cfg0.N) :
    (dat0 (F := Ideal) V c).flushed 3 t
      = ((cfg0.win 3).blk t).view.read (Elt Ideal)
          (fun i : S8x2048x512.Idx => GK (V c main_arg0 : S8x2048x512.Idx → EReal) (V c main_v1 : S512x1536.Idx → EReal) (i 0) (i 1) (i 2)) := by
  show (cfg0.win 3).cut (grid0.coords t) ((dat0 V c).after 3 t) = _
  rw [after0_3, projK_eq]
  obtain ⟨-, -, -, -, -, -, -, -, e0, e1, e2, -⟩ := idx_facts t
  have ht : t.val < 16 := by have := t.isLt; have hN : cfg0.N = 16 := N_0; omega
  funext y
  show k0_pay3 (F := Ideal) (blk0 V c 0 t) (blk0 V c 1 t) ((cfg0.win 3).xinj (grid0.coords t) y)
    = GK (V c main_arg0 : S8x2048x512.Idx → EReal) (V c main_v1 : S512x1536.Idx → EReal) ((((cfg0.win 3).blk t).view.emb y) 0) ((((cfg0.win 3).blk t).view.emb y) 1) ((((cfg0.win 3).blk t).view.emb y) 2)
  refine (congrArg (k0_pay3 (F := Ideal) (blk0 V c 0 t) (blk0 V c 1 t)) (eq_ix3 _)).trans ?_
  refine blockK (V c main_arg0 : S8x2048x512.Idx → EReal) (V c main_v1 : S512x1536.Idx → EReal) (blk0 V c 0 t) (blk0 V c 1 t) t.val ht
    (tok_blk V c t) (wcat_blk V c t) _ _ _ _ _ _ ?_ ?_ ?_
  · show win0_3.index t (0 : Fin 3) * 8 + 1 * (y 0).val = (y 0).val; rw [e0]; omega
  · show win0_3.index t (1 : Fin 3) * 128 + 1 * (y 1).val = t.val * 128 + (y 1).val; rw [e1]; omega
  · show win0_3.index t (2 : Fin 3) * 512 + 1 * (y 2).val = (y 2).val; rw [e2]; omega

/-- An index of the array is in point t's block iff each coordinate is in the block's range on its axis. -/
theorem mem_blkK (t : Fin cfg0.N) (i : S8x2048x512.Idx) :
    i ∈ ((cfg0.win 3).blk t).view.set ↔ ∀ a : Fin 3, win0_3.index t a * S8x128x512.size a ≤ (i a).val ∧ (i a).val < win0_3.index t a * S8x128x512.size a + S8x128x512.size a := by
  show i ∈ ((View.whole main_v2_1).slice (win0_3.rect t)).set ↔ _
  rw [View.set_slice_whole, Rect.mem_set_unit]
  exact Iff.rfl

/-- Row r of the array is in the block of point r / 128, which writes back. -/
theorem coverK (i : S8x2048x512.Idx) : ∃ t : Fin cfg0.N, (cfg0.win 3).flush t = true ∧ i ∈ ((cfg0.win 3).blk t).view.set := by
  have hN : cfg0.N = 16 := N_0
  have h0 : (i 0).val < 8 := (i 0).isLt
  have h1 : (i 1).val < 2048 := (i 1).isLt
  have h2 : (i 2).val < 512 := (i 2).isLt
  obtain ⟨t, ht⟩ : ∃ t : Fin cfg0.N, t.val = (i 1).val / 128 := ⟨⟨(i 1).val / 128, by omega⟩, rfl⟩
  obtain ⟨-, -, -, -, -, -, -, -, e0, e1, e2, -⟩ := idx_facts t
  refine ⟨t, flush0_3 t, ?_⟩
  rw [mem_blkK]
  intro a
  match a with
  | ⟨0, _⟩ => show win0_3.index t (0 : Fin 3) * 8 ≤ (i 0).val ∧ (i 0).val < win0_3.index t (0 : Fin 3) * 8 + 8; rw [e0]; omega
  | ⟨1, _⟩ => show win0_3.index t (1 : Fin 3) * 128 ≤ (i 1).val ∧ (i 1).val < win0_3.index t (1 : Fin 3) * 128 + 128; rw [e1, ht]; omega
  | ⟨2, _⟩ => show win0_3.index t (2 : Fin 3) * 512 ≤ (i 2).val ∧ (i 2).val < win0_3.index t (2 : Fin 3) * 512 + 512; rw [e2]; omega

/-- After the region the array is the function, everywhere. -/
theorem projK_final (c : Dev nD) :
    (dat0 (F := Ideal) V c).arrAt 3 cfg0.N
      = (fun i : S8x2048x512.Idx => GK (V c main_arg0 : S8x2048x512.Idx → EReal) (V c main_v1 : S512x1536.Idx → EReal) (i 0) (i 1) (i 2)) :=
  (dat0 (F := Ideal) V c).arrAt_eq_of_cover 3 _ (fun t _ => flushedK_eq V c t) coverK

/-! ## The value array -/

/-- What point t writes back is block t of the function of the arrays the region finds. -/
theorem flushedV_eq (c : Dev nD) (t : Fin cfg0.N) :
    (dat0 (F := Ideal) V c).flushed 4 t
      = ((cfg0.win 4).blk t).view.read (Elt Ideal)
          (fun i : S8x2048x512.Idx => GV (V c main_arg0 : S8x2048x512.Idx → EReal) (V c main_v1 : S512x1536.Idx → EReal) (i 0) (i 1) (i 2)) := by
  show (cfg0.win 4).cut (grid0.coords t) ((dat0 V c).after 4 t) = _
  rw [after0_4, projV_eq]
  obtain ⟨-, -, -, -, -, -, -, -, -, -, -, e0, e1, e2⟩ := idx_facts t
  have ht : t.val < 16 := by have := t.isLt; have hN : cfg0.N = 16 := N_0; omega
  funext y
  show k0_pay4 (F := Ideal) (blk0 V c 0 t) (blk0 V c 1 t) ((cfg0.win 4).xinj (grid0.coords t) y)
    = GV (V c main_arg0 : S8x2048x512.Idx → EReal) (V c main_v1 : S512x1536.Idx → EReal) ((((cfg0.win 4).blk t).view.emb y) 0) ((((cfg0.win 4).blk t).view.emb y) 1) ((((cfg0.win 4).blk t).view.emb y) 2)
  refine (congrArg (k0_pay4 (F := Ideal) (blk0 V c 0 t) (blk0 V c 1 t)) (eq_ix3 _)).trans ?_
  refine blockV (V c main_arg0 : S8x2048x512.Idx → EReal) (V c main_v1 : S512x1536.Idx → EReal) (blk0 V c 0 t) (blk0 V c 1 t) t.val ht
    (tok_blk V c t) (wcat_blk V c t) _ _ _ _ _ _ ?_ ?_ ?_
  · show win0_4.index t (0 : Fin 3) * 8 + 1 * (y 0).val = (y 0).val; rw [e0]; omega
  · show win0_4.index t (1 : Fin 3) * 128 + 1 * (y 1).val = t.val * 128 + (y 1).val; rw [e1]; omega
  · show win0_4.index t (2 : Fin 3) * 512 + 1 * (y 2).val = (y 2).val; rw [e2]; omega

/-- An index of the array is in point t's block iff each coordinate is in the block's range on its axis. -/
theorem mem_blkV (t : Fin cfg0.N) (i : S8x2048x512.Idx) :
    i ∈ ((cfg0.win 4).blk t).view.set ↔ ∀ a : Fin 3, win0_4.index t a * S8x128x512.size a ≤ (i a).val ∧ (i a).val < win0_4.index t a * S8x128x512.size a + S8x128x512.size a := by
  show i ∈ ((View.whole main_v2_2).slice (win0_4.rect t)).set ↔ _
  rw [View.set_slice_whole, Rect.mem_set_unit]
  exact Iff.rfl

/-- Row r of the array is in the block of point r / 128, which writes back. -/
theorem coverV (i : S8x2048x512.Idx) : ∃ t : Fin cfg0.N, (cfg0.win 4).flush t = true ∧ i ∈ ((cfg0.win 4).blk t).view.set := by
  have hN : cfg0.N = 16 := N_0
  have h0 : (i 0).val < 8 := (i 0).isLt
  have h1 : (i 1).val < 2048 := (i 1).isLt
  have h2 : (i 2).val < 512 := (i 2).isLt
  obtain ⟨t, ht⟩ : ∃ t : Fin cfg0.N, t.val = (i 1).val / 128 := ⟨⟨(i 1).val / 128, by omega⟩, rfl⟩
  obtain ⟨-, -, -, -, -, -, -, -, -, -, -, e0, e1, e2⟩ := idx_facts t
  refine ⟨t, flush0_4 t, ?_⟩
  rw [mem_blkV]
  intro a
  match a with
  | ⟨0, _⟩ => show win0_4.index t (0 : Fin 3) * 8 ≤ (i 0).val ∧ (i 0).val < win0_4.index t (0 : Fin 3) * 8 + 8; rw [e0]; omega
  | ⟨1, _⟩ => show win0_4.index t (1 : Fin 3) * 128 ≤ (i 1).val ∧ (i 1).val < win0_4.index t (1 : Fin 3) * 128 + 128; rw [e1, ht]; omega
  | ⟨2, _⟩ => show win0_4.index t (2 : Fin 3) * 512 ≤ (i 2).val ∧ (i 2).val < win0_4.index t (2 : Fin 3) * 512 + 512; rw [e2]; omega

/-- After the region the array is the function, everywhere. -/
theorem projV_final (c : Dev nD) :
    (dat0 (F := Ideal) V c).arrAt 4 cfg0.N
      = (fun i : S8x2048x512.Idx => GV (V c main_arg0 : S8x2048x512.Idx → EReal) (V c main_v1 : S512x1536.Idx → EReal) (i 0) (i 1) (i 2)) :=
  (dat0 (F := Ideal) V c).arrAt_eq_of_cover 4 _ (fun t _ => flushedV_eq V c t) coverV

end

end Cert.KernelIdeal.HandValue

end
-- ==== Proof.ValueHost.lean ====
/-
  The host prefix's value.

  Before the first region the program lays the three 512 × 512 weight matrices side by side into one 512 × 1536 matrix
  and rounds it to the narrower format (the identity on extended reals).  So column e of the wide matrix is column e of
  the first matrix, column 512 + e is column e of the second, column 1024 + e is column e of the third; the tokens are
  not touched.
-/
import proofs.«100197_j52690658787659_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.HandValue

open Idealize.ShloMosaic Idealize.ShloMosaic.TcCoe Idealize.SL.Sem Idealize.ShloMosaic.StableHlo
open Cert.KernelIdeal Cert.KernelIdeal.Gen Idealize.ShloMosaic.ValueIdx

/-! ## Three matrices side by side, read at a column -/

/-- Columns 0 … 511 are the first matrix. -/
theorem cat_q (x1 x2 x3 : S512x512.Idx → EReal) (h e : Fin 512) :
    concatenate S512x1536 1 [⟨S512x512, x1⟩, ⟨S512x512, x2⟩, ⟨S512x512, x3⟩] concatenates_S512x512_S512x512_S512x512_S512x1536_d1
        (ix2 h (⟨e.val, by omega⟩ : Fin 1536)) = x1 (ix2 h e) :=
  concatenate_apply_piece (1 : Fin S512x1536.rank) [⟨S512x512, x1⟩, ⟨S512x512, x2⟩, ⟨S512x512, x3⟩] concatenates_S512x512_S512x512_S512x512_S512x1536_d1
    (ix2 h (⟨e.val, by omega⟩ : Fin 1536)) 0 (show 0 < 3 by omega) S512x512 x1 rfl rfl 0 (by rfl) (ix2 h e)
    (fun b hb => match b, hb with
      | ⟨0, _⟩, _ => rfl
      | ⟨1, _⟩, hb => absurd rfl hb)
    (Nat.zero_add _)

/-- Columns 512 … 1023 are the second matrix. -/
theorem cat_k (x1 x2 x3 : S512x512.Idx → EReal) (h e : Fin 512) :
    concatenate S512x1536 1 [⟨S512x512, x1⟩, ⟨S512x512, x2⟩, ⟨S512x512, x3⟩] concatenates_S512x512_S512x512_S512x512_S512x1536_d1
        (ix2 h (⟨512 + e.val, by omega⟩ : Fin 1536)) = x2 (ix2 h e) :=
  concatenate_apply_piece (1 : Fin S512x1536.rank) [⟨S512x512, x1⟩, ⟨S512x512, x2⟩, ⟨S512x512, x3⟩] concatenates_S512x512_S512x512_S512x512_S512x1536_d1
    (ix2 h (⟨512 + e.val, by omega⟩ : Fin 1536)) 1 (show 1 < 3 by omega) S512x512 x2 rfl rfl 512 (by rfl) (ix2 h e)
    (fun b hb => match b, hb with
      | ⟨0, _⟩, _ => rfl
      | ⟨1, _⟩, hb => absurd rfl hb)
    rfl

/-- Columns 1024 … 1535 are the third matrix. -/
theorem cat_v (x1 x2 x3 : S512x512.Idx → EReal) (h e : Fin 512) :
    concatenate S512x1536 1 [⟨S512x512, x1⟩, ⟨S512x512, x2⟩, ⟨S512x512, x3⟩] concatenates_S512x512_S512x512_S512x512_S512x1536_d1
        (ix2 h (⟨1024 + e.val, by omega⟩ : Fin 1536)) = x3 (ix2 h e) :=
  concatenate_apply_piece (1 : Fin S512x1536.rank) [⟨S512x512, x1⟩, ⟨S512x512, x2⟩, ⟨S512x512, x3⟩] concatenates_S512x512_S512x512_S512x512_S512x1536_d1
    (ix2 h (⟨1024 + e.val, by omega⟩ : Fin 1536)) 2 (show 2 < 3 by omega) S512x512 x3 rfl rfl 1024 (by rfl) (ix2 h e)
    (fun b hb => match b, hb with
      | ⟨0, _⟩, _ => rfl
      | ⟨1, _⟩, hb => absurd rfl hb)
    rfl

/-! ## What the two host operations leave -/

section
variable (m : (ℓ : Loc nD τ sig) → Buf (Elt Ideal) ℓ)

/-- The wide matrix after the host prefix: the three weight matrices side by side, rounded. -/
theorem v1_wcat (c : Dev nD) :
    (Gen.V1 (F := Ideal) m c (Proc.devRef .tc main_v1) : S512x1536.Idx → EReal)
      = truncf (F := Ideal) .bf16
          (concatenate S512x1536 1 [⟨S512x512, (m ((c : Thread nD τ).loc main_arg1) : S512x512.Idx → EReal)⟩,
            ⟨S512x512, (m ((c : Thread nD τ).loc main_arg2) : S512x512.Idx → EReal)⟩,
            ⟨S512x512, (m ((c : Thread nD τ).loc main_arg3) : S512x512.Idx → EReal)⟩] concatenates_S512x512_S512x512_S512x512_S512x1536_d1 : FVec Ideal S512x1536 .f32)
          bitsLt_bf16_f32 := by
  dsimp only [Gen.V1, Gen.hostOps0]
  after_results
  rfl

/-- Column e of the wide matrix is column e of the first weight matrix. -/
theorem wcat_q (c : Dev nD) (h e : Fin 512) :
    (Gen.V1 (F := Ideal) m c (Proc.devRef .tc main_v1) : S512x1536.Idx → EReal) (ix2 h (⟨e.val, by omega⟩ : Fin 1536))
      = (m ((c : Thread nD τ).loc main_arg1) : S512x512.Idx → EReal) (ix2 h e) := by
  refine (congrFun (v1_wcat m c) _).trans ?_
  refine (truncf_apply (ψ := FTy.bf16) _ bitsLt_bf16_f32 _).trans ?_
  exact cat_q _ _ _ h e

/-- Column 512 + e is column e of the second. -/
theorem wcat_k (c : Dev nD) (h e : Fin 512) :
    (Gen.V1 (F := Ideal) m c (Proc.devRef .tc main_v1) : S512x1536.Idx → EReal) (ix2 h (⟨512 + e.val, by omega⟩ : Fin 1536))
      = (m ((c : Thread nD τ).loc main_arg2) : S512x512.Idx → EReal) (ix2 h e) := by
  refine (congrFun (v1_wcat m c) _).trans ?_
  refine (truncf_apply (ψ := FTy.bf16) _ bitsLt_bf16_f32 _).trans ?_
  exact cat_k _ _ _ h e

/-- Column 1024 + e is column e of the third. -/
theorem wcat_v (c : Dev nD) (h e : Fin 512) :
    (Gen.V1 (F := Ideal) m c (Proc.devRef .tc main_v1) : S512x1536.Idx → EReal) (ix2 h (⟨1024 + e.val, by omega⟩ : Fin 1536))
      = (m ((c : Thread nD τ).loc main_arg3) : S512x512.Idx → EReal) (ix2 h e) := by
  refine (congrFun (v1_wcat m c) _).trans ?_
  refine (truncf_apply (ψ := FTy.bf16) _ bitsLt_bf16_f32 _).trans ?_
  exact cat_v _ _ _ h e

/-- The host prefix does not write the tokens. -/
theorem tok_kept (c : Dev nD) :
    Gen.V1 (F := Ideal) m c (Proc.devRef .tc main_arg0) = m ((c : Thread nD τ).loc main_arg0) :=
  (Gen.V1_of m c main_arg0 (by decide)).trans rfl

end

end Cert.KernelIdeal.HandValue

end
-- ==== Proof.AttnSpec.lean ====
/-
  The mathematics of this certificate, with no program in sight.

  Attention whose softmax runs over the QUERY axis: for tokens x[b,t,h] and three weight matrices,
    q = x·Wq, k = x·Wk, v = x·Wv,   score[b,t,s] = Σ_e q[b,t,e]·k[b,s,e],
    weight[b,t,s] = exp(score[b,t,s] − M[b,s]) / Σ_t' exp(score[b,t',s] − M[b,s]),   M[b,s] = max_t score[b,t,s],
    out[b,t,d] = Σ_s weight[b,t,s]·v[b,s,d].
  Everything is an extended real; the operations are the exact ones (`Ideal.exp`, `Ideal.log`, `Ideal.div`).

  Also here: the running statistics by which a column's normaliser is accumulated tile by tile over the
  query axis — a running maximum m and a running sum l of exponentials taken against the current maximum —
  whose combination m + log l is the logarithm of the column's whole sum of exponentials, whatever value
  the maximum was started from.
-/
import Idealize.ShloMosaic.PureOps.Ideal
import Idealize.ShloMosaic.Lib.ValueIdx

noncomputable section

open scoped BigOperators

namespace Cert.Attn

open Idealize.ShloMosaic

/-! ## Arrays as functions of their coordinates -/

/-- A rank-3 array as a function of its three coordinates. -/
def cur3 {n0 n1 n2 : Nat} (x : (⟨3, ![n0, n1, n2]⟩ : Shape).Idx → EReal) : Fin n0 → Fin n1 → Fin n2 → EReal :=
  fun a b c => x (ValueIdx.ix3 a b c)

/-- A rank-2 array as a function of its two coordinates. -/
def cur2 {n0 n1 : Nat} (x : (⟨2, ![n0, n1]⟩ : Shape).Idx → EReal) : Fin n0 → Fin n1 → EReal :=
  fun a b => x (ValueIdx.ix2 a b)

/-! ## Attention with the softmax over the query axis -/

/-- Rows of `x` against the columns of a weight matrix: `Σ_h x[b,t,h]·w[h,e]`. -/
def proj (x : Fin 8 → Fin 2048 → Fin 512 → EReal) (w : Fin 512 → Fin 512 → EReal)
    (b : Fin 8) (t : Fin 2048) (e : Fin 512) : EReal :=
  ∑ h : Fin 512, x b t h * w h e

/-- The score of query row `t` against key row `s`: `Σ_e q[b,t,e]·k[b,s,e]`. -/
def score (q k : Fin 8 → Fin 2048 → Fin 512 → EReal) (b : Fin 8) (t s : Fin 2048) : EReal :=
  ∑ e : Fin 512, q b t e * k b s e

/-- A key column's largest score over the query axis (the fold of `max` from −∞). -/
def colMax (sc : Fin 8 → Fin 2048 → Fin 2048 → EReal) (b : Fin 8) (s : Fin 2048) : EReal :=
  (Finset.univ : Finset (Fin 2048)).fold max ⊥ (fun t => sc b t s)

/-- The exponential of a score taken against its column's maximum. -/
def colExp (sc : Fin 8 → Fin 2048 → Fin 2048 → EReal) (b : Fin 8) (t s : Fin 2048) : EReal :=
  Ideal.exp (sc b t s - colMax sc b s)

/-- A key column's normaliser: the sum of those exponentials over the query axis. -/
def colSum (sc : Fin 8 → Fin 2048 → Fin 2048 → EReal) (b : Fin 8) (s : Fin 2048) : EReal :=
  ∑ t : Fin 2048, colExp sc b t s

/-- The softmax weight, normalised over the query axis. -/
def weight (sc : Fin 8 → Fin 2048 → Fin 2048 → EReal) (b : Fin 8) (t s : Fin 2048) : EReal :=
  Ideal.div (colExp sc b t s) (colSum sc b s)

/-- Weights against values: `Σ_s a[b,t,s]·v[b,s,d]`. -/
def context (a : Fin 8 → Fin 2048 → Fin 2048 → EReal) (v : Fin 8 → Fin 2048 → Fin 512 → EReal)
    (b : Fin 8) (t : Fin 2048) (d : Fin 512) : EReal :=
  ∑ s : Fin 2048, a b t s * v b s d

/-- The whole function of the four argument arrays. -/
def attention (x : Fin 8 → Fin 2048 → Fin 512 → EReal) (wq wk wv : Fin 512 → Fin 512 → EReal) :
    Fin 8 → Fin 2048 → Fin 512 → EReal :=
  context (weight (score (proj x wq) (proj x wk))) (proj x wv)

/-! ## A column's normaliser accumulated tile by tile -/

/-- The running maximum after one more tile of scores `x`. -/
def stepMax {P : Nat} (m : EReal) (x : Fin P → EReal) : EReal :=
  max m ((Finset.univ : Finset (Fin P)).fold max ⊥ x)

/-- The running sum after one more tile: the old sum rescaled to the new maximum, plus the tile's
    exponentials against the new maximum. -/
def stepSum {P : Nat} (m l : EReal) (x : Fin P → EReal) : EReal :=
  Ideal.exp (m - stepMax m x) * l + ∑ r : Fin P, Ideal.exp (x r - stepMax m x)

/-- The pair (running maximum, running sum) after the first `n` tiles, started from `(c, 0)`. -/
def runStat {P : Nat} (c : EReal) (x : Nat → Fin P → EReal) : Nat → EReal × EReal
  | 0 => (c, 0)
  | n + 1 => (stepMax (runStat c x n).1 (x n), stepSum (runStat c x n).1 (runStat c x n).2 (x n))

/-- The statistic the second pass subtracts from a score: running maximum plus the logarithm of the running sum. -/
def logSumStat {P : Nat} (c : EReal) (x : Nat → Fin P → EReal) (n : Nat) : EReal :=
  (runStat c x n).1 + Ideal.log (runStat c x n).2

end Cert.Attn

end
-- ==== Proof.PayStats.lean ====
/-
  The statistics pass read at an index.

  One step of the pass takes a block of 512 query rows q and a block of 256 key rows k, both with 512
  features, and the running statistics m (maximum) and l (sum) of each of the 256 key columns, and
  produces
      score[b,r,j] = Σ_e q[b,r,e]·k[b,j,e],
      m'[b,j]      = max (m[b,j], max_r score[b,r,j]),
      l'[b,j]      = exp (m[b,j] − m'[b,j])·l[b,j] + Σ_r exp (score[b,r,j] − m'[b,j]),
  and at the end  stat[b,j] = m[b,j] + log l[b,j].  Each lemma below reads one of these values at an
  index given by its coordinates; the format changes and the casts of a shape to itself are the
  identity on extended reals, a unit axis is carried along, and a reduction over the row axis is the
  sum (or the fold of max from −∞) over the 512 rows.
-/
import Idealize.ShloMosaic.PureOps.Ideal
import Idealize.ShloMosaic.PureOps.Ideal.Laws
import Idealize.ShloMosaic.Lib.ValueIdx
import Idealize.ShloMosaic.Lib.Pipeline.Value
import proofs.«100197_j52690658787659_2_alg».proof.Proof.Gen.KernelIdeal.Skeleton
import proofs.«100197_j52690658787659_2_alg».proof.Proof.AttnSpec

noncomputable section

open scoped BigOperators

namespace Cert.KernelIdeal.HandValue

open Cert.KernelIdeal Cert.KernelIdeal.Gen Idealize.ShloMosaic Idealize.ShloMosaic.ValueIdx

/-! ## The values that need no reduction -/

/-- The final statistic of a column: running maximum plus the logarithm of the running sum. -/
theorem pay_stat_apply (m l : Vec Ideal S8x1x256 .f32) (b : Fin 8) (j : Fin 256) :
    k1_pay1 (F := Ideal) m l (ix3 b (0 : Fin 1) j)
      = m (ix3 b (0 : Fin 1) j) + Ideal.log (l (ix3 b (0 : Fin 1) j)) := rfl

/-- The word the running maximum is started from denotes a (finite) real number: its exponent field
    is neither all ones nor zero. -/
theorem negBig_real : ∃ c : ℝ, Ideal.ofBits .f32 0xFF333332#32 = ((c : ℝ) : EReal) := by
  unfold Ideal.ofBits Ideal.ieee
  simp only []
  rw [if_neg (by decide), if_neg (by decide)]
  exact ⟨_, rfl⟩

/-- The running maximum's starting value is that constant at every index. -/
theorem pay_negbig_apply (i : S8x1x256.Idx) :
    k1_pay2 (F := Ideal) i = Ideal.ofBits .f32 0xFF333332#32 := rfl

/-- The running sum's starting value is 0 at every index. -/
theorem pay_lzero_apply (i : S8x1x256.Idx) : k1_pay3 (F := Ideal) i = 0 :=
  (rfl : k1_pay3 (F := Ideal) i = Ideal.ofBits .f32 0x00000000#32).trans Ideal.ofBits_zero_f32

/-! ## The scores -/

/-- The score contraction's dimension numbers: batch axis 0, rows axis 1, contracted axis 2 on both sides. -/
local notation "DS" => dot_S8x512x512_S8x256x512_S8x512x256_2_2_1_1_0_0

/-- The left operand is read at the output's batch coordinate … -/
theorem score_lhs_0 (i : S8x512x256.Idx) (c : (DS).contr.Idx) : ((DS).lhsIdx i c 0).val = (i 0).val := by
  unfold DotDims.lhsIdx
  rw [dif_pos (show (0 : Fin S8x512x512.rank) ∈ (DS).lhsBatch by decide)]
  rfl
/-- … the output's row coordinate … -/
theorem score_lhs_1 (i : S8x512x256.Idx) (c : (DS).contr.Idx) : ((DS).lhsIdx i c 1).val = (i 1).val := by
  unfold DotDims.lhsIdx
  rw [dif_neg (show ¬(1 : Fin S8x512x512.rank) ∈ (DS).lhsBatch by decide),
    dif_pos (show (1 : Fin S8x512x512.rank) ∈ (DS).lhsNonContracting by decide)]
  rfl
/-- … and the contraction coordinate. -/
theorem score_lhs_2 (i : S8x512x256.Idx) (c : (DS).contr.Idx) :
    ((DS).lhsIdx i c 2).val = (c ⟨0, by decide⟩).val :=
  (DS).lhsIdx_val_of_single rfl i c
/-- The right operand is read at the output's batch coordinate … -/
theorem score_rhs_0 (i : S8x512x256.Idx) (c : (DS).contr.Idx) : ((DS).rhsIdx i c 0).val = (i 0).val := by
  unfold DotDims.rhsIdx
  rw [dif_pos (show (0 : Fin S8x256x512.rank) ∈ (DS).rhsBatch by decide)]
  rfl
/-- … the output's column coordinate … -/
theorem score_rhs_1 (i : S8x512x256.Idx) (c : (DS).contr.Idx) : ((DS).rhsIdx i c 1).val = (i 2).val := by
  unfold DotDims.rhsIdx
  rw [dif_neg (show ¬(1 : Fin S8x256x512.rank) ∈ (DS).rhsBatch by decide),
    dif_pos (show (1 : Fin S8x256x512.rank) ∈ (DS).rhsNonContracting by decide)]
  rfl
/-- … and the contraction coordinate. -/
theorem score_rhs_2 (i : S8x512x256.Idx) (c : (DS).contr.Idx) :
    ((DS).rhsIdx i c 2).val = (c ⟨0, by decide⟩).val :=
  (DS).rhsIdx_val_of_single rfl i c

/-- The score of query row r against key row j: the sum over the 512 features of the products. -/
theorem pay_score_apply (q : Vec Ideal S8x512x512 .bf16) (k : Vec Ideal S8x256x512 .bf16)
    (b : Fin 8) (r : Fin 512) (j : Fin 256) :
    k1_pay4 (F := Ideal) q k (ix3 b r j) = ∑ e : Fin 512, q (ix3 b r e) * k (ix3 b j e) := by
  unfold k1_pay4
  show matmul (F := Ideal) (φ₁ := .bf16) (φ₂ := .bf16) DS none (shapeCast S8x512x512 q shapeCasts_S8x512x512_S8x512x512)
      (shapeCast S8x256x512 k shapeCasts_S8x256x512_S8x256x512) (constant S8x512x256 .f32 0x00000000#32) (ix3 b r j) = _
  rw [shapeCast_self, shapeCast_self]
  refine (Ideal.matmul_constant_zero_apply (φ₁ := .bf16) (φ₂ := .bf16) DS none q k (ix3 b r j)).trans ?_
  refine (Equiv.sum_comp (contrEquiv1 DS 512 rfl rfl).symm _).symm.trans ?_
  refine Finset.sum_congr rfl fun e _ => ?_
  have he := contrEquiv1_symm_val DS 512 rfl rfl e
  have el : (DS).lhsIdx (ix3 b r j) ((contrEquiv1 DS 512 rfl rfl).symm e) = ix3 b r e :=
    funext fun a => Fin.ext (by
      match a with
      | ⟨0, _⟩ => exact score_lhs_0 _ _
      | ⟨1, _⟩ => exact score_lhs_1 _ _
      | ⟨2, _⟩ => exact (score_lhs_2 _ _).trans he)
  have er : (DS).rhsIdx (ix3 b r j) ((contrEquiv1 DS 512 rfl rfl).symm e) = ix3 b j e :=
    funext fun a => Fin.ext (by
      match a with
      | ⟨0, _⟩ => exact score_rhs_0 _ _
      | ⟨1, _⟩ => exact score_rhs_1 _ _
      | ⟨2, _⟩ => exact (score_rhs_2 _ _).trans he)
  rw [el, er]

/-! ## Congruences of the extended reals' operations -/

theorem max_congr_right {a x y : EReal} (h : x = y) : max a x = max a y := congrArg (max a) h
theorem add_congr {a a' c c' : EReal} (h₁ : a = a') (h₂ : c = c') : a + c = a' + c' := by rw [h₁, h₂]
theorem mul_congr_left {x x' c : EReal} (h : x = x') : x * c = x' * c := by rw [h]
theorem sub_congr {a a' c c' : EReal} (h₁ : a = a') (h₂ : c = c') : a - c = a' - c' := by rw [h₁, h₂]
theorem sub_congr_right {a y y' : EReal} (h : y = y') : a - y = a - y' := by rw [h]

/-- An exponential at an index is the exponential of the element. -/
theorem exp_read {s : Shape} {φ : FTy} (a : FVec Ideal s φ) (i : s.Idx) : exp a i = Ideal.exp (a i) := rfl

/-! ## Reductions over the row axis, and the unit axis -/

/-- The word a maximum is folded from denotes −∞. -/
theorem ofBits_negInf_f32 : Ideal.ofBits .f32 0xFF800000#32 = ⊥ := by simp [Ideal.ofBits, Ideal.ieee]

/-- Inserting the row coordinate r into the reduced index (b, j) gives (b, r, j). -/
theorem rows_lift (b : Fin 8) (j : Fin 256) (r : Fin 512) :
    reduces_S8x512x256_S8x256.lift (ix2 b j) r = ix3 b r j :=
  funext fun a => Fin.ext (by
    match a with
    | ⟨0, _⟩ => rfl
    | ⟨1, _⟩ => rfl
    | ⟨2, _⟩ => rfl)

/-- A maximum over the row axis, read at (b, j): the fold of max from −∞ over the 512 rows. -/
theorem rowMax_read (src : FVec Ideal S8x512x256 .f32) (hφ : FKind.Formats .f32)
    (hacc : (0xFF800000#32 : BitVec 32) = 0xFF800000#32) (b : Fin 8) (j : Fin 256) :
    multiReduction .maximumf [1] S8x256 src 0xFF800000#32 reduces_S8x512x256_S8x256 hφ hacc (ix2 b j)
      = (Finset.univ : Finset (Fin 512)).fold max ⊥ (fun r => src (ix3 b r j)) := by
  refine (Ideal.multiReduction_maximumf_single src 0xFF800000#32 reduces_S8x512x256_S8x256 hφ hacc (ix2 b j)).trans ?_
  have hf : (src ∘ reduces_S8x512x256_S8x256.lift (ix2 b j)) = fun r : Fin 512 => src (ix3 b r j) :=
    funext fun r => congrArg src (rows_lift b j r)
  exact congrArg₂ (fun (init : EReal) (f : Fin 512 → EReal) => (Finset.univ : Finset (Fin 512)).fold max init f)
    ofBits_negInf_f32 hf

/-- A sum over the row axis, read at (b, j): the sum over the 512 rows. -/
theorem rowSum_read (src : FVec Ideal S8x512x256 .f32) (hφ : FKind.Formats .f32)
    (hacc : (0x00000000#32 : BitVec 32) = 0x00000000#32) (b : Fin 8) (j : Fin 256) :
    multiReduction .add [1] S8x256 src 0x00000000#32 reduces_S8x512x256_S8x256 hφ hacc (ix2 b j)
      = ∑ r : Fin 512, src (ix3 b r j) := by
  refine (Ideal.multiReduction_add_single src 0x00000000#32 reduces_S8x512x256_S8x256 hφ hacc (ix2 b j)).trans ?_
  show (∑ r : Fin 512, src (reduces_S8x512x256_S8x256.lift (ix2 b j) r)) = _
  exact Finset.sum_congr rfl fun r _ => congrArg src (rows_lift b j r)

/-- Giving a [8,256] array a unit middle axis: (b, 0, j) reads (b, j). -/
theorem addMid_read {α : Type} (v : S8x256.Idx → α) (b : Fin 8) (j : Fin 256) :
    shapeCast S8x1x256 v shapeCasts_S8x256_S8x1x256 (ix3 b (0 : Fin 1) j) = v (ix2 b j) := by
  refine shapeCast_apply v shapeCasts_S8x256_S8x1x256 (ix3 b (0 : Fin 1) j) (ix2 b j) ?_
  rw [Shape.rowMajor_val_two, Shape.rowMajor_val_three]
  show b.val * 256 + j.val = (b.val * 1 + 0) * 256 + j.val
  omega

/-- Spreading a [8,1,256] array over 512 rows: (b, r, j) reads (b, 0, j). -/
theorem spread_read {α : Type} (v : S8x1x256.Idx → α) (b : Fin 8) (r : Fin 512) (j : Fin 256) :
    broadcastTo S8x512x256 v broadcasts_S8x1x256_S8x512x256 (ix3 b r j) = v (ix3 b (0 : Fin 1) j) := by
  refine broadcastTo_apply v broadcasts_S8x1x256_S8x512x256 (ix3 b r j) (ix3 b (0 : Fin 1) j) fun a => ?_
  match a with
  | ⟨0, _⟩ => rfl
  | ⟨1, _⟩ => rfl
  | ⟨2, _⟩ => rfl

/-! ## The running maximum and the running sum after one more block -/

/-- The new running maximum of column j, before the cast of its shape to itself. -/
theorem pay_max5_apply (q : Vec Ideal S8x512x512 .bf16) (k : Vec Ideal S8x256x512 .bf16)
    (m : Vec Ideal S8x1x256 .f32) (b : Fin 8) (j : Fin 256) :
    k1_pay5 (F := Ideal) q k m (ix3 b (0 : Fin 1) j)
      = Cert.Attn.stepMax (m (ix3 b (0 : Fin 1) j))
          (fun r : Fin 512 => ∑ e : Fin 512, q (ix3 b r e) * k (ix3 b j e)) := by
  unfold k1_pay5 Cert.Attn.stepMax
  refine (maximumf_apply (s := S8x1x256) (φ := .f32) m _ (ix3 b (0 : Fin 1) j)).trans ?_
  refine max_congr_right ?_
  refine (addMid_read _ b j).trans ?_
  refine (rowMax_read (k1_pay4 (F := Ideal) q k) (.inl rfl) rfl b j).trans ?_
  exact congrArg (fun f : Fin 512 → EReal => (Finset.univ : Finset (Fin 512)).fold max ⊥ f)
    (funext fun r => pay_score_apply q k b r j)

/-- The new running maximum of column j: the larger of the old one and the block's largest score. -/
theorem pay_max_apply (q : Vec Ideal S8x512x512 .bf16) (k : Vec Ideal S8x256x512 .bf16)
    (m : Vec Ideal S8x1x256 .f32) (b : Fin 8) (j : Fin 256) :
    k1_pay7 (F := Ideal) q k m (ix3 b (0 : Fin 1) j)
      = Cert.Attn.stepMax (m (ix3 b (0 : Fin 1) j))
          (fun r : Fin 512 => ∑ e : Fin 512, q (ix3 b r e) * k (ix3 b j e)) := by
  unfold k1_pay7
  exact (congrFun (shapeCast_self (k1_pay5 (F := Ideal) q k m) shapeCasts_S8x1x256_S8x1x256) (ix3 b (0 : Fin 1) j)).trans
    (pay_max5_apply q k m b j)

/-- The new running sum of column j: the old sum rescaled to the new maximum, plus the block's
    exponentials against the new maximum. -/
theorem pay_sum_apply (q : Vec Ideal S8x512x512 .bf16) (k : Vec Ideal S8x256x512 .bf16)
    (m l : Vec Ideal S8x1x256 .f32) (b : Fin 8) (j : Fin 256) :
    k1_pay6 (F := Ideal) q k m m l (ix3 b (0 : Fin 1) j)
      = Cert.Attn.stepSum (m (ix3 b (0 : Fin 1) j)) (l (ix3 b (0 : Fin 1) j))
          (fun r : Fin 512 => ∑ e : Fin 512, q (ix3 b r e) * k (ix3 b j e)) := by
  unfold k1_pay6 Cert.Attn.stepSum
  refine (congrFun (shapeCast_self _ shapeCasts_S8x1x256_S8x1x256) (ix3 b (0 : Fin 1) j)).trans ?_
  refine (addf_apply (s := S8x1x256) (φ := .f32) _ _ (ix3 b (0 : Fin 1) j)).trans ?_
  refine add_congr ?_ ?_
  · refine (mulf_apply (s := S8x1x256) (φ := .f32) _ l (ix3 b (0 : Fin 1) j)).trans ?_
    refine mul_congr_left ?_
    refine (exp_read _ (ix3 b (0 : Fin 1) j)).trans ?_
    refine congrArg Ideal.exp ?_
    refine (subf_apply (s := S8x1x256) (φ := .f32) m _ (ix3 b (0 : Fin 1) j)).trans ?_
    exact sub_congr_right (pay_max5_apply q k m b j)
  · refine (addMid_read _ b j).trans ?_
    refine (rowSum_read _ (.inl rfl) rfl b j).trans ?_
    refine Finset.sum_congr rfl fun r _ => ?_
    refine (exp_read _ (ix3 b r j)).trans ?_
    refine congrArg Ideal.exp ?_
    refine (subf_apply (s := S8x512x256) (φ := .f32) _ _ (ix3 b r j)).trans ?_
    refine sub_congr (pay_score_apply q k b r j) ?_
    refine (spread_read _ b r j).trans ?_
    exact pay_max5_apply q k m b j

end Cert.KernelIdeal.HandValue

end
-- ==== Proof.ValueStats.lean ====
/-
  The value of the statistics region: the statistic array after the region, as one function of the query array and the
  key array the region finds. For batch b and key row s it is the running statistic — running maximum plus logarithm of
  the running sum of exponentials — accumulated over the four query tiles of 512 rows, started from the finite stand-in
  for minus infinity, of the scores of the query rows against key row s.

  The road: a block of a window read at an index is the array read at the block's place; the pair of scratch blocks
  after a grid point is, column by column, the running pair after as many tiles as the point's place in its run of four;
  the block written back at the last point of a run is the statistic of the whole run; those blocks cover the array.
-/
import proofs.«100197_j52690658787659_2_alg».proof.Proof.IdealData1
import proofs.«100197_j52690658787659_2_alg».proof.Proof.PayStats
import proofs.«100197_j52690658787659_2_alg».proof.Proof.AttnSpec
import Idealize.ShloMosaic.Lib.Pipeline.Value
import Idealize.ShloMosaic.Lib.ValueIdx
import Idealize.ShloMosaic.PureOps.Ideal

set_option maxRecDepth 16384

noncomputable section

open scoped BigOperators

namespace Cert.KernelIdeal.HandValue

open Idealize.ShloMosaic Idealize.ShloMosaic.TcCoe Idealize.ShloMosaic.ValueIdx
open Idealize.ShloMosaic.Pipeline (Dat)
open Cert.KernelIdeal Cert.KernelIdeal.Gen Cert.KernelIdeal.Hand
open Cert.Attn (stepMax stepSum runStat logSumStat)

-- the TensorCore's buffer contents when the region is entered
variable (V : (c : Dev nD) → (b : Ref sig .tc) → Buf (Elt Ideal) ((c : Thread nD τ).loc b))

/-! ## Rows and scores named by natural numbers -/

/-- A row of a [8, 2048, 512] array named by a natural number (0 past the end), so that the rows of a tile can be named
    `k * 512 + r` with no proof in the name. -/
def rowN (X : S8x2048x512.Idx → EReal) (b : Fin 8) (n : Nat) (e : Fin 512) : EReal :=
  if h : n < 2048 then X (ix3 b ⟨n, h⟩ e) else 0

/-- The score of query row `n` against key row `s`. -/
def scoreN (Qa Ka : S8x2048x512.Idx → EReal) (b : Fin 8) (n : Nat) (s : Fin 2048) : EReal :=
  ∑ e : Fin 512, rowN Qa b n e * Ka (ix3 b s e)

/-- The statistic of key row `s` of batch `b`: the running statistic over the four query tiles. -/
def statG (Qa Ka : S8x2048x512.Idx → EReal) (b : Fin 8) (s : Fin 2048) : EReal :=
  logSumStat (P := 512) (Ideal.ofBits .f32 0xFF333332#32) (fun k r => scoreN Qa Ka b (k * 512 + r.val) s) 4

/-- The scores of query tile `k` against the key row named by the natural number `s`. -/
def tileScore (Qa Ka : S8x2048x512.Idx → EReal) (b : Fin 8) (s : Nat) (k : Nat) (r : Fin 512) : EReal :=
  ∑ e : Fin 512, rowN Qa b (k * 512 + r.val) e * rowN Ka b s e

theorem rowN_val (X : S8x2048x512.Idx → EReal) (b : Fin 8) (s : Fin 2048) (e : Fin 512) :
    rowN X b s.val e = X (ix3 b s e) := by
  unfold rowN; rw [dif_pos s.isLt]

theorem statG_eq (Qa Ka : S8x2048x512.Idx → EReal) (b : Fin 8) (s : Fin 2048) :
    statG Qa Ka b s = logSumStat (P := 512) (Ideal.ofBits .f32 0xFF333332#32) (tileScore Qa Ka b s.val) 4 := by
  unfold statG
  refine congrArg (fun x => logSumStat (P := 512) (Ideal.ofBits .f32 0xFF333332#32) x 4) ?_
  funext k r
  unfold scoreN tileScore
  exact Finset.sum_congr rfl fun e _ => by rw [rowN_val]

/-- The same, at a batch and a key row known only up to equality. -/
theorem statG_of (Qa Ka : S8x2048x512.Idx → EReal) (b b' : Fin 8) (s : Fin 2048) (n : Nat) (hb : b' = b) (hs : s.val = n) :
    statG Qa Ka b' s = logSumStat (P := 512) (Ideal.ofBits .f32 0xFF333332#32) (tileScore Qa Ka b n) 4 := by
  subst hb; subst hs; exact statG_eq Qa Ka b' s

/-! ## The windows' blocks, read at an index -/

/-- The printed index maps, decided over the grid: the query block moves with the point's place in its run of four,
    the key block and the statistic block with the run's number. -/
theorem idx_facts1 : ∀ t : Fin cfg1.N,
    win1_0.index t (0 : Fin 3) = 0 ∧ win1_0.index t (1 : Fin 3) = t.val % 4 ∧ win1_0.index t (2 : Fin 3) = 0
    ∧ win1_1.index t (0 : Fin 3) = 0 ∧ win1_1.index t (1 : Fin 3) = t.val / 4 ∧ win1_1.index t (2 : Fin 3) = 0
    ∧ win1_2.index t (0 : Fin 3) = 0 ∧ win1_2.index t (1 : Fin 3) = 0 ∧ win1_2.index t (2 : Fin 3) = t.val / 4 :=
  (by decide +kernel : ∀ t : Fin grid1.N, _)

theorem lt32 (t : Fin cfg1.N) : t.val < 32 := lt_of_lt_of_eq t.isLt (show cfg1.N = 32 from N_1)

/-- The query block at point `t` holds the rows of tile `t % 4` of the query array. -/
theorem blkQ_apply (c : Dev nD) (t : Fin cfg1.N) (b : Fin 8) (r : Fin 512) (e : Fin 512) :
    (blk1 V c 0 t : Vec Ideal S8x512x512 .bf16) (ix3 b r e) = rowN (V c main_v2_0) b (t.val % 4 * 512 + r.val) e := by
  have hr : r.val < 512 := r.isLt
  have hlt : t.val % 4 * 512 + r.val < 2048 := by omega
  obtain ⟨q0, q1, q2, -⟩ := idx_facts1 t
  unfold rowN
  rw [dif_pos hlt]
  unfold blk1
  rw [View.read_apply]
  show V c main_v2_0 _ = V c main_v2_0 _
  congr 1
  funext a
  apply Fin.ext
  match a with
  | ⟨0, _⟩ => show win1_0.index t (0 : Fin 3) * 8 + 1 * b.val = b.val; rw [q0]; omega
  | ⟨1, _⟩ => show win1_0.index t (1 : Fin 3) * 512 + 1 * r.val = t.val % 4 * 512 + r.val; rw [q1]; omega
  | ⟨2, _⟩ => show win1_0.index t (2 : Fin 3) * 512 + 1 * e.val = e.val; rw [q2]; omega

/-- The key block at point `t` holds the rows of key block `t / 4` of the key array. -/
theorem blkK_apply (c : Dev nD) (t : Fin cfg1.N) (b : Fin 8) (j : Fin 256) (e : Fin 512) :
    (blk1 V c 1 t : Vec Ideal S8x256x512 .bf16) (ix3 b j e) = rowN (V c main_v2_1) b (t.val / 4 * 256 + j.val) e := by
  have hj : j.val < 256 := j.isLt
  have ht : t.val < 32 := lt32 t
  have hlt : t.val / 4 * 256 + j.val < 2048 := by omega
  obtain ⟨-, -, -, q0, q1, q2, -⟩ := idx_facts1 t
  unfold rowN
  rw [dif_pos hlt]
  unfold blk1
  rw [View.read_apply]
  show V c main_v2_1 _ = V c main_v2_1 _
  congr 1
  funext a
  apply Fin.ext
  match a with
  | ⟨0, _⟩ => show win1_1.index t (0 : Fin 3) * 8 + 1 * b.val = b.val; rw [q0]; omega
  | ⟨1, _⟩ => show win1_1.index t (1 : Fin 3) * 256 + 1 * j.val = t.val / 4 * 256 + j.val; rw [q1]; omega
  | ⟨2, _⟩ => show win1_1.index t (2 : Fin 3) * 512 + 1 * e.val = e.val; rw [q2]; omega

/-- So the scores the body forms at point `t` for column `j` are those of query tile `t % 4` against key row
    `(t / 4) * 256 + j`. -/
theorem tile_eq (c : Dev nD) (t : Fin cfg1.N) (b : Fin 8) (j : Fin 256)
    (q : Vec Ideal S8x512x512 .bf16) (k : Vec Ideal S8x256x512 .bf16) (hq : q = blk1 V c 0 t) (hk : k = blk1 V c 1 t) :
    (fun r : Fin 512 => ∑ e : Fin 512, q (ix3 b r e) * k (ix3 b j e))
      = tileScore (V c main_v2_0) (V c main_v2_1) b (t.val / 4 * 256 + j.val) (t.val % 4) := by
  subst hq; subst hk
  funext r
  unfold tileScore
  exact Finset.sum_congr rfl fun e _ => by rw [blkQ_apply, blkK_apply]

/-! ## The scratch pair after a point is the running pair -/

/-- At the first point of a run: one step from the starting pair. -/
theorem ml_first (c : Dev nD) (t : Fin cfg1.N) (h0 : t.val % 4 = 0) (b : Fin 8) (j : Fin 256) :
    (mlAt V c t.val t.isLt).1 (ix3 b (0 : Fin 1) j)
        = (runStat (P := 512) (Ideal.ofBits .f32 0xFF333332#32) (tileScore (V c main_v2_0) (V c main_v2_1) b (t.val / 4 * 256 + j.val)) (t.val % 4 + 1)).1
    ∧ (mlAt V c t.val t.isLt).2 (ix3 b (0 : Fin 1) j)
        = (runStat (P := 512) (Ideal.ofBits .f32 0xFF333332#32) (tileScore (V c main_v2_0) (V c main_v2_1) b (t.val / 4 * 256 + j.val)) (t.val % 4 + 1)).2 := by
  rw [mlAt_first_fst V c t h0, mlAt_first_snd V c t h0]
  unfold statsMax statsSum
  rw [pay_max_apply, pay_sum_apply, pay_negbig_apply, pay_lzero_apply, tile_eq V c t b j _ _ rfl rfl, h0]
  exact ⟨rfl, rfl⟩

/-- The pair at a later point of a run, from the pair the point before left. -/
theorem mlAt_succ (c : Dev nD) (n : Nat) (h : n + 1 < cfg1.N) (h0 : ¬(n + 1) % 4 = 0) :
    mlAt V c (n + 1) h
      = (statsMax (blk1 V c 0 ⟨n + 1, h⟩) (blk1 V c 1 ⟨n + 1, h⟩) (mlAt V c n (Nat.lt_of_succ_lt h)).1,
         statsSum (blk1 V c 0 ⟨n + 1, h⟩) (blk1 V c 1 ⟨n + 1, h⟩) (mlAt V c n (Nat.lt_of_succ_lt h)).1 (mlAt V c n (Nat.lt_of_succ_lt h)).2) :=
  mlAt_next V c ⟨n + 1, h⟩ h0

/-- After point `n`, column `j` of the scratch pair is the running pair after `n % 4 + 1` query tiles against key row
    `(n / 4) * 256 + j`: by induction on the point. -/
theorem ml_run (c : Dev nD) (b : Fin 8) (j : Fin 256) : ∀ (n : Nat) (h : n < cfg1.N),
    (mlAt V c n h).1 (ix3 b (0 : Fin 1) j)
        = (runStat (P := 512) (Ideal.ofBits .f32 0xFF333332#32) (tileScore (V c main_v2_0) (V c main_v2_1) b (n / 4 * 256 + j.val)) (n % 4 + 1)).1
    ∧ (mlAt V c n h).2 (ix3 b (0 : Fin 1) j)
        = (runStat (P := 512) (Ideal.ofBits .f32 0xFF333332#32) (tileScore (V c main_v2_0) (V c main_v2_1) b (n / 4 * 256 + j.val)) (n % 4 + 1)).2
  | 0, h => ml_first V c ⟨0, h⟩ rfl b j
  | n + 1, h => by
    by_cases h0 : (n + 1) % 4 = 0
    · exact ml_first V c ⟨n + 1, h⟩ h0 b j
    · obtain ⟨ih1, ih2⟩ := ml_run c b j n (Nat.lt_of_succ_lt h)
      have e1 : n / 4 = (n + 1) / 4 := by omega
      have e2 : n % 4 + 1 = (n + 1) % 4 := by omega
      rw [e1, e2] at ih1 ih2
      rw [mlAt_succ V c n h h0]
      dsimp only
      unfold statsMax statsSum
      rw [pay_max_apply, pay_sum_apply, ih1, ih2, tile_eq V c ⟨n + 1, h⟩ b j _ _ rfl rfl]
      exact ⟨rfl, rfl⟩

/-! ## The block written back, the cover, the array -/

/-- What the last point of a run writes back is the run's block of the statistic. -/
theorem flushedStat_eq (c : Dev nD) (t : Fin cfg1.N) (hf : (cfg1.win 2).flush t = true) :
    (dat1 (F := Ideal) V c).flushed 2 t
      = ((cfg1.win 2).blk t).view.read (Elt Ideal) (fun i : S8x1x2048.Idx => statG (V c main_v2_0) (V c main_v2_1) (i 0) (i 2)) := by
  have h3 : t.val % 4 = 3 := (flush1_2 t).mp hf
  have ht : t.val < 32 := lt32 t
  obtain ⟨-, -, -, -, -, -, q0, q1, q2⟩ := idx_facts1 t
  show (cfg1.win 2).cut (grid1.coords t) ((dat1 (F := Ideal) V c).after 2 t) = _
  rw [after1_2]
  refine funext fun (y : S8x1x256.Idx) => ?_
  obtain ⟨b, z, j, rfl⟩ : ∃ (b : Fin 8) (z : Fin 1) (j : Fin 256), y = ix3 b z j := ⟨y 0, y 1, y 2, eq_ix3 y⟩
  obtain rfl : z = 0 := Subsingleton.elim _ _
  have hj : j.val < 256 := j.isLt
  rw [View.read_apply]
  show statsOut (mlAt V c t.val t.isLt).1 (mlAt V c t.val t.isLt).2 (ix3 b (0 : Fin 1) j)
    = statG (V c main_v2_0) (V c main_v2_1) ((((cfg1.win 2).blk t).view.emb (ix3 b (0 : Fin 1) j)) 0) ((((cfg1.win 2).blk t).view.emb (ix3 b (0 : Fin 1) j)) 2)
  have hb : (((cfg1.win 2).blk t).view.emb (ix3 b (0 : Fin 1) j)) 0 = b :=
    Fin.ext (by show win1_2.index t (0 : Fin 3) * 8 + 1 * b.val = b.val; rw [q0]; omega)
  have hs : ((((cfg1.win 2).blk t).view.emb (ix3 b (0 : Fin 1) j)) 2).val = t.val / 4 * 256 + j.val := by
    show win1_2.index t (2 : Fin 3) * 256 + 1 * j.val = t.val / 4 * 256 + j.val; rw [q2]; omega
  refine Eq.trans ?_ (statG_of (V c main_v2_0) (V c main_v2_1) b _ _ (t.val / 4 * 256 + j.val) hb hs).symm
  obtain ⟨r1, r2⟩ := ml_run V c b j t.val t.isLt
  unfold statsOut
  rw [pay_stat_apply, r1, r2, h3]
  rfl

/-- An index of the statistic array is in point `t`'s block iff each coordinate is in the block's range on its axis. -/
theorem mem_blkStat (t : Fin cfg1.N) (i : S8x1x2048.Idx) :
    i ∈ ((cfg1.win 2).blk t).view.set
      ↔ ∀ a : Fin 3, win1_2.index t a * S8x1x256.size a ≤ (i a).val ∧ (i a).val < win1_2.index t a * S8x1x256.size a + S8x1x256.size a := by
  show i ∈ ((View.whole main_v3).slice (win1_2.rect t)).set ↔ _
  rw [View.set_slice_whole, Rect.mem_set_unit]
  exact Iff.rfl

/-- Key row `s` is in the block the last point of run `s / 256` writes back. -/
theorem coverStat (i : S8x1x2048.Idx) :
    ∃ t : Fin cfg1.N, (cfg1.win 2).flush t = true ∧ i ∈ ((cfg1.win 2).blk t).view.set := by
  have hi0 : (i 0).val < 8 := (i 0).isLt
  have hi1 : (i 1).val < 1 := (i 1).isLt
  have hi2 : (i 2).val < 2048 := (i 2).isLt
  have hN : cfg1.N = 32 := N_1
  have hlt : 4 * ((i 2).val / 256) + 3 < cfg1.N := by rw [hN]; omega
  obtain ⟨-, -, -, -, -, -, q0, q1, q2⟩ := idx_facts1 ⟨4 * ((i 2).val / 256) + 3, hlt⟩
  refine ⟨⟨4 * ((i 2).val / 256) + 3, hlt⟩, (flush1_2 _).mpr (by show (4 * ((i 2).val / 256) + 3) % 4 = 3; omega), ?_⟩
  rw [mem_blkStat]
  intro a
  match a with
  | ⟨0, _⟩ =>
    show win1_2.index ⟨4 * ((i 2).val / 256) + 3, hlt⟩ (0 : Fin 3) * 8 ≤ (i 0).val ∧ (i 0).val < win1_2.index ⟨4 * ((i 2).val / 256) + 3, hlt⟩ (0 : Fin 3) * 8 + 8
    rw [q0]; omega
  | ⟨1, _⟩ =>
    show win1_2.index ⟨4 * ((i 2).val / 256) + 3, hlt⟩ (1 : Fin 3) * 1 ≤ (i 1).val ∧ (i 1).val < win1_2.index ⟨4 * ((i 2).val / 256) + 3, hlt⟩ (1 : Fin 3) * 1 + 1
    rw [q1]; omega
  | ⟨2, _⟩ =>
    show win1_2.index ⟨4 * ((i 2).val / 256) + 3, hlt⟩ (2 : Fin 3) * 256 ≤ (i 2).val ∧ (i 2).val < win1_2.index ⟨4 * ((i 2).val / 256) + 3, hlt⟩ (2 : Fin 3) * 256 + 256
    rw [q2]; show (4 * ((i 2).val / 256) + 3) / 4 * 256 ≤ (i 2).val ∧ (i 2).val < (4 * ((i 2).val / 256) + 3) / 4 * 256 + 256; omega

/-- THE STATISTIC ARRAY after the region: at batch `b` and key row `s`, the running statistic over the four query tiles
    of the scores against key row `s`. -/
theorem stat_final (c : Dev nD) :
    (dat1 (F := Ideal) V c).arrAt 2 cfg1.N
      = fun i : S8x1x2048.Idx => statG (V c main_v2_0) (V c main_v2_1) (i 0) (i 2) :=
  (dat1 (F := Ideal) V c).arrAt_eq_of_cover 2 _ (flushedStat_eq V c) coverStat

end Cert.KernelIdeal.HandValue

end
-- ==== Proof.ValueOut.lean ====
/-
  The output region, from blocks to the whole array.

  Grid point t is (query block t / 8, key block t % 8). At it the body reads 256 query rows, 256 key rows, the same 256
  value rows and those key rows' statistics, and adds to its accumulator, for query row r and feature d, the sum over
  the block's key rows s of  exp(min(score(r, s) − stat(s), 0)) · value(s, d)  — that key block's CONTRIBUTION. So after
  point t the accumulator holds the contributions of key blocks 0 … t % 8, and at a last key block (t % 8 = 7), where it
  is written back, all eight. Query row r of the array is covered by the point 8·(r / 256) + 7.
-/
import proofs.«100197_j52690658787659_2_alg».proof.Proof.IdealData2
import proofs.«100197_j52690658787659_2_alg».proof.Proof.PayProjOut
import Idealize.ShloMosaic.Lib.Pipeline.Value
import Idealize.ShloMosaic.Lib.ValueIdx

noncomputable section

open scoped BigOperators

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx

/-! ## The output as a function of the arrays the region finds -/

/-- Row `n` of a [8, 2048, 512] array, the row named by a natural number (zero past the end). -/
def rowAt (X : S8x2048x512.Idx → EReal) (b : Fin 8) (n : Nat) (e : Fin 512) : EReal :=
  if h : n < 2048 then X (ix3 b ⟨n, h⟩ e) else 0

/-- Column `n` of the [8, 1, 2048] statistic array, named by a natural number (zero past the end). -/
def colAt (S : S8x1x2048.Idx → EReal) (b : Fin 8) (n : Nat) : EReal :=
  if h : n < 2048 then S (ix3 b (0 : Fin 1) ⟨n, h⟩) else 0

theorem rowAt_of_lt (X : S8x2048x512.Idx → EReal) (b : Fin 8) (n : Nat) (e : Fin 512) (h : n < 2048) :
    rowAt X b n e = X (ix3 b ⟨n, h⟩ e) := dif_pos h
theorem colAt_of_lt (S : S8x1x2048.Idx → EReal) (b : Fin 8) (n : Nat) (h : n < 2048) :
    colAt S b n = S (ix3 b (0 : Fin 1) ⟨n, h⟩) := dif_pos h

/-- Key block `n`'s contribution to output entry (b, t, d): over its 256 key rows, the weight of the score against the
    key row's statistic, times the value. -/
def contrib (Qa Ka Va : S8x2048x512.Idx → EReal) (Sa : S8x1x2048.Idx → EReal) (b : Fin 8) (t : Fin 2048) (d : Fin 512) (n : Nat) : EReal :=
  ∑ j : Fin 256, Ideal.exp (min ((∑ e : Fin 512, Qa (ix3 b t e) * rowAt Ka b (n * 256 + j.val) e) - colAt Sa b (n * 256 + j.val)) 0)
    * rowAt Va b (n * 256 + j.val) d

/-- The output entry: the eight key blocks' contributions. -/
def outG (Qa Ka Va : S8x2048x512.Idx → EReal) (Sa : S8x1x2048.Idx → EReal) (b : Fin 8) (t : Fin 2048) (d : Fin 512) : EReal :=
  ∑ n ∈ Finset.range 8, contrib Qa Ka Va Sa b t d n

/-! ## Where the blocks sit -/

/-- The printed index maps, decided over the 64 points: queries and outputs at block (0, t / 8, 0); keys and values at
    (0, t % 8, 0); statistics at (0, 0, t % 8). -/
theorem idx_facts2 : ∀ t : Fin cfg2.N,
    win2_0.index t (0 : Fin 3) = 0 ∧ win2_0.index t (1 : Fin 3) = t.val / 8 ∧ win2_0.index t (2 : Fin 3) = 0
    ∧ win2_1.index t (0 : Fin 3) = 0 ∧ win2_1.index t (1 : Fin 3) = t.val % 8 ∧ win2_1.index t (2 : Fin 3) = 0
    ∧ win2_2.index t (0 : Fin 3) = 0 ∧ win2_2.index t (1 : Fin 3) = t.val % 8 ∧ win2_2.index t (2 : Fin 3) = 0
    ∧ win2_3.index t (0 : Fin 3) = 0 ∧ win2_3.index t (1 : Fin 3) = 0 ∧ win2_3.index t (2 : Fin 3) = t.val % 8
    ∧ win2_4.index t (0 : Fin 3) = 0 ∧ win2_4.index t (1 : Fin 3) = t.val / 8 ∧ win2_4.index t (2 : Fin 3) = 0 :=
  (by decide +kernel : ∀ t : Fin grid2.N, _)

section
variable (V : (c : Dev nD) → (b : Ref sig .tc) → Buf (Elt Ideal) ((c : Thread nD τ).loc b))

/-- The query block at point t holds rows 256·(t / 8) … of the query array. -/
theorem q_blk (c : Dev nD) (t : Fin cfg2.N) (b : Fin 8) (r : Fin 256) (e : Fin 512) (T : Fin 2048) (hT : T.val = t.val / 8 * 256 + r.val) :
    blk2 V c 0 t (ix3 b r e) = (V c main_v2_0 : S8x2048x512.Idx → EReal) (ix3 b T e) := by
  obtain ⟨e0, e1, e2, -⟩ := idx_facts2 t
  unfold blk2
  rw [View.read_apply]
  show (V c main_v2_0 : S8x2048x512.Idx → EReal) (((cfg2.win 0).blk t).view.emb (ix3 b r e)) = _
  refine congrArg (V c main_v2_0 : S8x2048x512.Idx → EReal) (funext fun a => Fin.ext ?_)
  match a with
  | ⟨0, _⟩ => show win2_0.index t (0 : Fin 3) * 8 + 1 * b.val = b.val; rw [e0]; omega
  | ⟨1, _⟩ => show win2_0.index t (1 : Fin 3) * 256 + 1 * r.val = T.val; rw [e1, hT]; omega
  | ⟨2, _⟩ => show win2_0.index t (2 : Fin 3) * 512 + 1 * e.val = e.val; rw [e2]; omega

/-- The key block at point t holds rows 256·(t % 8) … of the key array. -/
theorem k_blk (c : Dev nD) (t : Fin cfg2.N) (b : Fin 8) (j : Fin 256) (e : Fin 512) (S : Fin 2048) (hS : S.val = t.val % 8 * 256 + j.val) :
    blk2 V c 1 t (ix3 b j e) = (V c main_v2_1 : S8x2048x512.Idx → EReal) (ix3 b S e) := by
  obtain ⟨-, -, -, e0, e1, e2, -⟩ := idx_facts2 t
  unfold blk2
  rw [View.read_apply]
  show (V c main_v2_1 : S8x2048x512.Idx → EReal) (((cfg2.win 1).blk t).view.emb (ix3 b j e)) = _
  refine congrArg (V c main_v2_1 : S8x2048x512.Idx → EReal) (funext fun a => Fin.ext ?_)
  match a with
  | ⟨0, _⟩ => show win2_1.index t (0 : Fin 3) * 8 + 1 * b.val = b.val; rw [e0]; omega
  | ⟨1, _⟩ => show win2_1.index t (1 : Fin 3) * 256 + 1 * j.val = S.val; rw [e1, hS]; omega
  | ⟨2, _⟩ => show win2_1.index t (2 : Fin 3) * 512 + 1 * e.val = e.val; rw [e2]; omega

/-- The value block at point t holds the same rows of the value array. -/
theorem v_blk (c : Dev nD) (t : Fin cfg2.N) (b : Fin 8) (j : Fin 256) (d : Fin 512) (S : Fin 2048) (hS : S.val = t.val % 8 * 256 + j.val) :
    blk2 V c 2 t (ix3 b j d) = (V c main_v2_2 : S8x2048x512.Idx → EReal) (ix3 b S d) := by
  obtain ⟨-, -, -, -, -, -, e0, e1, e2, -⟩ := idx_facts2 t
  unfold blk2
  rw [View.read_apply]
  show (V c main_v2_2 : S8x2048x512.Idx → EReal) (((cfg2.win 2).blk t).view.emb (ix3 b j d)) = _
  refine congrArg (V c main_v2_2 : S8x2048x512.Idx → EReal) (funext fun a => Fin.ext ?_)
  match a with
  | ⟨0, _⟩ => show win2_2.index t (0 : Fin 3) * 8 + 1 * b.val = b.val; rw [e0]; omega
  | ⟨1, _⟩ => show win2_2.index t (1 : Fin 3) * 256 + 1 * j.val = S.val; rw [e1, hS]; omega
  | ⟨2, _⟩ => show win2_2.index t (2 : Fin 3) * 512 + 1 * d.val = d.val; rw [e2]; omega

/-- The statistic block at point t holds those key rows' statistics. -/
theorem s_blk (c : Dev nD) (t : Fin cfg2.N) (b : Fin 8) (j : Fin 256) (S : Fin 2048) (hS : S.val = t.val % 8 * 256 + j.val) :
    blk2 V c 3 t (ix3 b (0 : Fin 1) j) = (V c main_v3 : S8x1x2048.Idx → EReal) (ix3 b (0 : Fin 1) S) := by
  obtain ⟨-, -, -, -, -, -, -, -, -, e0, e1, e2, -⟩ := idx_facts2 t
  unfold blk2
  rw [View.read_apply]
  show (V c main_v3 : S8x1x2048.Idx → EReal) (((cfg2.win 3).blk t).view.emb (ix3 b (0 : Fin 1) j)) = _
  refine congrArg (V c main_v3 : S8x1x2048.Idx → EReal) (funext fun a => Fin.ext ?_)
  match a with
  | ⟨0, _⟩ => show win2_3.index t (0 : Fin 3) * 8 + 1 * b.val = b.val; rw [e0]; omega
  | ⟨1, _⟩ => show win2_3.index t (1 : Fin 3) * 1 + 1 * 0 = 0; rw [e1]
  | ⟨2, _⟩ => show win2_3.index t (2 : Fin 3) * 256 + 1 * j.val = S.val; rw [e2, hS]; omega

/-! ## One step of the accumulator, at an index -/

/-- At point t the accumulator's entry for block row r and feature d grows by key block t % 8's contribution to query
    row 256·(t / 8) + r. -/
theorem step_apply (c : Dev nD) (t : Fin cfg2.N) (acc : Vec Ideal S8x256x512 .f32) (b : Fin 8) (r : Fin 256) (d : Fin 512)
    (T : Fin 2048) (hT : T.val = t.val / 8 * 256 + r.val) :
    accStep (F := Ideal) (blk2 V c 0 t) (blk2 V c 1 t) (blk2 V c 2 t) (blk2 V c 3 t) acc (ix3 b r d)
      = acc (ix3 b r d) + contrib (V c main_v2_0 : S8x2048x512.Idx → EReal) (V c main_v2_1 : S8x2048x512.Idx → EReal)
          (V c main_v2_2 : S8x2048x512.Idx → EReal) (V c main_v3 : S8x1x2048.Idx → EReal) b T d (t.val % 8) := by
  have ht : t.val < 64 := lt_of_lt_of_eq t.isLt (show cfg2.N = 64 from N_2)
  unfold accStep
  refine (pay_acc_apply (blk2 V c 0 t) (blk2 V c 1 t) (blk2 V c 2 t) (blk2 V c 3 t) acc b r d).trans ?_
  refine congrArg (acc (ix3 b r d) + ·) ?_
  unfold contrib
  refine Finset.sum_congr rfl fun j _ => ?_
  have hS : t.val % 8 * 256 + j.val < 2048 := by have := j.isLt; omega
  rw [rowAt_of_lt _ b _ d hS, colAt_of_lt _ b _ hS, v_blk V c t b j d ⟨_, hS⟩ rfl, s_blk V c t b j ⟨_, hS⟩ rfl]
  refine congrArg (fun z => Ideal.exp (min (z - _) 0) * _) ?_
  refine Finset.sum_congr rfl fun e _ => ?_
  rw [rowAt_of_lt _ b _ e hS, q_blk V c t b r e T hT, k_blk V c t b j e ⟨_, hS⟩ rfl]

/-- The accumulator starts each query block from zero. -/
theorem accZero_apply (i : S8x256x512.Idx) : accZero (F := Ideal) i = 0 := pay_zero_apply i

/-- After point t the accumulator holds the contributions of key blocks 0 … t % 8. -/
theorem acc_fold (c : Dev nD) : ∀ (n : Nat) (h : n < cfg2.N) (b : Fin 8) (r : Fin 256) (d : Fin 512) (T : Fin 2048) (hT : T.val = n / 8 * 256 + r.val),
    accAt V c n h (ix3 b r d) = ∑ k ∈ Finset.range (n % 8 + 1),
      contrib (V c main_v2_0 : S8x2048x512.Idx → EReal) (V c main_v2_1 : S8x2048x512.Idx → EReal)
        (V c main_v2_2 : S8x2048x512.Idx → EReal) (V c main_v3 : S8x1x2048.Idx → EReal) b T d k := by
  intro n
  induction n using Nat.strong_induction_on with
  | _ n ih =>
    intro h b r d T hT
    by_cases h0 : n % 8 = 0
    · rw [accAt_first V c ⟨n, h⟩ h0, step_apply V c ⟨n, h⟩ accZero b r d T hT, accZero_apply, zero_add]
      show contrib _ _ _ _ b T d (n % 8) = _
      rw [h0, Finset.sum_range_one]
    · have hn : n ≠ 0 := fun e => h0 (by rw [e])
      have hlt : n - 1 < cfg2.N := Nat.lt_of_le_of_lt (Nat.sub_le _ _) h
      rw [accAt_next V c ⟨n, h⟩ h0, step_apply V c ⟨n, h⟩ _ b r d T hT]
      show accAt V c (n - 1) hlt (ix3 b r d) + contrib _ _ _ _ b T d (n % 8) = _
      rw [ih (n - 1) (by omega) hlt b r d T (by rw [hT]; congr 2; omega)]
      have e1 : (n - 1) % 8 + 1 = n % 8 := by omega
      rw [e1, Finset.sum_range_succ]

/-! ## The output array -/

/-- What a last key block's point writes back is its block of the function of the arrays the region finds. -/
theorem flushedOut_eq (c : Dev nD) (t : Fin cfg2.N) (hf : (cfg2.win 4).flush t = true) :
    (dat2 (F := Ideal) V c).flushed 4 t
      = ((cfg2.win 4).blk t).view.read (Elt Ideal)
          (fun i : S8x2048x512.Idx => outG (V c main_v2_0 : S8x2048x512.Idx → EReal) (V c main_v2_1 : S8x2048x512.Idx → EReal)
            (V c main_v2_2 : S8x2048x512.Idx → EReal) (V c main_v3 : S8x1x2048.Idx → EReal) (i 0) (i 1) (i 2)) := by
  have h7 : t.val % 8 = 7 := (flush2_4 t).mp hf
  show (cfg2.win 4).cut (grid2.coords t) ((dat2 V c).after 4 t) = _
  rw [after2_4]
  obtain ⟨-, -, -, -, -, -, -, -, -, -, -, -, e0, e1, e2⟩ := idx_facts2 t
  have ht : t.val < 64 := lt_of_lt_of_eq t.isLt (show cfg2.N = 64 from N_2)
  funext y
  show accAt V c t.val t.isLt ((cfg2.win 4).xinj (grid2.coords t) y)
    = outG _ _ _ _ ((((cfg2.win 4).blk t).view.emb y) 0) ((((cfg2.win 4).blk t).view.emb y) 1) ((((cfg2.win 4).blk t).view.emb y) 2)
  refine (congrArg (accAt V c t.val t.isLt) (eq_ix3 _)).trans ?_
  have hB : ((((cfg2.win 4).blk t).view.emb y) 0) = (cfg2.win 4).xinj (grid2.coords t) y 0 := Fin.ext (by
    show win2_4.index t (0 : Fin 3) * 8 + 1 * (y 0).val = (y 0).val; rw [e0]; omega)
  have hD : ((((cfg2.win 4).blk t).view.emb y) 2) = (cfg2.win 4).xinj (grid2.coords t) y 2 := Fin.ext (by
    show win2_4.index t (2 : Fin 3) * 512 + 1 * (y 2).val = (y 2).val; rw [e2]; omega)
  have hTv : ((((cfg2.win 4).blk t).view.emb y) 1).val = t.val / 8 * 256 + (y 1).val := by
    show win2_4.index t (1 : Fin 3) * 256 + 1 * (y 1).val = _; rw [e1]; omega
  rw [hB, hD]
  refine (acc_fold V c t.val t.isLt _ _ _ ((((cfg2.win 4).blk t).view.emb y) 1) hTv).trans ?_
  unfold outG
  rw [h7]

/-- An index of the array is in point t's block iff each coordinate is in the block's range on its axis. -/
theorem mem_blkOut (t : Fin cfg2.N) (i : S8x2048x512.Idx) :
    i ∈ ((cfg2.win 4).blk t).view.set ↔ ∀ a : Fin 3, win2_4.index t a * S8x256x512.size a ≤ (i a).val ∧ (i a).val < win2_4.index t a * S8x256x512.size a + S8x256x512.size a := by
  show i ∈ ((View.whole main_v4).slice (win2_4.rect t)).set ↔ _
  rw [View.set_slice_whole, Rect.mem_set_unit]
  exact Iff.rfl

/-- Query row r of the array is in the block of the point 8·(r / 256) + 7, which writes back. -/
theorem coverOut (i : S8x2048x512.Idx) : ∃ t : Fin cfg2.N, (cfg2.win 4).flush t = true ∧ i ∈ ((cfg2.win 4).blk t).view.set := by
  have hN : cfg2.N = 64 := N_2
  have h0 : (i 0).val < 8 := (i 0).isLt
  have h1 : (i 1).val < 2048 := (i 1).isLt
  have h2 : (i 2).val < 512 := (i 2).isLt
  obtain ⟨t, ht⟩ : ∃ t : Fin cfg2.N, t.val = 8 * ((i 1).val / 256) + 7 := ⟨⟨8 * ((i 1).val / 256) + 7, by omega⟩, rfl⟩
  obtain ⟨-, -, -, -, -, -, -, -, -, -, -, -, e0, e1, e2⟩ := idx_facts2 t
  refine ⟨t, (flush2_4 t).mpr (by omega), ?_⟩
  rw [mem_blkOut]
  intro a
  match a with
  | ⟨0, _⟩ => show win2_4.index t (0 : Fin 3) * 8 ≤ (i 0).val ∧ (i 0).val < win2_4.index t (0 : Fin 3) * 8 + 8; rw [e0]; omega
  | ⟨1, _⟩ => show win2_4.index t (1 : Fin 3) * 256 ≤ (i 1).val ∧ (i 1).val < win2_4.index t (1 : Fin 3) * 256 + 256; rw [e1, ht]; omega
  | ⟨2, _⟩ => show win2_4.index t (2 : Fin 3) * 512 ≤ (i 2).val ∧ (i 2).val < win2_4.index t (2 : Fin 3) * 512 + 512; rw [e2]; omega

/-- After the region the output array is the function, everywhere. -/
theorem out_final (c : Dev nD) :
    (dat2 (F := Ideal) V c).arrAt 4 cfg2.N
      = (fun i : S8x2048x512.Idx => outG (V c main_v2_0 : S8x2048x512.Idx → EReal) (V c main_v2_1 : S8x2048x512.Idx → EReal)
          (V c main_v2_2 : S8x2048x512.Idx → EReal) (V c main_v3 : S8x1x2048.Idx → EReal) (i 0) (i 1) (i 2)) :=
  (dat2 (F := Ideal) V c).arrAt_eq_of_cover 4 _ (fun t hf => flushedOut_eq V c t hf) coverOut

end

end Cert.KernelIdeal.HandValue

end
-- ==== Proof.LibERealSum.lean ====
/-
  Sums of real numbers inside the extended reals.

  The coercion `ℝ → EReal` is additive, so it commutes with every finite sum: a finite sum of
  extended reals each of which is (the image of) a real number is the image of the real sum.  In
  particular such a sum is neither `⊥` nor `⊤`.
-/
import Mathlib.Data.EReal.Basic
import Mathlib.Algebra.BigOperators.Group.Finset.Basic

namespace Cert.Gcn.ERealSum

open scoped BigOperators

/-- The coercion of a finite sum of reals is the sum of the coercions, read from right to left:
    `∑ i ∈ s, (f i : EReal) = ((∑ i ∈ s, f i : ℝ) : EReal)`. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum whose terms are all real is real: if `g i = (f i : EReal)` on `s`, then
    `∑ i ∈ s, g i = ((∑ i ∈ s, f i : ℝ) : EReal)`. -/
theorem sum_eq_coe {ι : Type*} (s : Finset ι) (g : ι → EReal) (f : ι → ℝ)
    (h : ∀ i ∈ s, g i = ((f i : ℝ) : EReal)) :
    (∑ i ∈ s, g i) = ((∑ i ∈ s, f i : ℝ) : EReal) := by
  rw [Finset.sum_congr rfl h, sum_coe]

/-- A sum of `1`s over a finite set is its cardinality, as a real inside the extended reals. -/
theorem sum_one (ι : Type*) (s : Finset ι) :
    (∑ _i ∈ s, ((1 : ℝ) : EReal)) = (((s.card : ℕ) : ℝ) : EReal) := by
  rw [sum_coe s (fun _ => (1 : ℝ))]; simp

end Cert.Gcn.ERealSum
-- ==== Proof.SoftmaxLaw.lean ====
/-
  The laws behind a softmax whose normaliser is accumulated tile by tile.

  For real scores, a running maximum m and a running sum l of exponentials against the current
  maximum satisfy, after any number of tiles and WHATEVER value the maximum was started from,
      l = Σ exp (x − m)        (the sum over all scores seen so far),
  because rescaling by exp (m_old − m_new) turns Σ exp (x − m_old) into Σ exp (x − m_new).
  Hence  m + log l = log Σ exp x,  the logarithm of the whole sum of exponentials.

  Subtracting that statistic from a score never gives a positive number (one exponential is at
  most the sum of all of them), so clamping the difference at 0 changes nothing, and
      exp (y_i − log Σ_j exp y_j) = exp (y_i − M) / Σ_j exp (y_j − M)
  for the column maximum M (indeed for any real M).

  Also here: a sum over K·P consecutive indices split into K tiles of P, and the fact that the
  matrix products of real arrays are real.
-/
import Mathlib.Data.EReal.Basic
import Mathlib.Data.EReal.Operations
import Mathlib.Data.EReal.Inv
import Mathlib.Data.Finset.Fold
import Mathlib.Data.Finset.Lattice.Fold
import Mathlib.Algebra.BigOperators.Fin
import Mathlib.Algebra.BigOperators.Group.Finset.Basic
import Mathlib.Algebra.Order.BigOperators.Group.Finset
import Mathlib.Analysis.SpecialFunctions.Log.Basic
import Idealize.ShloMosaic.PureOps.Ideal
import proofs.«100197_j52690658787659_2_alg».proof.Proof.AttnSpec
import proofs.«100197_j52690658787659_2_alg».proof.Proof.LibERealSum

noncomputable section

open scoped BigOperators

namespace Cert.Attn

open Idealize.ShloMosaic
open Cert.Gcn.ERealSum

/-! ## Real numbers inside the extended reals -/

/-- The larger of two real numbers, taken in the extended reals, is the real maximum. -/
theorem max_coe_coe (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The exponential of a difference of two reals is the real exponential of the real difference. -/
theorem exp_coe_sub_coe (a b : ℝ) :
    Ideal.exp (((a : ℝ) : EReal) - ((b : ℝ) : EReal)) = ((Real.exp (a - b) : ℝ) : EReal) := by
  rw [← EReal.coe_sub, Ideal.exp_coe]

/-- The fold of max from −∞ over a nonempty finite family of reals is one of its
    members (so it is real), and it bounds every member. -/
theorem foldMax_coe {P : Nat} (hP : 0 < P) (f : Fin P → ℝ) :
    ∃ M : ℝ, (Finset.univ : Finset (Fin P)).fold max ⊥ (fun r => ((f r : ℝ) : EReal)) = ((M : ℝ) : EReal)
      ∧ ∀ r, f r ≤ M := by
  have hne : (Finset.univ : Finset (Fin P)).Nonempty := ⟨⟨0, hP⟩, Finset.mem_univ _⟩
  obtain ⟨i, -, hi⟩ := Finset.exists_mem_eq_sup Finset.univ hne (fun r => ((f r : ℝ) : EReal))
  have hfold : (Finset.univ : Finset (Fin P)).fold max ⊥ (fun r => ((f r : ℝ) : EReal)) = ((f i : ℝ) : EReal) := hi
  refine ⟨f i, hfold, fun r => ?_⟩
  have hle : ((f r : ℝ) : EReal) ≤ (Finset.univ : Finset (Fin P)).fold max ⊥ (fun r => ((f r : ℝ) : EReal)) :=
    (Finset.le_fold_max _).mpr (Or.inr ⟨r, Finset.mem_univ r, le_refl _⟩)
  rw [hfold] at hle
  exact EReal.coe_le_coe_iff.mp hle

/-! ## One more tile -/

/-- With a real running maximum and a nonempty tile of real scores, the new running maximum is real. -/
theorem stepMax_coe {P : Nat} (hP : 0 < P) (m : ℝ) (f : Fin P → ℝ) :
    ∃ m' : ℝ, stepMax ((m : ℝ) : EReal) (fun r => ((f r : ℝ) : EReal)) = ((m' : ℝ) : EReal) := by
  obtain ⟨M, hM, -⟩ := foldMax_coe hP f
  exact ⟨max m M, by rw [stepMax, hM, max_coe_coe]⟩

/-- With real old statistics and a real new maximum m', the new running sum is the real number
    exp (m − m')·l + Σ_r exp (f r − m'). -/
theorem stepSum_coe {P : Nat} (m m' l : ℝ) (f : Fin P → ℝ)
    (h : stepMax ((m : ℝ) : EReal) (fun r => ((f r : ℝ) : EReal)) = ((m' : ℝ) : EReal)) :
    stepSum ((m : ℝ) : EReal) ((l : ℝ) : EReal) (fun r => ((f r : ℝ) : EReal))
      = ((Real.exp (m - m') * l + ∑ r : Fin P, Real.exp (f r - m') : ℝ) : EReal) := by
  have hsum : (∑ r : Fin P, Ideal.exp (((f r : ℝ) : EReal) - ((m' : ℝ) : EReal)))
      = ((∑ r : Fin P, Real.exp (f r - m') : ℝ) : EReal) :=
    sum_eq_coe Finset.univ _ _ (fun r _ => exp_coe_sub_coe (f r) m')
  rw [stepSum, h, exp_coe_sub_coe, hsum, ← EReal.coe_mul, ← EReal.coe_add]

/-- Rescaling a sum of exponentials from one reference point to another:
    exp (m − m')·Σ exp (x − m) = Σ exp (x − m'). -/
theorem rescale_sum {ι : Type*} (s : Finset ι) (g : ι → ℝ) (m m' : ℝ) :
    Real.exp (m - m') * ∑ i ∈ s, Real.exp (g i - m) = ∑ i ∈ s, Real.exp (g i - m') := by
  rw [Finset.mul_sum]
  refine Finset.sum_congr rfl (fun i _ => ?_)
  rw [← Real.exp_add]
  congr 1
  ring

/-! ## The running statistics after n tiles -/

/-- After n tiles of real scores (each tile nonempty), started from any real c and 0, the running
    maximum is a real m and the running sum is Σ exp (x − m) over all scores seen so far. -/
theorem runStat_coe {P : Nat} (hP : 0 < P) (c : ℝ) (xr : Nat → Fin P → ℝ) (n : Nat) :
    ∃ m : ℝ, runStat (P := P) ((c : ℝ) : EReal) (fun k r => ((xr k r : ℝ) : EReal)) n
      = (((m : ℝ) : EReal), ((∑ k ∈ Finset.range n, ∑ r : Fin P, Real.exp (xr k r - m) : ℝ) : EReal)) := by
  induction n with
  | zero => exact ⟨c, by simp [runStat]⟩
  | succ n ih =>
    obtain ⟨m, hm⟩ := ih
    obtain ⟨m', hm'⟩ := stepMax_coe hP m (xr n)
    refine ⟨m', ?_⟩
    have hreal : Real.exp (m - m') * (∑ k ∈ Finset.range n, ∑ r : Fin P, Real.exp (xr k r - m))
          + ∑ r : Fin P, Real.exp (xr n r - m')
        = ∑ k ∈ Finset.range (n + 1), ∑ r : Fin P, Real.exp (xr k r - m') := by
      rw [Finset.sum_range_succ, Finset.mul_sum]
      congr 1
      exact Finset.sum_congr rfl (fun k _ => rescale_sum Finset.univ (xr k) m m')
    show (stepMax (runStat (P := P) ((c : ℝ) : EReal) (fun k r => ((xr k r : ℝ) : EReal)) n).1 (fun r => ((xr n r : ℝ) : EReal)),
          stepSum (runStat (P := P) ((c : ℝ) : EReal) (fun k r => ((xr k r : ℝ) : EReal)) n).1
            (runStat (P := P) ((c : ℝ) : EReal) (fun k r => ((xr k r : ℝ) : EReal)) n).2 (fun r => ((xr n r : ℝ) : EReal))) = _
    rw [hm]
    show (stepMax ((m : ℝ) : EReal) (fun r => ((xr n r : ℝ) : EReal)),
          stepSum ((m : ℝ) : EReal) ((∑ k ∈ Finset.range n, ∑ r : Fin P, Real.exp (xr k r - m) : ℝ) : EReal)
            (fun r => ((xr n r : ℝ) : EReal))) = _
    rw [stepSum_coe m m' _ (xr n) hm', hm', hreal]

/-- The total of exponentials is exp m times the total of exponentials against m. -/
theorem sum_exp_eq_mul {P : Nat} (xr : Nat → Fin P → ℝ) (n : Nat) (m : ℝ) :
    ∑ k ∈ Finset.range n, ∑ r : Fin P, Real.exp (xr k r)
      = Real.exp m * ∑ k ∈ Finset.range n, ∑ r : Fin P, Real.exp (xr k r - m) := by
  rw [Finset.mul_sum]
  refine Finset.sum_congr rfl (fun k _ => ?_)
  rw [Finset.mul_sum]
  refine Finset.sum_congr rfl (fun r _ => ?_)
  rw [← Real.exp_add]
  congr 1
  ring

/-- Running maximum plus the logarithm of the running sum is the logarithm of the whole sum of
    exponentials, whatever real value the maximum was started from. -/
theorem logSumStat_eq {P : Nat} (hP : 0 < P) (c : ℝ) (xr : Nat → Fin P → ℝ) (n : Nat) (hn : 0 < n) :
    logSumStat (P := P) ((c : ℝ) : EReal) (fun k r => ((xr k r : ℝ) : EReal)) n
      = ((Real.log (∑ k ∈ Finset.range n, ∑ r : Fin P, Real.exp (xr k r)) : ℝ) : EReal) := by
  obtain ⟨m, hm⟩ := runStat_coe hP c xr n
  have hS : 0 < ∑ k ∈ Finset.range n, ∑ r : Fin P, Real.exp (xr k r - m) :=
    Finset.sum_pos (fun k _ => Finset.sum_pos (fun r _ => Real.exp_pos _) ⟨⟨0, hP⟩, Finset.mem_univ _⟩)
      ⟨0, Finset.mem_range.mpr hn⟩
  rw [logSumStat, hm]
  show ((m : ℝ) : EReal) + Ideal.log ((∑ k ∈ Finset.range n, ∑ r : Fin P, Real.exp (xr k r - m) : ℝ) : EReal) = _
  rw [Ideal.log_coe, if_neg (not_le.mpr hS), ← EReal.coe_add, sum_exp_eq_mul xr n m,
    Real.log_mul (Real.exp_ne_zero m) hS.ne', Real.log_exp]

/-! ## The weight -/

/-- The exponential of a score minus the logarithm of the column's sum of exponentials, the
    difference clamped at 0 (which changes nothing), is the exponential against the column maximum
    divided by the sum of those exponentials. -/
theorem weight_eq {N : Nat} (hN : 0 < N) (y : Fin N → ℝ) (i : Fin N) :
    Ideal.exp (min (((y i : ℝ) : EReal) - ((Real.log (∑ j : Fin N, Real.exp (y j)) : ℝ) : EReal)) 0)
      = Ideal.div (Ideal.exp (((y i : ℝ) : EReal) - (Finset.univ : Finset (Fin N)).fold max ⊥ (fun j => ((y j : ℝ) : EReal))))
          (∑ j : Fin N, Ideal.exp (((y j : ℝ) : EReal) - (Finset.univ : Finset (Fin N)).fold max ⊥ (fun j => ((y j : ℝ) : EReal)))) := by
  obtain ⟨M, hM, -⟩ := foldMax_coe hN y
  have hZ : 0 < ∑ j : Fin N, Real.exp (y j) :=
    Finset.sum_pos (fun j _ => Real.exp_pos _) ⟨⟨0, hN⟩, Finset.mem_univ _⟩
  have hD : 0 < ∑ j : Fin N, Real.exp (y j - M) :=
    Finset.sum_pos (fun j _ => Real.exp_pos _) ⟨⟨0, hN⟩, Finset.mem_univ _⟩
  -- one exponential is at most the sum of all of them, so the difference is not positive
  have hle : y i - Real.log (∑ j : Fin N, Real.exp (y j)) ≤ 0 := by
    have h1 : Real.exp (y i) ≤ ∑ j : Fin N, Real.exp (y j) :=
      Finset.single_le_sum (f := fun j => Real.exp (y j)) (fun j _ => (Real.exp_pos _).le) (Finset.mem_univ i)
    have h2 : Real.log (Real.exp (y i)) ≤ Real.log (∑ j : Fin N, Real.exp (y j)) :=
      Real.log_le_log (Real.exp_pos _) h1
    rw [Real.log_exp] at h2
    linarith
  have hmin : min (((y i : ℝ) : EReal) - ((Real.log (∑ j : Fin N, Real.exp (y j)) : ℝ) : EReal)) 0
      = ((y i - Real.log (∑ j : Fin N, Real.exp (y j)) : ℝ) : EReal) := by
    rw [← EReal.coe_sub]
    exact min_eq_left (by exact_mod_cast hle)
  have hden : (∑ j : Fin N, Ideal.exp (((y j : ℝ) : EReal) - ((M : ℝ) : EReal)))
      = ((∑ j : Fin N, Real.exp (y j - M) : ℝ) : EReal) :=
    sum_eq_coe Finset.univ _ _ (fun j _ => exp_coe_sub_coe (y j) M)
  -- the real identity: exp (y_i − log Z) = exp (y_i − M) · (1 / Σ exp (y_j − M))
  have hreal : Real.exp (y i - Real.log (∑ j : Fin N, Real.exp (y j)))
      = Real.exp (y i - M) * (1 / ∑ j : Fin N, Real.exp (y j - M)) := by
    have hZD : ∑ j : Fin N, Real.exp (y j) = Real.exp M * ∑ j : Fin N, Real.exp (y j - M) := by
      rw [Finset.mul_sum]
      refine Finset.sum_congr rfl (fun j _ => ?_)
      rw [← Real.exp_add]
      congr 1
      ring
    rw [Real.exp_sub, Real.exp_log hZ, hZD, Real.exp_sub]
    field_simp
  rw [hmin, Ideal.exp_coe, hM, exp_coe_sub_coe, hden, Ideal.div_coe hD.ne', ← EReal.coe_mul, hreal]

/-! ## Tiles of a sum -/

/-- A sum over K·P consecutive indices is the sum over K tiles of the sums over the P indices
    of each tile. -/
theorem sum_tiles {M : Type*} [AddCommMonoid M] (K P : Nat) (g : Nat → M) :
    (∑ t : Fin (K * P), g t.val) = ∑ k ∈ Finset.range K, ∑ r : Fin P, g (k * P + r.val) := by
  rw [Fin.sum_univ_eq_sum_range (fun t => g t) (K * P)]
  induction K with
  | zero => simp
  | succ K ih =>
    rw [Finset.sum_range_succ, ← ih, Nat.succ_mul, Finset.sum_range_add,
      Fin.sum_univ_eq_sum_range (fun r => g (K * P + r)) P]

/-! ## Matrix products of real arrays are real -/

/-- Rows of a real array against the columns of a real matrix give real numbers. -/
theorem proj_real (x : Fin 8 → Fin 2048 → Fin 512 → EReal) (w : Fin 512 → Fin 512 → EReal)
    (xr : Fin 8 → Fin 2048 → Fin 512 → ℝ) (wr : Fin 512 → Fin 512 → ℝ)
    (hx : ∀ b t h, x b t h = ((xr b t h : ℝ) : EReal)) (hw : ∀ h e, w h e = ((wr h e : ℝ) : EReal))
    (b : Fin 8) (t : Fin 2048) (e : Fin 512) :
    proj x w b t e = ((∑ h : Fin 512, xr b t h * wr h e : ℝ) : EReal) := by
  rw [proj]
  exact sum_eq_coe Finset.univ _ _ (fun h _ => by rw [hx, hw, EReal.coe_mul])

/-- Scores of real queries against real keys are real numbers. -/
theorem score_real (q k : Fin 8 → Fin 2048 → Fin 512 → EReal)
    (qr kr : Fin 8 → Fin 2048 → Fin 512 → ℝ)
    (hq : ∀ b t e, q b t e = ((qr b t e : ℝ) : EReal)) (hk : ∀ b s e, k b s e = ((kr b s e : ℝ) : EReal))
    (b : Fin 8) (t s : Fin 2048) :
    score q k b t s = ((∑ e : Fin 512, qr b t e * kr b s e : ℝ) : EReal) := by
  rw [score]
  exact sum_eq_coe Finset.univ _ _ (fun e _ => by rw [hq, hk, EReal.coe_mul])

/-! ## A whole column -/

/-- For a column of 2048 real scores read in 4 tiles of 512: the exponential of a score minus the
    accumulated statistic, the difference clamped at 0, is the softmax weight of that score in its
    column, whatever real value the running maximum was started from. -/
theorem column_weight (y' : Nat → ℝ) (c : ℝ) (t : Fin 2048) :
    Ideal.exp (min (((y' t.val : ℝ) : EReal)
        - logSumStat (P := 512) ((c : ℝ) : EReal) (fun k r => ((y' (k * 512 + r.val) : ℝ) : EReal)) 4) 0)
      = Ideal.div (Ideal.exp (((y' t.val : ℝ) : EReal) - (Finset.univ : Finset (Fin 2048)).fold max ⊥ (fun j => ((y' j.val : ℝ) : EReal))))
          (∑ j : Fin 2048, Ideal.exp (((y' j.val : ℝ) : EReal) - (Finset.univ : Finset (Fin 2048)).fold max ⊥ (fun j => ((y' j.val : ℝ) : EReal)))) := by
  have htiles : (∑ j : Fin 2048, Real.exp (y' j.val))
      = ∑ k ∈ Finset.range 4, ∑ r : Fin 512, Real.exp (y' (k * 512 + r.val)) :=
    sum_tiles 4 512 (fun j => Real.exp (y' j))
  rw [logSumStat_eq (P := 512) (by norm_num) c (fun k r => y' (k * 512 + r.val)) 4 (by norm_num), ← htiles]
  exact weight_eq (N := 2048) (by norm_num) (fun j => y' j.val) t

end Cert.Attn

end
-- ==== Proof.AttnBlocks.lean ====
/-
  Attention computed key block by key block is the attention of the specification.

  The output row t is accumulated over 8 blocks of 256 key rows; the weight of key row s is
  exp (min (score[t,s] − stat[s], 0)), where stat[s] is key column s's statistic — running maximum
  plus the logarithm of the running sum — accumulated over the four tiles of 512 query rows from a
  finite starting value c.  When the inputs are real numbers every score is real, so stat[s] is the
  logarithm of the column's whole sum of exponentials, the clamp at 0 changes nothing, and the
  weight is the softmax weight exp (score − M)/Σ exp (score' − M) taken over the query axis; the sum
  over the 8 blocks of 256 is the sum over all 2048 key rows.
-/
import Mathlib.Data.EReal.Basic
import Mathlib.Data.EReal.Operations
import Mathlib.Tactic.Choose
import Mathlib.Algebra.BigOperators.Fin
import Mathlib.Algebra.BigOperators.Group.Finset.Basic
import Idealize.ShloMosaic.PureOps.Ideal
import proofs.«100197_j52690658787659_2_alg».proof.Proof.AttnSpec
import proofs.«100197_j52690658787659_2_alg».proof.Proof.SoftmaxLaw
import proofs.«100197_j52690658787659_2_alg».proof.Proof.LibERealSum

noncomputable section

open scoped BigOperators

namespace Cert.Attn

open Idealize.ShloMosaic

/-! ## Rows and columns named by natural numbers -/

/-- A score named by natural numbers (zero off the grid). -/
def scN (sc : Fin 8 → Fin 2048 → Fin 2048 → EReal) (b : Fin 8) (n s : Nat) : EReal :=
  if h : n < 2048 ∧ s < 2048 then sc b ⟨n, h.1⟩ ⟨s, h.2⟩ else 0

/-- A value row named by a natural number (zero past the end). -/
def vN (v : Fin 8 → Fin 2048 → Fin 512 → EReal) (b : Fin 8) (s : Nat) (d : Fin 512) : EReal :=
  if h : s < 2048 then v b ⟨s, h⟩ d else 0

/-- Key column s's statistic: the running maximum plus the logarithm of the running sum after the
    four query tiles of 512 rows, the maximum started from c. -/
def statN (sc : Fin 8 → Fin 2048 → Fin 2048 → EReal) (c : EReal) (b : Fin 8) (s : Nat) : EReal :=
  logSumStat (P := 512) c (fun k r => scN sc b (k * 512 + r.val) s) 4

/-- Key column s of an array of real scores, its rows named by natural numbers (zero off the grid). -/
def colN (yr : Fin 8 → Fin 2048 → Fin 2048 → ℝ) (b : Fin 8) (s : Fin 2048) (n : Nat) : ℝ :=
  if h : n < 2048 then yr b ⟨n, h⟩ s else 0

/-- On the grid the column is the array's. -/
theorem colN_val (yr : Fin 8 → Fin 2048 → Fin 2048 → ℝ) (b : Fin 8) (s t : Fin 2048) :
    colN yr b s t.val = yr b t s := by
  unfold colN
  rw [dif_pos t.isLt]

/-- On the grid a value row is the array's. -/
theorem vN_val (v : Fin 8 → Fin 2048 → Fin 512 → EReal) (b : Fin 8) (u : Fin 2048) (d : Fin 512) :
    vN v b u.val d = v b u d := by
  unfold vN
  rw [dif_pos u.isLt]

/-- Real scores named by natural numbers are real everywhere, off the grid too. -/
theorem scN_real (sc : Fin 8 → Fin 2048 → Fin 2048 → EReal) (yr : Fin 8 → Fin 2048 → Fin 2048 → ℝ)
    (hsc : ∀ b t s, sc b t s = ((yr b t s : ℝ) : EReal)) (b : Fin 8) (s : Fin 2048) (n : Nat) :
    scN sc b n s.val = ((colN yr b s n : ℝ) : EReal) := by
  unfold scN colN
  by_cases h : n < 2048
  · rw [dif_pos (⟨h, s.isLt⟩ : n < 2048 ∧ s.val < 2048), dif_pos h]
    exact hsc b ⟨n, h⟩ s
  · rw [dif_neg (fun h' : n < 2048 ∧ s.val < 2048 => h h'.1), dif_neg h]
    exact EReal.coe_zero.symm

/-- So the statistic of a column of real scores is the statistic of its real column. -/
theorem statN_real (sc : Fin 8 → Fin 2048 → Fin 2048 → EReal) (yr : Fin 8 → Fin 2048 → Fin 2048 → ℝ)
    (hsc : ∀ b t s, sc b t s = ((yr b t s : ℝ) : EReal)) (c : ℝ) (b : Fin 8) (s : Fin 2048) :
    statN sc ((c : ℝ) : EReal) b s.val
      = logSumStat (P := 512) ((c : ℝ) : EReal) (fun k r => ((colN yr b s (k * 512 + r.val) : ℝ) : EReal)) 4 := by
  unfold statN
  have hfun : (fun (k : Nat) (r : Fin 512) => scN sc b (k * 512 + r.val) s.val)
      = fun k r => ((colN yr b s (k * 512 + r.val) : ℝ) : EReal) :=
    funext fun k => funext fun r => scN_real sc yr hsc b s (k * 512 + r.val)
  rw [hfun]

/-! ## One key column -/

/-- For real scores, the exponential of a score minus its column's accumulated statistic, the
    difference clamped at 0, is the softmax weight over the query axis. -/
theorem column_eq (sc : Fin 8 → Fin 2048 → Fin 2048 → EReal) (yr : Fin 8 → Fin 2048 → Fin 2048 → ℝ)
    (hsc : ∀ b t s, sc b t s = ((yr b t s : ℝ) : EReal)) (c : ℝ) (b : Fin 8) (t s : Fin 2048) :
    Ideal.exp (min (scN sc b t.val s.val - statN sc ((c : ℝ) : EReal) b s.val) 0) = weight sc b t s := by
  have hcol : (fun j : Fin 2048 => ((colN yr b s j.val : ℝ) : EReal)) = fun j => sc b j s :=
    funext fun j => by rw [colN_val, hsc]
  have hsum : ∀ M : EReal, (∑ j : Fin 2048, Ideal.exp (((colN yr b s j.val : ℝ) : EReal) - M))
      = ∑ j : Fin 2048, Ideal.exp (sc b j s - M) :=
    fun M => Finset.sum_congr rfl fun j _ => by rw [colN_val, hsc]
  have ht : ((colN yr b s t.val : ℝ) : EReal) = sc b t s := by rw [colN_val, hsc]
  rw [scN_real sc yr hsc b s t.val, statN_real sc yr hsc c b s, column_weight (colN yr b s) c t,
    hcol, hsum, ht]
  rfl

/-! ## All key columns, block by block -/

/-- The sum over 8 blocks of 256 key rows of (weight from the accumulated statistic) × value is the
    specification's weights against the values, when the scores are real. -/
theorem blocks_of_real (sc : Fin 8 → Fin 2048 → Fin 2048 → EReal) (yr : Fin 8 → Fin 2048 → Fin 2048 → ℝ)
    (hsc : ∀ b t s, sc b t s = ((yr b t s : ℝ) : EReal)) (v : Fin 8 → Fin 2048 → Fin 512 → EReal)
    (c : ℝ) (b : Fin 8) (t : Fin 2048) (d : Fin 512) :
    (∑ n ∈ Finset.range 8, ∑ j : Fin 256,
        Ideal.exp (min (scN sc b t.val (n * 256 + j.val) - statN sc ((c : ℝ) : EReal) b (n * 256 + j.val)) 0)
          * vN v b (n * 256 + j.val) d)
      = context (weight sc) v b t d := by
  have hG : ∀ u : Fin 2048,
      Ideal.exp (min (scN sc b t.val u.val - statN sc ((c : ℝ) : EReal) b u.val) 0) * vN v b u.val d
        = weight sc b t u * v b u d :=
    fun u => by rw [column_eq sc yr hsc c b t u, vN_val]
  refine (sum_tiles 8 256
    (fun s => Ideal.exp (min (scN sc b t.val s - statN sc ((c : ℝ) : EReal) b s) 0) * vN v b s d)).symm.trans ?_
  unfold context
  exact Finset.sum_congr rfl fun u _ => hG u

/-- Attention computed key block by key block, each key column's statistic accumulated over four
    query tiles from a finite start, is the specification's attention when the inputs are real. -/
theorem attention_blocks (x : Fin 8 → Fin 2048 → Fin 512 → EReal) (wq wk wv : Fin 512 → Fin 512 → EReal)
    (hx : ∀ b t h, ∃ r : ℝ, x b t h = ((r : ℝ) : EReal)) (hq : ∀ h e, ∃ r : ℝ, wq h e = ((r : ℝ) : EReal))
    (hk : ∀ h e, ∃ r : ℝ, wk h e = ((r : ℝ) : EReal)) (hv : ∀ h e, ∃ r : ℝ, wv h e = ((r : ℝ) : EReal))
    (c : ℝ) (b : Fin 8) (t : Fin 2048) (d : Fin 512) :
    (∑ n ∈ Finset.range 8, ∑ j : Fin 256,
        Ideal.exp (min (scN (score (proj x wq) (proj x wk)) b t.val (n * 256 + j.val)
            - statN (score (proj x wq) (proj x wk)) ((c : ℝ) : EReal) b (n * 256 + j.val)) 0)
          * vN (proj x wv) b (n * 256 + j.val) d)
      = attention x wq wk wv b t d := by
  choose xr hxr using hx
  choose wqr hwq using hq
  choose wkr hwk using hk
  have hsc : ∀ b t s, score (proj x wq) (proj x wk) b t s
      = ((∑ e : Fin 512, (∑ h : Fin 512, xr b t h * wqr h e) * (∑ h : Fin 512, xr b s h * wkr h e) : ℝ) : EReal) :=
    fun b t s => score_real (proj x wq) (proj x wk)
      (fun b t e => ∑ h : Fin 512, xr b t h * wqr h e) (fun b t e => ∑ h : Fin 512, xr b t h * wkr h e)
      (fun b t e => proj_real x wq xr wqr hxr hwq b t e) (fun b s e => proj_real x wk xr wkr hxr hwk b s e) b t s
  unfold attention
  exact blocks_of_real (score (proj x wq) (proj x wk))
    (fun b t s => ∑ e : Fin 512, (∑ h : Fin 512, xr b t h * wqr h e) * (∑ h : Fin 512, xr b s h * wkr h e))
    hsc (proj x wv) c b t d

end Cert.Attn

end
-- ==== Proof.OutBlocks.lean ====
/-
  The output step's sum, key block by key block, in the specification's vocabulary.

  The kernel's output entry is a sum over eight blocks of 256 key rows of exp(min(score − statistic, 0)) · value, with the
  arrays' rows named by natural numbers.  When the four arrays hold the queries, keys, values and the columns' statistics
  of the specification, each term is the specification's: the score is the specification's score, the statistic the
  specification's statistic, the value the specification's value.  This is rewriting only.
-/
import proofs.«100197_j52690658787659_2_alg».proof.Proof.ValueOut
import proofs.«100197_j52690658787659_2_alg».proof.Proof.AttnBlocks

noncomputable section

open scoped BigOperators

namespace Cert.KernelIdeal.HandValue

open Cert.KernelIdeal Idealize.ShloMosaic Idealize.ShloMosaic.ValueIdx

/-- A row of the query array named by a natural number, against a key row: the specification's score named by natural
    numbers (both are zero when the query row is past the end). -/
theorem scoreRow_scN (Qa Ka : S8x2048x512.Idx → EReal) (q k : Fin 8 → Fin 2048 → Fin 512 → EReal)
    (hQ : ∀ b t e, Qa (ix3 b t e) = q b t e) (hK : ∀ b s e, Ka (ix3 b s e) = k b s e) (b : Fin 8) (n : Nat) (s : Nat) (hs : s < 2048) :
    (∑ e : Fin 512, rowAt Qa b n e * Ka (ix3 b ⟨s, hs⟩ e)) = Cert.Attn.scN (Cert.Attn.score q k) b n s := by
  by_cases hn : n < 2048
  · unfold Cert.Attn.scN
    rw [dif_pos ⟨hn, hs⟩]
    unfold Cert.Attn.score
    refine Finset.sum_congr rfl fun e _ => ?_
    rw [rowAt_of_lt Qa b n e hn, hQ, hK]
  · unfold Cert.Attn.scN
    rw [dif_neg (fun h => hn h.1)]
    refine Finset.sum_eq_zero fun e _ => ?_
    unfold rowAt
    rw [dif_neg hn, zero_mul]

/-- The output entry as the sum over the eight key blocks of the specification's terms. -/
theorem outG_blocks (Qa Ka Va : S8x2048x512.Idx → EReal) (Sa : S8x1x2048.Idx → EReal)
    (q k v : Fin 8 → Fin 2048 → Fin 512 → EReal) (c : EReal)
    (hQ : ∀ b t e, Qa (ix3 b t e) = q b t e) (hK : ∀ b s e, Ka (ix3 b s e) = k b s e) (hV : ∀ b s d, Va (ix3 b s d) = v b s d)
    (hS : ∀ (b : Fin 8) (s : Nat) (h : s < 2048), Sa (ix3 b (0 : Fin 1) ⟨s, h⟩) = Cert.Attn.statN (Cert.Attn.score q k) c b s)
    (b : Fin 8) (t : Fin 2048) (d : Fin 512) :
    outG Qa Ka Va Sa b t d
      = ∑ n ∈ Finset.range 8, ∑ j : Fin 256,
          Ideal.exp (min (Cert.Attn.scN (Cert.Attn.score q k) b t.val (n * 256 + j.val) - Cert.Attn.statN (Cert.Attn.score q k) c b (n * 256 + j.val)) 0)
            * Cert.Attn.vN v b (n * 256 + j.val) d := by
  unfold outG contrib
  refine Finset.sum_congr rfl fun n hn => Finset.sum_congr rfl fun j _ => ?_
  have hn8 : n < 8 := Finset.mem_range.mp hn
  have hs : n * 256 + j.val < 2048 := by have := j.isLt; omega
  have e1 : (∑ e : Fin 512, Qa (ix3 b t e) * rowAt Ka b (n * 256 + j.val) e)
      = Cert.Attn.scN (Cert.Attn.score q k) b t.val (n * 256 + j.val) := by
    unfold Cert.Attn.scN
    rw [dif_pos ⟨t.isLt, hs⟩]
    unfold Cert.Attn.score
    refine Finset.sum_congr rfl fun e _ => ?_
    rw [rowAt_of_lt Ka b _ e hs, hQ, hK]
  have e2 : colAt Sa b (n * 256 + j.val) = Cert.Attn.statN (Cert.Attn.score q k) c b (n * 256 + j.val) := by
    rw [colAt_of_lt Sa b _ hs, hS]
  have e3 : rowAt Va b (n * 256 + j.val) d = Cert.Attn.vN v b (n * 256 + j.val) d := by
    unfold Cert.Attn.vN
    rw [dif_pos hs, rowAt_of_lt Va b _ d hs, hV]
  rw [e1, e2, e3]

end Cert.KernelIdeal.HandValue

end
-- ==== Proof.Bridge.lean ====
/-
  The kernel program's result is the specification's attention.

  The run leaves the result array at what the output call's write-backs leave. Reading the three calls in turn: the
  projection call turns the tokens and the wide weight matrix (the three weight matrices side by side) into the query,
  key and value arrays, which are the specification's three projections; the statistics call reads queries and keys and
  leaves, for every key column, the running maximum plus the logarithm of the running sum after the four query tiles;
  the output call reads all four and leaves the sum of the eight key blocks' contributions. When every input entry is a
  real number that sum is the specification's attention.
-/
import proofs.«100197_j52690658787659_2_alg».proof.Proof.IdealRun
import proofs.«100197_j52690658787659_2_alg».proof.Proof.ValueProj
import proofs.«100197_j52690658787659_2_alg».proof.Proof.ValueHost
import proofs.«100197_j52690658787659_2_alg».proof.Proof.ValueStats
import proofs.«100197_j52690658787659_2_alg».proof.Proof.ValueOut
import proofs.«100197_j52690658787659_2_alg».proof.Proof.AttnBlocks
import proofs.«100197_j52690658787659_2_alg».proof.Proof.OutBlocks

noncomputable section

open scoped BigOperators

namespace Cert.KernelIdeal.HandValue

open Idealize.ShloMosaic Idealize.ShloMosaic.TcCoe Idealize.SL.Sem
open Idealize.ShloMosaic.Pipeline (Dat)
open Cert.KernelIdeal Cert.KernelIdeal.Gen Idealize.ShloMosaic.ValueIdx
open Cert.Attn

variable (m : (ℓ : Loc nD τ sig) → Buf (Elt Ideal) ℓ) (c : Dev nD)

/-- The four argument arrays as the launch finds them. -/
abbrev tokA : S8x2048x512.Idx → EReal := m ((c : Thread nD τ).loc main_arg0)
abbrev wqA : S512x512.Idx → EReal := m ((c : Thread nD τ).loc main_arg1)
abbrev wkA : S512x512.Idx → EReal := m ((c : Thread nD τ).loc main_arg2)
abbrev wvA : S512x512.Idx → EReal := m ((c : Thread nD τ).loc main_arg3)

/-! ## After the projection call: the three projections -/

theorem Q_arr (b : Fin 8) (t : Fin 2048) (e : Fin 512) :
    (Hand.V2 m c main_v2_0 : S8x2048x512.Idx → EReal) (ix3 b t e) = proj (cur3 (tokA m c)) (cur2 (wqA m c)) b t e := by
  have h := (Hand.hF0 m c 2).symm.trans (projQ_final (Hand.V1 m) c)
  refine (congrFun h (ix3 b t e)).trans ?_
  show GQ _ _ b t e = _
  unfold GQ proj cur3 cur2
  refine Finset.sum_congr rfl fun h _ => ?_
  rw [show (Hand.V1 m c main_arg0 : S8x2048x512.Idx → EReal) = tokA m c from tok_kept m c]
  exact congrArg (tokA m c (ix3 b t h) * ·) (wcat_q m c h e)

theorem K_arr (b : Fin 8) (t : Fin 2048) (e : Fin 512) :
    (Hand.V2 m c main_v2_1 : S8x2048x512.Idx → EReal) (ix3 b t e) = proj (cur3 (tokA m c)) (cur2 (wkA m c)) b t e := by
  have h := (Hand.hF0 m c 3).symm.trans (projK_final (Hand.V1 m) c)
  refine (congrFun h (ix3 b t e)).trans ?_
  show GK _ _ b t e = _
  unfold GK proj cur3 cur2
  refine Finset.sum_congr rfl fun h _ => ?_
  rw [show (Hand.V1 m c main_arg0 : S8x2048x512.Idx → EReal) = tokA m c from tok_kept m c]
  exact congrArg (tokA m c (ix3 b t h) * ·) (wcat_k m c h e)

theorem V_arr (b : Fin 8) (t : Fin 2048) (e : Fin 512) :
    (Hand.V2 m c main_v2_2 : S8x2048x512.Idx → EReal) (ix3 b t e) = proj (cur3 (tokA m c)) (cur2 (wvA m c)) b t e := by
  have h := (Hand.hF0 m c 4).symm.trans (projV_final (Hand.V1 m) c)
  refine (congrFun h (ix3 b t e)).trans ?_
  show GV _ _ b t e = _
  unfold GV proj cur3 cur2
  refine Finset.sum_congr rfl fun h _ => ?_
  rw [show (Hand.V1 m c main_arg0 : S8x2048x512.Idx → EReal) = tokA m c from tok_kept m c]
  exact congrArg (tokA m c (ix3 b t h) * ·) (wcat_v m c h e)

/-! ## The statistics call leaves queries, keys and values as they were -/

theorem Q_kept : Hand.V3 m c main_v2_0 = Hand.V2 m c main_v2_0 :=
  (Hand.hF1 m c 0).symm.trans (((Hand.dat1 (Hand.V2 m) c).arrAt_in 0 rfl _).trans (Hand.A_eq1 (Hand.V2 m) c 0))
theorem K_kept : Hand.V3 m c main_v2_1 = Hand.V2 m c main_v2_1 :=
  (Hand.hF1 m c 1).symm.trans (((Hand.dat1 (Hand.V2 m) c).arrAt_in 1 rfl _).trans (Hand.A_eq1 (Hand.V2 m) c 1))
theorem Vv_kept : Hand.V3 m c main_v2_2 = Hand.V2 m c main_v2_2 :=
  Hand.hrest1 m c main_v2_2 (by decide)

theorem Q3_arr (b : Fin 8) (t : Fin 2048) (e : Fin 512) :
    (Hand.V3 m c main_v2_0 : S8x2048x512.Idx → EReal) (ix3 b t e) = proj (cur3 (tokA m c)) (cur2 (wqA m c)) b t e :=
  (congrFun (Q_kept m c) (ix3 b t e)).trans (Q_arr m c b t e)
theorem K3_arr (b : Fin 8) (t : Fin 2048) (e : Fin 512) :
    (Hand.V3 m c main_v2_1 : S8x2048x512.Idx → EReal) (ix3 b t e) = proj (cur3 (tokA m c)) (cur2 (wkA m c)) b t e :=
  (congrFun (K_kept m c) (ix3 b t e)).trans (K_arr m c b t e)
theorem V3_arr (b : Fin 8) (t : Fin 2048) (e : Fin 512) :
    (Hand.V3 m c main_v2_2 : S8x2048x512.Idx → EReal) (ix3 b t e) = proj (cur3 (tokA m c)) (cur2 (wvA m c)) b t e :=
  (congrFun (Vv_kept m c) (ix3 b t e)).trans (V_arr m c b t e)

/-! ## After the statistics call: every key column's statistic -/

theorem stat_arr (cN : ℝ) (hc : Ideal.ofBits .f32 0xFF333332#32 = ((cN : ℝ) : EReal)) (b : Fin 8) (s : Nat) (hs : s < 2048) :
    (Hand.V3 m c main_v3 : S8x1x2048.Idx → EReal) (ix3 b (0 : Fin 1) ⟨s, hs⟩)
      = statN (score (proj (cur3 (tokA m c)) (cur2 (wqA m c))) (proj (cur3 (tokA m c)) (cur2 (wkA m c)))) ((cN : ℝ) : EReal) b s := by
  have h := (Hand.hF1 m c 2).symm.trans (stat_final (Hand.V2 m) c)
  refine (congrFun h (ix3 b (0 : Fin 1) ⟨s, hs⟩)).trans ?_
  show statG (Hand.V2 m c main_v2_0) (Hand.V2 m c main_v2_1) b ⟨s, hs⟩ = _
  unfold statG statN
  rw [hc]
  refine congrArg (fun X => logSumStat (P := 512) ((cN : ℝ) : EReal) X 4) (funext fun k => funext fun r => ?_)
  exact scoreRow_scN (Hand.V2 m c main_v2_0) (Hand.V2 m c main_v2_1) _ _ (Q_arr m c) (K_arr m c) b (k * 512 + r.val) s hs

/-! ## After the output call -/

/-- With every input entry a real number, the result array the run leaves is the specification's attention. -/
theorem kernel_value (hx : ∀ i, ∃ r : ℝ, tokA m c i = ((r : ℝ) : EReal)) (hq : ∀ i, ∃ r : ℝ, wqA m c i = ((r : ℝ) : EReal))
    (hk : ∀ i, ∃ r : ℝ, wkA m c i = ((r : ℝ) : EReal)) (hv : ∀ i, ∃ r : ℝ, wvA m c i = ((r : ℝ) : EReal)) :
    (Hand.dat2 (F := Ideal) (Hand.V3 m) c).arrAt 4 cfg2.N
      = (fun i : S8x2048x512.Idx => attention (cur3 (tokA m c)) (cur2 (wqA m c)) (cur2 (wkA m c)) (cur2 (wvA m c)) (i 0) (i 1) (i 2)) := by
  obtain ⟨cN, hc⟩ := negBig_real
  refine (out_final (Hand.V3 m) c).trans (funext fun i => ?_)
  refine (outG_blocks _ _ _ _ _ _ _ ((cN : ℝ) : EReal) (Q3_arr m c) (K3_arr m c) (V3_arr m c) (stat_arr m c cN hc) (i 0) (i 1) (i 2)).trans ?_
  exact attention_blocks _ _ _ _ (fun b t h => hx (ix3 b t h)) (fun h e => hq (ix2 h e)) (fun h e => hk (ix2 h e)) (fun h e => hv (ix2 h e)) cN (i 0) (i 1) (i 2)

end Cert.KernelIdeal.HandValue

end
-- ==== Proof.RefValue.lean ====
/-
  The reference program read at an index: each stage of the reference, at coordinates, is the
  corresponding piece of the specification.
-/
import proofs.«100197_j52690658787659_2_alg».proof.Proof.Gen.ReferenceIdeal.Read
import proofs.«100197_j52690658787659_2_alg».proof.Proof.AttnSpec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Attn

/-! ## The three projections -/

/-- Queries: rows of the tokens against the columns of the first weight matrix. -/
theorem v0_ix (x0 : (⟨S8x2048x512, .f32⟩ : BufTy).Contents (Elt Ideal)) (x1 : (⟨S512x512, .f32⟩ : BufTy).Contents (Elt Ideal))
    (b : Fin 8) (t : Fin 2048) (e : Fin 512) :
    val_main_v0 (F := Ideal) x0 x1 (ix3 b t e) = proj (cur3 x0) (cur2 x1) b t e := by
  rw [val_main_v0_apply]
  unfold proj cur3 cur2
  refine Finset.sum_congr rfl fun h _ => ?_
  have el : lidx_main_v0 (ix3 b t e) h = ix3 b t h :=
    funext fun a => Fin.ext (by match a with | ⟨0, _⟩ => rfl | ⟨1, _⟩ => rfl | ⟨2, _⟩ => rfl)
  have er : ridx_main_v0 (ix3 b t e) h = ix2 h e :=
    funext fun a => Fin.ext (by match a with | ⟨0, _⟩ => rfl | ⟨1, _⟩ => rfl)
  rw [el, er]

/-- Keys: the same against the second weight matrix. -/
theorem v1_ix (x0 : (⟨S8x2048x512, .f32⟩ : BufTy).Contents (Elt Ideal)) (x2 : (⟨S512x512, .f32⟩ : BufTy).Contents (Elt Ideal))
    (b : Fin 8) (t : Fin 2048) (e : Fin 512) :
    val_main_v1 (F := Ideal) x0 x2 (ix3 b t e) = proj (cur3 x0) (cur2 x2) b t e := by
  rw [val_main_v1_apply]
  unfold proj cur3 cur2
  refine Finset.sum_congr rfl fun h _ => ?_
  have el : lidx_main_v1 (ix3 b t e) h = ix3 b t h :=
    funext fun a => Fin.ext (by match a with | ⟨0, _⟩ => rfl | ⟨1, _⟩ => rfl | ⟨2, _⟩ => rfl)
  have er : ridx_main_v1 (ix3 b t e) h = ix2 h e :=
    funext fun a => Fin.ext (by match a with | ⟨0, _⟩ => rfl | ⟨1, _⟩ => rfl)
  rw [el, er]

/-- Values: the same against the third weight matrix. -/
theorem v2_ix (x0 : (⟨S8x2048x512, .f32⟩ : BufTy).Contents (Elt Ideal)) (x3 : (⟨S512x512, .f32⟩ : BufTy).Contents (Elt Ideal))
    (b : Fin 8) (t : Fin 2048) (e : Fin 512) :
    val_main_v2 (F := Ideal) x0 x3 (ix3 b t e) = proj (cur3 x0) (cur2 x3) b t e := by
  rw [val_main_v2_apply]
  unfold proj cur3 cur2
  refine Finset.sum_congr rfl fun h _ => ?_
  have el : lidx_main_v2 (ix3 b t e) h = ix3 b t h :=
    funext fun a => Fin.ext (by match a with | ⟨0, _⟩ => rfl | ⟨1, _⟩ => rfl | ⟨2, _⟩ => rfl)
  have er : ridx_main_v2 (ix3 b t e) h = ix2 h e :=
    funext fun a => Fin.ext (by match a with | ⟨0, _⟩ => rfl | ⟨1, _⟩ => rfl)
  rw [el, er]

/-! ## Scores -/

/-- The scores of the specification, of the reference's queries and keys. -/
abbrev sc (x0 : (⟨S8x2048x512, .f32⟩ : BufTy).Contents (Elt Ideal)) (x1 x2 : (⟨S512x512, .f32⟩ : BufTy).Contents (Elt Ideal)) :
    Fin 8 → Fin 2048 → Fin 2048 → EReal :=
  score (proj (cur3 x0) (cur2 x1)) (proj (cur3 x0) (cur2 x2))

/-- Query row `t` against key row `s`, contracted over the feature axis. -/
theorem v3_ix (x0 : (⟨S8x2048x512, .f32⟩ : BufTy).Contents (Elt Ideal)) (x1 x2 : (⟨S512x512, .f32⟩ : BufTy).Contents (Elt Ideal))
    (b : Fin 8) (t s : Fin 2048) :
    val_main_v3 (F := Ideal) x0 x1 x2 (ix3 b t s) = sc x0 x1 x2 b t s := by
  rw [val_main_v3_apply]
  unfold sc score
  refine Finset.sum_congr rfl fun e _ => ?_
  have el : lidx_main_v3 (ix3 b t s) e = ix3 b t e :=
    funext fun a => Fin.ext (by match a with | ⟨0, _⟩ => rfl | ⟨1, _⟩ => rfl | ⟨2, _⟩ => rfl)
  have er : ridx_main_v3 (ix3 b t s) e = ix3 b s e :=
    funext fun a => Fin.ext (by match a with | ⟨0, _⟩ => rfl | ⟨1, _⟩ => rfl | ⟨2, _⟩ => rfl)
  rw [el, er, v0_ix, v1_ix]

/-! ## The column maximum -/

/-- The bit pattern of −∞ is the bottom of the extended reals. -/
theorem ofBits_neg_inf : Ideal.ofBits .f32 0xFF800000#32 = (⊥ : EReal) := by
  simp [Ideal.ofBits, Ideal.ieee]

/-- A result index (b, s) with the query coordinate `k` put back on the reduced axis is (b, k, s). -/
theorem lift_d1 (h : S8x2048x2048.Reduces [1] S8x2048) (b : Fin 8) (s : Fin 2048) (k : Fin (S8x2048x2048.size 1)) :
    h.lift (ix2 b s) k = ix3 b (⟨k.val, k.isLt⟩ : Fin 2048) s := by
  funext c; apply Fin.ext
  fin_cases c <;> rfl

/-- A maximum-reduce from −∞ over the query axis of any [8, 2048, 2048] array, at (b, s), is the fold of `max` from ⊥
    of the array's column (b, ·, s). -/
theorem reduce_max_d1 (y : S8x2048x2048.Idx → EReal) (b : Fin 8) (s : Fin 2048) :
    Host.reduce (FloatOps.maximumf (F := Ideal) (φ := .f32)) y (val_main_cst (F := Ideal)) reducesTo_S8x2048x2048_S8x2048_d1 h_S_ (ix2 b s)
      = (Finset.univ : Finset (Fin 2048)).fold max ⊥ (fun t => y (ix3 b t s)) := by
  have h : S8x2048x2048.Reduces [1] S8x2048 := by decide
  rw [Host.reduce_eq_fold_single (FloatOps.maximumf (F := Ideal) (φ := .f32)) y _ reducesTo_S8x2048x2048_S8x2048_d1 h h_S_]
  rw [val_main_cst_apply, Ideal.ofBits_def, ofBits_neg_inf]
  have hf : (y ∘ h.lift (ix2 b s)) = fun t : Fin 2048 => y (ix3 b t s) := funext fun k => congrArg y (lift_d1 h b s k)
  exact congrArg (fun f => Finset.fold max (⊥ : EReal) f (Finset.univ : Finset (Fin 2048))) hf

/-- The reference's column maximum is the specification's. -/
theorem v4_ix (x0 : (⟨S8x2048x512, .f32⟩ : BufTy).Contents (Elt Ideal)) (x1 x2 : (⟨S512x512, .f32⟩ : BufTy).Contents (Elt Ideal))
    (b : Fin 8) (s : Fin 2048) :
    val_main_v4 (F := Ideal) x0 x1 x2 (ix2 b s) = colMax (sc x0 x1 x2) b s := by
  unfold val_main_v4
  rw [reduce_max_d1]
  unfold colMax
  exact congrArg (fun f => Finset.fold max (⊥ : EReal) f (Finset.univ : Finset (Fin 2048))) (funext fun t => v3_ix x0 x1 x2 b t s)

/-- Taking the maximum with −∞ once more changes nothing. -/
theorem v6_ix (x0 : (⟨S8x2048x512, .f32⟩ : BufTy).Contents (Elt Ideal)) (x1 x2 : (⟨S512x512, .f32⟩ : BufTy).Contents (Elt Ideal))
    (b : Fin 8) (s : Fin 2048) :
    val_main_v6 (F := Ideal) x0 x1 x2 (ix2 b s) = colMax (sc x0 x1 x2) b s := by
  rw [val_main_v6_apply, val_main_v5_apply, val_main_cst_0_apply, v4_ix, Ideal.ofBits_def, ofBits_neg_inf, Ideal.maximumf_def]
  exact max_eq_right bot_le

/-- The column maximum, broadcast back along the query axis. -/
theorem v8_ix (x0 : (⟨S8x2048x512, .f32⟩ : BufTy).Contents (Elt Ideal)) (x1 x2 : (⟨S512x512, .f32⟩ : BufTy).Contents (Elt Ideal))
    (b : Fin 8) (t s : Fin 2048) :
    val_main_v8 (F := Ideal) x0 x1 x2 (ix3 b t s) = colMax (sc x0 x1 x2) b s := by
  rw [val_main_v8_apply, val_main_v7_apply]
  have e : idx_main_v7 (idx_main_v8 (ix3 b t s)) = ix2 b s :=
    funext fun a => Fin.ext (by match a with | ⟨0, _⟩ => rfl | ⟨1, _⟩ => rfl)
  rw [e, v6_ix]

/-! ## Exponentials, their column sums, the weights -/

/-- The exponential of a score against its column's maximum. -/
theorem v10_ix (x0 : (⟨S8x2048x512, .f32⟩ : BufTy).Contents (Elt Ideal)) (x1 x2 : (⟨S512x512, .f32⟩ : BufTy).Contents (Elt Ideal))
    (b : Fin 8) (t s : Fin 2048) :
    val_main_v10 (F := Ideal) x0 x1 x2 (ix3 b t s) = colExp (sc x0 x1 x2) b t s := by
  rw [val_main_v10_apply, val_main_v9_apply, v3_ix, v8_ix, Ideal.subf_def, Ideal.hostUnary_exp_def]
  rfl

/-- The column's normaliser: the sum of those exponentials over the query axis. -/
theorem v11_ix (x0 : (⟨S8x2048x512, .f32⟩ : BufTy).Contents (Elt Ideal)) (x1 x2 : (⟨S512x512, .f32⟩ : BufTy).Contents (Elt Ideal))
    (b : Fin 8) (s : Fin 2048) :
    val_main_v11 (F := Ideal) x0 x1 x2 (ix2 b s) = colSum (sc x0 x1 x2) b s := by
  rw [val_main_v11_apply, val_main_cst_1_apply, Ideal.ofBits_def, Ideal.ofBits_zero_f32, zero_add]
  unfold colSum
  refine Finset.sum_congr rfl fun t _ => ?_
  have e : idx_main_v11 (ix2 b s) t = ix3 b t s :=
    funext fun a => Fin.ext (by match a with | ⟨0, _⟩ => rfl | ⟨1, _⟩ => rfl | ⟨2, _⟩ => rfl)
  rw [e, v10_ix]

/-- The normaliser, broadcast back along the query axis. -/
theorem v13_ix (x0 : (⟨S8x2048x512, .f32⟩ : BufTy).Contents (Elt Ideal)) (x1 x2 : (⟨S512x512, .f32⟩ : BufTy).Contents (Elt Ideal))
    (b : Fin 8) (t s : Fin 2048) :
    val_main_v13 (F := Ideal) x0 x1 x2 (ix3 b t s) = colSum (sc x0 x1 x2) b s := by
  rw [val_main_v13_apply, val_main_v12_apply]
  have e : idx_main_v12 (idx_main_v13 (ix3 b t s)) = ix2 b s :=
    funext fun a => Fin.ext (by match a with | ⟨0, _⟩ => rfl | ⟨1, _⟩ => rfl)
  rw [e, v11_ix]

/-- The softmax weight over the query axis. -/
theorem v14_ix (x0 : (⟨S8x2048x512, .f32⟩ : BufTy).Contents (Elt Ideal)) (x1 x2 : (⟨S512x512, .f32⟩ : BufTy).Contents (Elt Ideal))
    (b : Fin 8) (t s : Fin 2048) :
    val_main_v14 (F := Ideal) x0 x1 x2 (ix3 b t s) = weight (sc x0 x1 x2) b t s := by
  rw [val_main_v14_apply, v10_ix, v13_ix, Ideal.hostDivf_def]
  rfl

/-! ## The result -/

/-- Weights against values, at coordinates. -/
theorem ref_apply_ix (x0 : (⟨S8x2048x512, .f32⟩ : BufTy).Contents (Elt Ideal)) (x1 x2 x3 : (⟨S512x512, .f32⟩ : BufTy).Contents (Elt Ideal))
    (b : Fin 8) (t : Fin 2048) (d : Fin 512) :
    val_main_v15 (F := Ideal) x0 x1 x2 x3 (ix3 b t d)
      = attention (cur3 x0) (cur2 x1) (cur2 x2) (cur2 x3) b t d := by
  rw [val_main_v15_apply]
  unfold attention context
  refine Finset.sum_congr rfl fun s _ => ?_
  have el : lidx_main_v15 (ix3 b t d) s = ix3 b t s :=
    funext fun a => Fin.ext (by match a with | ⟨0, _⟩ => rfl | ⟨1, _⟩ => rfl | ⟨2, _⟩ => rfl)
  have er : ridx_main_v15 (ix3 b t d) s = ix3 b s d :=
    funext fun a => Fin.ext (by match a with | ⟨0, _⟩ => rfl | ⟨1, _⟩ => rfl | ⟨2, _⟩ => rfl)
  rw [el, er, v14_ix, v2_ix]

/-- The reference's result at an index is the specification's attention of the four argument arrays, at the index's
    coordinates. -/
theorem ref_apply (x0 : (⟨S8x2048x512, .f32⟩ : BufTy).Contents (Elt Ideal)) (x1 x2 x3 : (⟨S512x512, .f32⟩ : BufTy).Contents (Elt Ideal))
    (i : S8x2048x512.Idx) :
    Cert.ReferenceIdeal.Read.val_main_v15 (F := Ideal) x0 x1 x2 x3 i
      = Cert.Attn.attention (Cert.Attn.cur3 x0) (Cert.Attn.cur2 x1) (Cert.Attn.cur2 x2) (Cert.Attn.cur2 x3) (i 0) (i 1) (i 2) :=
  (congrArg (val_main_v15 (F := Ideal) x0 x1 x2 x3) (eq_ix3 i)).trans (ref_apply_ix x0 x1 x2 x3 (i 0) (i 1) (i 2))

end Cert.ReferenceIdeal.RefValue

end
-- ==== Proof.FiniteInputs.lean ====
/-
  The precondition read back: when the four "every entry has finite magnitude" tests all answer yes, every entry of
  each of the four argument arrays is a real number (neither +∞ nor −∞).
-/
import proofs.«100197_j52690658787659_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Real

open Idealize.ShloMosaic Idealize.ShloMosaic.ValueIdx Cert.Pre_finite_inputs

/-- The scalar shape has one index. -/
instance : Subsingleton S_.Idx := ⟨fun a b => funext fun d => d.elim0⟩

/-- The bit pattern of +∞ is the top of the extended reals. -/
theorem ofBits_pos_inf : Ideal.ofBits .f32 0x7F800000#32 = (⊤ : EReal) := by
  simp [Ideal.ofBits, Ideal.ieee]

/-- An ordered "less than" that answers yes is a strict inequality of extended reals. -/
theorem lt_of_cmp_olt {x y : EReal} (h : Ideal.cmp .olt x y = 1#1) : x < y := by
  unfold Ideal.cmp at h
  by_contra hn
  simp [hn] at h

/-- A magnitude below +∞ excludes both infinities: |x| = max x (−x) is +∞ at either. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: |a i| < +∞ answered yes, so a i is real. -/
theorem real_of_test {s : Shape} (a : FVec Ideal s .f32) (hb : S_.BroadcastsInDim s (![] : Fin 0 → Fin s.rank)) (i : s.Idx)
    (e : cmpf .olt (Host.absf a) (broadcastInDim s ![] hb (constant (F := Ideal) S_ .f32 0x7F800000#32)) i = 1#1) :
    ∃ r : ℝ, a i = (r : EReal) := by
  have hb' := broadcastInDim_apply (![] : Fin 0 → Fin s.rank) hb (constant (F := Ideal) S_ .f32 0x7F800000#32) i ix0
    (fun a => a.elim0)
  rw [cmpf_apply, hb'] at e
  have e1 : Ideal.cmp .olt (max (a i) (-(a i))) (Ideal.ofBits .f32 0x7F800000#32) = 1#1 := e
  rw [ofBits_pos_inf] at e1
  exact real_of_abs_lt_top (a i) (lt_of_cmp_olt e1)

/-- The four tests, and-ed together, answered yes: every entry of every argument is real. -/
theorem real_of_finite [Cert.Pre_finite_inputs.Facts] (a0 : FVec Ideal Cert.Pre_finite_inputs.S8x2048x512 .f32)
    (a1 a2 a3 : FVec Ideal Cert.Pre_finite_inputs.S512x512 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_test a0 _ i (Host.reduce_andi_all _ _ _ _ ix0 h0' i),
    fun i => real_of_test a1 _ i (Host.reduce_andi_all _ _ _ _ ix0 h1 i),
    fun i => real_of_test a2 _ i (Host.reduce_andi_all _ _ _ _ ix0 h2 i),
    fun i => real_of_test a3 _ i (Host.reduce_andi_all _ _ _ _ ix0 h3 i)⟩

end Cert.Pre_finite_inputs.Real

end
-- ==== Proof.lean ====
/-
  Attention with the softmax taken over the QUERY axis, computed by three kernels — the three projections as one wide
  matrix product; a pass that accumulates, for every key column, a running maximum and a running sum of exponentials
  over four tiles of query rows and emits their combination max + log(sum); a pass that turns each score into the weight
  exp(min(score − statistic, 0)) and accumulates weights times values over eight blocks of key rows — against the plain
  formula exp(score − max) / Σ exp(score − max), then weights times values.

  Over the reals the two agree: max + log Σ exp(score − max) is log Σ exp(score) whatever maximum the accumulation was
  started from (a finite stand-in here), a score never exceeds that logarithm, so the clamp at zero does nothing, and
  exp(score − log Σ exp) is the softmax weight. The inputs are finite, so every intermediate value is a real number and
  the laws of exponential, logarithm and finite sums apply; the order and tiling of the sums does not matter.

  The three programs run to the end, fault nowhere and leave their arguments unchanged: for the two kernels programs by
  running the launch through its two host operations and three kernel calls, each call's body at every grid point; for
  the reference by its generated run.
-/
import proofs.«100197_j52690658787659_2_alg».proof.Defs
import proofs.«100197_j52690658787659_2_alg».proof.Proof.Gen.Kernel
import proofs.«100197_j52690658787659_2_alg».proof.Proof.Gen.KernelIdeal
import proofs.«100197_j52690658787659_2_alg».proof.Proof.Gen.ReferenceIdeal
import proofs.«100197_j52690658787659_2_alg».proof.Proof.Gen.Pre_finite_inputs
import proofs.«100197_j52690658787659_2_alg».proof.Proof.Gen.ReferenceIdeal.Run
import proofs.«100197_j52690658787659_2_alg».proof.Proof.Gen.ReferenceIdeal.Read
import proofs.«100197_j52690658787659_2_alg».proof.Proof.BitsRun
import proofs.«100197_j52690658787659_2_alg».proof.Proof.IdealRun
import proofs.«100197_j52690658787659_2_alg».proof.Proof.Bridge
import proofs.«100197_j52690658787659_2_alg».proof.Proof.RefValue
import proofs.«100197_j52690658787659_2_alg».proof.Proof.FiniteInputs
import Idealize.ShloMosaic.Adequacy
import Idealize.ShloMosaic.Init

noncomputable section

namespace Cert.Proof

open Idealize.ShloMosaic Idealize.SL.Sem

/-- The bit-level kernel program runs and keeps its arguments. -/
theorem frame_kernel : Cert.frame_Kernel := fun m ρ _ =>
  (θ_run Cert.Kernel.defs _ _).mono (fun _ h c => (h c).2) (Cert.Kernel.Hand.run (F := Bits) m ρ)

/-- The idealized kernel program runs and keeps its arguments. -/
theorem frame_kernelIdeal : Cert.frame_KernelIdeal := fun m ρ _ =>
  (θ_run Cert.KernelIdeal.defs _ _).mono (fun _ h c => (h c).2) (Cert.KernelIdeal.Hand.run (F := Ideal) m ρ)

/-- The idealized reference runs and keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs run and end with the same result array: the kernel
    program's is what its output call's write-backs leave, which for real inputs is the specification's attention of the
    four argument arrays; the reference's is its operations' composed term, which is the same function index by index. -/
theorem algebraic : Cert.algebraic_KernelIdeal_ReferenceIdeal := by
  intro m ρ m' ρ' hpre hagree
  refine ⟨fun c => (Cert.KernelIdeal.Hand.dat2 (F := Ideal) (Cert.KernelIdeal.Hand.V3 m) c).arrAt 4 Cert.KernelIdeal.cfg2.N,
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hk, hv⟩ := Cert.Pre_finite_inputs.Real.real_of_finite _ _ _ _ (hpre c)
  refine Eq.trans ?_ (Cert.KernelIdeal.HandValue.kernel_value m c hx hq hk hv).symm
  rw [Cert.ReferenceIdeal.Read.val_main_v15_eq, (hagree c).1, (hagree c).2.1, (hagree c).2.2.1, (hagree c).2.2.2]
  funext i
  exact Cert.ReferenceIdeal.RefValue.ref_apply _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
